-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128 .f32) (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg16
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S256x128 .f32) (main_arg15 : FVec F S128 .f32) (main_arg16 : FVec F S128x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x128 .f32 := Host.absf main_arg14
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S256x128 .f32) (main_arg15 : FVec F S128 .f32) (main_arg16 : FVec F S128x1 .f32) (main_arg17 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S256x128 .f32) (main_arg15 : FVec F S128 .f32) (main_arg16 : FVec F S128x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S256x128 .f32) (main_arg15 : FVec F S128 .f32) (main_arg16 : FVec F S128x1 .f32) (main_arg17 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x128 : Shape := ⟨2, ![2000, 128]⟩
abbrev S2000x1 : Shape := ⟨2, ![2000, 1]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S10000x128 : Shape := ⟨2, ![10000, 128]⟩
abbrev S10000x1 : Shape := ⟨2, ![10000, 1]⟩
abbrev S1x1 : Shape := ⟨2, ![1, 1]⟩

abbrev nBuf : Space → Nat
  | .hbm => 93
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S256x128, .f32⟩
  | .hbm, ⟨15, _⟩ => ⟨S128, .f32⟩
  | .hbm, ⟨16, _⟩ => ⟨S128x1, .f32⟩
  | .hbm, ⟨17, _⟩ => ⟨S1, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S50000, .i32⟩
  | .hbm, ⟨23, _⟩ => ⟨S850000, .i32⟩
  | .hbm, ⟨24, _⟩ => ⟨S850000, .i32⟩
  | .hbm, ⟨25, _⟩ => ⟨S_, .f32⟩
  | .hbm, ⟨26, _⟩ => ⟨S850000, .f32⟩
  | .hbm, ⟨27, _⟩ => ⟨S_, .f32⟩
  | .hbm, ⟨28, _⟩ => ⟨S50000, .f32⟩
  | .hbm, ⟨29, _⟩ => ⟨S850000x1, .i32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x128, .bf16⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000x128, .bf16⟩
  | .hbm, ⟨43, _⟩ => ⟨S850000x128, .f32⟩
  | .hbm, ⟨44, _⟩ => ⟨S_, .f32⟩
  | .hbm, ⟨45, _⟩ => ⟨S50000x128, .f32⟩
  | .hbm, ⟨46, _⟩ => ⟨S850000x1, .i32⟩
  | .hbm, ⟨47, _⟩ => ⟨S50000x128, .f32⟩
  | .hbm, ⟨48, _⟩ => ⟨S50000x128, .bf16⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .bf16⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S128x128, .f32⟩
  | .hbm, ⟨64, _⟩ => ⟨S128x128, .f32⟩
  | .hbm, ⟨65, _⟩ => ⟨S50000x128, .bf16⟩
  | .hbm, ⟨66, _⟩ => ⟨S50000x128, .bf16⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .bf16⟩
  | .hbm, ⟨76, _⟩ => ⟨S800000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .bf16⟩
  | .hbm, ⟨86, _⟩ => ⟨S800000x128, .f32⟩
  | .hbm, ⟨87, _⟩ => ⟨S800000x128, .f32⟩
  | .hbm, ⟨88, _⟩ => ⟨S1x128, .f32⟩
  | .hbm, ⟨89, _⟩ => ⟨S800000x128, .f32⟩
  | .hbm, ⟨90, _⟩ => ⟨S800000x128, .f32⟩
  | .hbm, ⟨91, _⟩ => ⟨S800000x1, .f32⟩
  | .hbm, ⟨92, _⟩ => ⟨S800000, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S2000x1, .f32⟩
  | .local _ .vmem, ⟨15, _⟩ => ⟨S2000x1, .f32⟩
  | .local _ .vmem, ⟨16, _⟩ => ⟨S128x128, .f32⟩
  | .local _ .vmem, ⟨17, _⟩ => ⟨S2000x128, .bf16⟩
  | .local _ .vmem, ⟨18, _⟩ => ⟨S2000x128, .bf16⟩
  | .local _ .vmem, ⟨19, _⟩ => ⟨S2000x128, .f32⟩
  | .local _ .vmem, ⟨20, _⟩ => ⟨S2000x128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S2000x1, .f32⟩
  | .local _ .vmem, ⟨27, _⟩ => ⟨S2000x1, .f32⟩
  | .local _ .vmem, ⟨28, _⟩ => ⟨S128x128, .f32⟩
  | .local _ .vmem, ⟨29, _⟩ => ⟨S128x128, .f32⟩
  | .local _ .vmem, ⟨30, _⟩ => ⟨S2000x128, .bf16⟩
  | .local _ .vmem, ⟨31, _⟩ => ⟨S2000x128, .bf16⟩
  | .local _ .vmem, ⟨32, _⟩ => ⟨S2000x128, .bf16⟩
  | .local _ .vmem, ⟨33, _⟩ => ⟨S2000x128, .bf16⟩
  | .local _ .vmem, ⟨34, _⟩ => ⟨S10000x128, .f32⟩
  | .local _ .vmem, ⟨35, _⟩ => ⟨S10000x128, .f32⟩
  | .local _ .vmem, ⟨36, _⟩ => ⟨S128x1, .f32⟩
  | .local _ .vmem, ⟨37, _⟩ => ⟨S1, .f32⟩
  | .local _ .vmem, ⟨38, _⟩ => ⟨S10000x1, .f32⟩
  | .local _ .vmem, ⟨39, _⟩ => ⟨S10000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c : Ref sig .tc := ⟨.hbm, 34, rfl⟩
abbrev main_v14 : Ref sig .tc := ⟨.hbm, 35, rfl⟩
abbrev main_v15 : Ref sig .tc := ⟨.hbm, 36, rfl⟩
abbrev main_c_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_3 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39_0 : Ref sig .tc := ⟨.hbm, 65, rfl⟩
abbrev main_v39_1 : Ref sig .tc := ⟨.hbm, 66, rfl⟩
abbrev main_c_6 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_c_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg9_1 : Ref sig .tc := ⟨.vmem, 31, rfl⟩
abbrev cc2_stg10_0 : Ref sig .tc := ⟨.vmem, 32, rfl⟩
abbrev cc2_stg10_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc2_sem9_0 : DmaSem sig := 30
abbrev cc2_sem9_1 : DmaSem sig := 31
abbrev cc2_sem10_0 : DmaSem sig := 32
abbrev cc2_sem10_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem3_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2000x128 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  slices_S256x128_S128x128_0_0 : S256x128.Slices ![0, 0] S128x128
  slices_S256x128_S128x128_128_0 : S256x128.Slices ![128, 0] S128x128
  shapeCasts_S128x128_S128x128 : S128x128.ShapeCasts S128x128
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S800000x1_S800000 : S800000x1.ShapeCasts S800000
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x1.size a ≤ S50000x1.size a
  hwx1_6 : ∀ i : grid1.Coords, EltTy.bits .f32 = 32 ∨ (Rect.block (s := S50000x1) S2000x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .bf16 = 32 ∨ (Rect.block (s := S50000x128) S2000x128.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x1.size a ≤ S50000x1.size a
  hwx2_6 : ∀ i : grid2.Coords, EltTy.bits .f32 = 32 ∨ (Rect.block (s := S50000x1) S2000x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S50000x128.size a
  hwx2_9 : ∀ i : grid2.Coords, EltTy.bits .bf16 = 32 ∨ (Rect.block (s := S50000x128) S2000x128.size (cc2_transform_9 i) (hinb2_9 i)).WholeWords (EltTy.packing .bf16)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S50000x128.size a
  hwx2_10 : ∀ i : grid2.Coords, EltTy.bits .bf16 = 32 ∨ (Rect.block (s := S50000x128) S2000x128.size (cc2_transform_10 i) (hinb2_10 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S800000x128.size a
  hwx3_0 : ∀ i : grid3.Coords, EltTy.bits .f32 = 32 ∨ (Rect.block (s := S800000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1.size a ≤ S1.size a
  hwx3_2 : ∀ i : grid3.Coords, EltTy.bits .f32 = 32 ∨ (Rect.block (s := S1) S1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S800000x1.size a
  hwx3_3 : ∀ i : grid3.Coords, EltTy.bits .f32 = 32 ∨ (Rect.block (s := S800000x1) S10000x1.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S2000x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S2000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v37) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v38) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v39_0) S2000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v39_1) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v59) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg16) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg17) S1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S10000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S800000x1 : Shape := ⟨2, ![800000, 1]⟩
abbrev S800000x128 : Shape := ⟨2, ![800000, 128]⟩
abbrev S800000x256 : Shape := ⟨2, ![800000, 256]⟩
abbrev S1x1 : Shape := ⟨2, ![1, 1]⟩

abbrev nBuf : Space → Nat
  | .hbm => 193
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S256x128, .f32⟩
  | 15 => ⟨S128, .f32⟩
  | 16 => ⟨S128x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S50000x128, .f32⟩
  | 23 => ⟨S50000, .i32⟩
  | 24 => ⟨S850000, .i32⟩
  | 25 => ⟨S850000, .i32⟩
  | 26 => ⟨S_, .f32⟩
  | 27 => ⟨S850000, .f32⟩
  | 28 => ⟨S_, .f32⟩
  | 29 => ⟨S50000, .f32⟩
  | 30 => ⟨S850000x1, .i32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S50000, .i32⟩
  | 90 => ⟨S850000, .i32⟩
  | 91 => ⟨S850000, .i32⟩
  | 92 => ⟨S_, .f32⟩
  | 93 => ⟨S850000, .f32⟩
  | 94 => ⟨S_, .f32⟩
  | 95 => ⟨S50000, .f32⟩
  | 96 => ⟨S850000x1, .i32⟩
  | 97 => ⟨S50000, .f32⟩
  | 98 => ⟨S50000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000, .f32⟩
  | 117 => ⟨S850000, .f32⟩
  | 118 => ⟨S850000x1, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x128, .f32⟩

abbrev hbmTy0_1 (i : Nat) : BufTy := match i % 128 with
  | 0 => ⟨S850000x128, .f32⟩
  | 1 => ⟨S850000x128, .f32⟩
  | 2 => ⟨S_, .f32⟩
  | 3 => ⟨S50000x128, .f32⟩
  | 4 => ⟨S850000x1, .i32⟩
  | 5 => ⟨S50000x128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S_, .f32⟩
  | 13 => ⟨S128, .f32⟩
  | 14 => ⟨S128, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S800000x256, .f32⟩
  | 45 => ⟨S800000x128, .f32⟩
  | 46 => ⟨S1x128, .f32⟩
  | 47 => ⟨S800000x128, .f32⟩
  | 48 => ⟨S800000x128, .f32⟩
  | 49 => ⟨S_, .f32⟩
  | 50 => ⟨S800000x128, .f32⟩
  | 51 => ⟨S800000x128, .f32⟩
  | 52 => ⟨S800000x1, .f32⟩
  | 53 => ⟨S1x1, .f32⟩
  | 54 => ⟨S800000x1, .f32⟩
  | 55 => ⟨S800000x1, .f32⟩
  | 56 => ⟨S800000x1, .f32⟩
  | 57 => ⟨S800000x1, .f32⟩
  | 58 => ⟨S_, .f32⟩
  | 59 => ⟨S800000x1, .f32⟩
  | 60 => ⟨S800000x1, .f32⟩
  | 61 => ⟨S_, .f32⟩
  | 62 => ⟨S800000x1, .f32⟩
  | 63 => ⟨S800000x1, .f32⟩
  | 64 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call0_cst : Ref sig .tc := ⟨.hbm, 85, rfl⟩
abbrev main_call0_v0 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_8 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_10 : Ref sig .tc := ⟨.hbm, 99, rfl⟩
abbrev main_v67 : Ref sig .tc := ⟨.hbm, 100, rfl⟩
abbrev main_v68 : Ref sig .tc := ⟨.hbm, 101, rfl⟩
abbrev main_c_11 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_12 : Ref sig .tc := ⟨.hbm, 108, rfl⟩
abbrev main_v74 : Ref sig .tc := ⟨.hbm, 109, rfl⟩
abbrev main_v75 : Ref sig .tc := ⟨.hbm, 110, rfl⟩
abbrev main_c_13 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_c_14 : Ref sig .tc := ⟨.hbm, 119, rfl⟩
abbrev main_v83 : Ref sig .tc := ⟨.hbm, 120, rfl⟩
abbrev main_v84 : Ref sig .tc := ⟨.hbm, 121, rfl⟩
abbrev main_c_15 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_16 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_17 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_call1_cst : Ref sig .tc := ⟨.hbm, 151, rfl⟩
abbrev main_call1_v0 : Ref sig .tc := ⟨.hbm, 152, rfl⟩
abbrev main_v111 : Ref sig .tc := ⟨.hbm, 153, rfl⟩
abbrev main_c_18 : Ref sig .tc := ⟨.hbm, 154, rfl⟩
abbrev main_v112 : Ref sig .tc := ⟨.hbm, 155, rfl⟩
abbrev main_v113 : Ref sig .tc := ⟨.hbm, 156, rfl⟩
abbrev main_c_19 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_20 : Ref sig .tc := ⟨.hbm, 163, rfl⟩
abbrev main_v119 : Ref sig .tc := ⟨.hbm, 164, rfl⟩
abbrev main_v120 : Ref sig .tc := ⟨.hbm, 165, rfl⟩
abbrev main_c_21 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_call2_cst : Ref sig .tc := ⟨.hbm, 177, rfl⟩
abbrev main_call2_v0 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_22 : Ref sig .tc := ⟨.hbm, 186, rfl⟩
abbrev main_v138 : Ref sig .tc := ⟨.hbm, 187, rfl⟩
abbrev main_v139 : Ref sig .tc := ⟨.hbm, 188, rfl⟩
abbrev main_cst_23 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.KernelRun.lean ====
/-
  The idealized kernel's run with its result named: every weakly fair execution of the program ends,
  without a fault, with the result array at the contents the last segment boundary gives it and the
  argument arrays as launched. The boundaries' contents are the fold through the program's nine
  segments (five stretches of host operations, four regions); the later modules read that fold back.
-/
import proofs.«136663_j34600256537208_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the nine segments, the last thread state read against the final state; the
    result at the last boundary's contents, each argument read back to the launch memory. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

end Cert.KernelIdeal.Gen

end
-- ==== Proof.Spec.lean ====
/-
  What each of the kernel's four stages leaves in its output array, as one function of the arrays it
  reads, at the exact instance (floats are extended reals, every operation exact, a change of format
  the identity). Rows are nodes (50000) or edges (800000); columns are the 128 channels.

  * `linScale x w d`      : row i of x·w, scaled by the node's factor d i            (stage 1)
  * `hidden raw d b g be mu var` : relu of the evaluated batch norm of raw i · d i + b      (a layer's activations)
  * `hiddenLinScale`      : linScale of those activations                            (stage 2)
  * `hiddenProj`          : the activations times a weight block, no scale           (stage 3, twice)
  * `predict z w b`       : the logistic of relu(z)·w + b                            (stage 4)
-/
import Idealize.ShloMosaic.PureOps.Ideal
import Idealize.ShloMosaic.Lib.ValueIdx

noncomputable section

namespace Cert.Gcn

open Idealize.ShloMosaic Idealize.ShloMosaic.ValueIdx

/-- A rank-2 array of extended reals. -/
abbrev Arr2 (a b : Nat) : Type := (⟨2, ![a, b]⟩ : Shape).Idx → EReal
/-- A rank-1 array of extended reals. -/
abbrev Arr1 (a : Nat) : Type := (⟨1, ![a]⟩ : Shape).Idx → EReal

/-- The batch norm's epsilon, the binary32 value nearest 1e-5, the same word in both programs. -/
abbrev epsBN : EReal := Ideal.ofBits .f32 0x3727C5AC#32
/-- The relu's zero, as the programs spell it. -/
abbrev zeroF : EReal := Ideal.ofBits .f32 0x00000000#32

/-- Entry (i, j) of x·w, times the factor of row i. -/
def linScale (x : Arr2 50000 128) (w : Arr2 128 128) (d : Arr2 50000 1) : Arr2 50000 128 :=
  fun i => (∑ k : Fin 128, x (ix2 (i 0) k) * w (ix2 k (i 1))) * d (ix2 (i 0) 0)

/-- A layer's activations at (i, j): the aggregated row scaled by the node's factor, plus the bias,
    through the evaluated batch norm `(· - mu) · (g · rsqrt (var + eps)) + be`, then relu. -/
def hidden (raw : Arr2 50000 128) (d : Arr2 50000 1) (b g be mu var : Arr1 128) : Arr2 50000 128 :=
  fun i => max ((((raw i * d (ix2 (i 0) 0)) + b (ix1 (i 1))) - mu (ix1 (i 1)))
      * (g (ix1 (i 1)) * Ideal.rsqrt (var (ix1 (i 1)) + epsBN)) + be (ix1 (i 1))) zeroF

/-- Entry (i, j) of h·w. -/
def proj (h : Arr2 50000 128) (w : Arr2 128 128) : Arr2 50000 128 :=
  fun i => ∑ k : Fin 128, h (ix2 (i 0) k) * w (ix2 k (i 1))

/-- The second stage: the first layer's activations through the next linear map and source-side scale. -/
def hiddenLinScale (raw : Arr2 50000 128) (b g be mu var : Arr1 128) (d : Arr2 50000 1) (w : Arr2 128 128) :
    Arr2 50000 128 :=
  linScale (hidden raw d b g be mu var) w d

/-- The third stage, per weight block: the second layer's activations projected, no scale. -/
def hiddenProj (raw : Arr2 50000 128) (b g be mu var : Arr1 128) (d : Arr2 50000 1) (w : Arr2 128 128) :
    Arr2 50000 128 :=
  proj (hidden raw d b g be mu var) w

/-- The fourth stage at edge e: the logistic of relu(z e)·w + b. -/
def predict (z : Arr2 800000 128) (w : Arr2 128 1) (b : Arr1 1) : Arr2 800000 1 :=
  fun i => Ideal.logistic ((∑ k : Fin 128, max (z (ix2 (i 0) k)) zeroF * w (ix2 k (i 1))) + b (ix1 0))

end Cert.Gcn

end
-- ==== Proof.BlocksOne.lean ====
/-
  The first stage's windows on its arrays. The grid has 25 points; point t takes rows
  2000·t … 2000·t + 1999 of the node features, of the factors' column and of the output, and the
  whole weight matrix. So an input block's entry is the array's entry 2000·t rows further down, an
  output block's entry lands there, and row r of the output belongs to point r / 2000.
-/
import proofs.«136663_j34600256537208_2_alg».proof.Proof.Gen.KernelIdeal.Frame
import Idealize.ShloMosaic.Lib.ValueIdx
import Idealize.ShloMosaic.Lib.Pipeline.Value

noncomputable section

namespace Cert.Gcn.One

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Zero offsets on both axes. -/
theorem zeroOff : (![0, 0] : Fin 2 → Nat) = fun _ => 0 := funext fun a => by fin_cases a <;> rfl

/-- The block indices at point t: (t, 0) for the row-blocked windows, (0, 0) for the weights. -/
theorem blockIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's block is a row of the array. -/
theorem rowLt (t : Fin cfg0.N) (p : Fin 2000) : 2000 * t.val + p.val < 50000 := by
  have hN : cfg0.N = 25 := N_0
  have ht := t.isLt
  have hp := p.isLt
  omega

/-- The node features' block at point t, entry (p, k): the array's entry (2000·t + p, k). -/
theorem featBlock (c : Dev nD) (t : Fin cfg0.N) (p : Fin 2000) (k : Fin 128) :
    (iblk0 V c 0 t : S2000x128.Idx → EReal) (ix2 p k)
      = (V c main_arg0 : S50000x128.Idx → EReal) (ix2 ⟨2000 * t.val + p.val, rowLt t p⟩ k) := by
  obtain ⟨e0, e1, -⟩ := blockIdx t
  show V c main_arg0 (((cfg0.win 0).blk t).view.emb (ix2 p k)) = _
  refine congrArg _ (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The weights' block at any point is the whole matrix. -/
theorem weightBlock (c : Dev nD) (t : Fin cfg0.N) (k q : Fin 128) :
    (iblk0 V c 1 t : S128x128.Idx → EReal) (ix2 k q) = (V c main_arg2 : S128x128.Idx → EReal) (ix2 k q) := by
  obtain ⟨-, -, e2, e3, -⟩ := blockIdx t
  show V c main_arg2 (((cfg0.win 1).blk t).view.emb (ix2 k q)) = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The factors' block at point t, row p: the column's entry 2000·t + p. -/
theorem scaleBlock (c : Dev nD) (t : Fin cfg0.N) (p : Fin 2000) :
    (iblk0 V c 2 t : S2000x1.Idx → EReal) (ix2 p (0 : Fin 1))
      = (V c main_v12 : S50000x1.Idx → EReal) (ix2 ⟨2000 * t.val + p.val, rowLt t p⟩ (0 : Fin 1)) := by
  obtain ⟨-, -, -, -, e4, e5, -⟩ := blockIdx t
  show V c main_v12 (((cfg0.win 2).blk t).view.emb (ix2 p (0 : Fin 1))) = _
  refine congrArg _ (funext fun a => Fin.ext ?_)
  match a with
  | ⟨0, _⟩ => show win0_2.index t (0 : Fin 2) * 2000 + 1 * p.val = 2000 * t.val + p.val; rw [e4]; omega
  | ⟨1, _⟩ => show win0_2.index t (1 : Fin 2) * 1 + 1 * 0 = 0; rw [e5]

/-- Where entry (p, q) of point t's output block lands in the output array. -/
theorem outPlace (t : Fin cfg0.N) (p : Fin 2000) (q : Fin 128) :
    (((cfg0.win 3).blk t).view.emb (ix2 p q) : S50000x128.Idx) = ix2 ⟨2000 * t.val + p.val, rowLt t p⟩ q := by
  obtain ⟨-, -, -, -, -, -, e6, e7⟩ := blockIdx t
  refine funext fun a => Fin.ext ?_
  match a with
  | ⟨0, _⟩ => show win0_3.index t (0 : Fin 2) * 2000 + 1 * p.val = 2000 * t.val + p.val; rw [e6]; omega
  | ⟨1, _⟩ => show win0_3.index t (1 : Fin 2) * 128 + 1 * q.val = q.val; rw [e7]; omega

/-- An index of the output array is in point t's block iff each coordinate is in the block's range. -/
theorem memBlock (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v13).slice (win0_3.rect t)).set ↔ _
  rw [View.set_slice_whole, Rect.mem_set_unit]
  exact Iff.rfl

/-- Every entry of the output array is written: row r by point r / 2000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  have hlt : (i 0).val / 2000 < cfg0.N := by rw [hN]; omega
  obtain ⟨-, -, -, -, -, -, e6, e7⟩ := blockIdx ⟨(i 0).val / 2000, hlt⟩
  have e6' : win0_3.index ⟨(i 0).val / 2000, hlt⟩ (0 : Fin 2) = (i 0).val / 2000 := e6
  refine ⟨⟨(i 0).val / 2000, hlt⟩, flush0_3 _, ?_⟩
  rw [memBlock]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e6']; omega
  | ⟨1, _⟩ =>
    show win0_3.index ⟨(i 0).val / 2000, hlt⟩ (1 : Fin 2) * 128 ≤ (i 1).val
      ∧ (i 1).val < win0_3.index ⟨(i 0).val / 2000, hlt⟩ (1 : Fin 2) * 128 + 128
    rw [e7]; omega

end Cert.Gcn.One

end
-- ==== Proof.MatRow.lean ====
/-
  Two reads at an index that every stage of the kernel shares. A column of shape [2000,1] spread
  over the 128 lanes reads the column's entry of the same row; a [2000,128] by [128,128] product
  accumulated into zeros reads, at (p, q), the sum over k of a(p,k) * b(k,q).
-/
import proofs.«136663_j34600256537208_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx Cert.KernelIdeal

/-- A [2000,1] column broadcast to [2000,128] reads, at (p, q), the column at row p. -/
theorem colSpread_apply {α : Type} (v : S2000x1.Idx → α) (h : S2000x1.Broadcasts S2000x128)
    (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ =>
    show p.val = if (2000 : Nat) = 1 then 0 else p.val
    rw [if_neg (by decide)]
  | ⟨1, _⟩ =>
    show (0 : Nat) = if (1 : Nat) = 1 then 0 else q.val
    rw [if_pos rfl]

/-- The left operand's index of the product: row of the output, position of the contraction. -/
theorem dotL (p : Fin 2000) (q k : Fin 128) :
    dot_S2000x128_S128x128_S2000x128_1_0_0_1_n_n.lhsIdx (ix2 p q)
      ((contrEquiv1 dot_S2000x128_S128x128_S2000x128_1_0_0_1_n_n 128 rfl rfl).symm k) = ix2 p k := by
  have hk := contrEquiv1_symm_val dot_S2000x128_S128x128_S2000x128_1_0_0_1_n_n 128 rfl rfl k
  funext a
  apply Fin.ext
  match a with
  | ⟨0, _⟩ =>
    show (dot_S2000x128_S128x128_S2000x128_1_0_0_1_n_n.lhsIdx (ix2 p q) _ 0).val = p.val
    unfold DotDims.lhsIdx
    rw [dif_neg (show ¬(0 : Fin S2000x128.rank) ∈ dot_S2000x128_S128x128_S2000x128_1_0_0_1_n_n.lhsBatch by decide),
      dif_pos (show (0 : Fin S2000x128.rank) ∈ dot_S2000x128_S128x128_S2000x128_1_0_0_1_n_n.lhsNonContracting by decide)]
    rfl
  | ⟨1, _⟩ =>
    exact (dot_S2000x128_S128x128_S2000x128_1_0_0_1_n_n.lhsIdx_val_of_single rfl (ix2 p q) _).trans hk

/-- The right operand's index of the product: position of the contraction, column of the output. -/
theorem dotR (p : Fin 2000) (q k : Fin 128) :
    dot_S2000x128_S128x128_S2000x128_1_0_0_1_n_n.rhsIdx (ix2 p q)
      ((contrEquiv1 dot_S2000x128_S128x128_S2000x128_1_0_0_1_n_n 128 rfl rfl).symm k) = ix2 k q := by
  have hk := contrEquiv1_symm_val dot_S2000x128_S128x128_S2000x128_1_0_0_1_n_n 128 rfl rfl k
  funext a
  apply Fin.ext
  match a with
  | ⟨0, _⟩ =>
    exact (dot_S2000x128_S128x128_S2000x128_1_0_0_1_n_n.rhsIdx_val_of_single rfl (ix2 p q) _).trans hk
  | ⟨1, _⟩ =>
    show (dot_S2000x128_S128x128_S2000x128_1_0_0_1_n_n.rhsIdx (ix2 p q) _ 1).val = q.val
    unfold DotDims.rhsIdx
    rw [dif_neg (show ¬(1 : Fin S128x128.rank) ∈ dot_S2000x128_S128x128_S2000x128_1_0_0_1_n_n.rhsBatch by decide),
      dif_pos (show (1 : Fin S128x128.rank) ∈ dot_S2000x128_S128x128_S2000x128_1_0_0_1_n_n.rhsNonContracting by decide)]
    rfl

/-- The block product into a zero accumulator, at (p, q): the sum over k of a(p,k) * b(k,q). -/
theorem rowTimes_apply {φ₁ φ₂ : FTy} (a : FVec Ideal S2000x128 φ₁) (b : FVec Ideal S128x128 φ₂)
    (p : Fin 2000) (q : Fin 128) :
    FloatOps.matmul dot_S2000x128_S128x128_S2000x128_1_0_0_1_n_n none a b
        (constant (F := Ideal) S2000x128 .f32 0x00000000#32) (ix2 p q)
      = ∑ k : Fin 128, a (ix2 p k) * b (ix2 k q) := by
  rw [Ideal.matmul_constant_zero_apply,
    ← Equiv.sum_comp (contrEquiv1 dot_S2000x128_S128x128_S2000x128_1_0_0_1_n_n 128 rfl rfl).symm]
  refine Finset.sum_congr rfl fun k _ => ?_
  rw [dotL, dotR]

end Cert.Gcn

end
-- ==== Proof.PayOne.lean ====
/-
  The first stage's stored block, read at an entry: the block product's entry (p, q) times the
  factor of row p. At the exact instance the changes of format are the identity.
-/
import proofs.«136663_j34600256537208_2_alg».proof.Proof.MatRow

noncomputable section

namespace Cert.Gcn

open Idealize.ShloMosaic Idealize.ShloMosaic.ValueIdx Cert.KernelIdeal Cert.KernelIdeal.Gen

/-- Entry (p, q) of what the first stage stores from a row block `x0`, the weights `x1` and the
    rows' factors `x2`. -/
theorem payOne_apply (x0 : Vec Ideal S2000x128 .f32) (x1 : Vec Ideal S128x128 .f32) (x2 : Vec Ideal S2000x1 .f32)
    (p : Fin 2000) (q : Fin 128) :
    Gen.k0_pay1 (F := Ideal) x0 x1 x2 (ix2 p q)
      = (∑ k : Fin 128, x0 (ix2 p k) * x1 (ix2 k q)) * x2 (ix2 p (0 : Fin 1)) := by
  unfold Gen.k0_pay1
  show FloatOps.matmul dot_S2000x128_S128x128_S2000x128_1_0_0_1_n_n none
        (truncf (F := Ideal) .bf16 x0 bitsLt_bf16_f32) (truncf (F := Ideal) .bf16 x1 bitsLt_bf16_f32)
        (constant (F := Ideal) S2000x128 .f32 0x00000000#32) (ix2 p q)
      * broadcastTo S2000x128 (shapeCast S2000x1 x2 shapeCasts_S2000x1_S2000x1) broadcasts_S2000x1_S2000x128 (ix2 p q) = _
  rw [rowTimes_apply, colSpread_apply, shapeCast_self]
  rfl

end Cert.Gcn

end
-- ==== Proof.StageOne.lean ====
/-
  The first stage on the whole array. At a grid point the stored block is the product of the
  point's rows of the node features with the weights, each row scaled by its factor; the blocks of
  the 25 points tile the output, so after the stage the output array is `linScale` of the three
  input arrays as the stage found them.
-/
import proofs.«136663_j34600256537208_2_alg».proof.Proof.Spec
import proofs.«136663_j34600256537208_2_alg».proof.Proof.BlocksOne
import proofs.«136663_j34600256537208_2_alg».proof.Proof.PayOne

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

/-- One entry of a stored block against one entry of `linScale`: when the block's row p is row r of
    the features and of the factors, and the weights' block is the weights, entry (p, q) of the stored
    block is entry (r, q) of `linScale`. -/
theorem pointOne (A : Arr2 50000 128) (W : Arr2 128 128) (D : Arr2 50000 1)
    (x0 : Vec Ideal S2000x128 .f32) (x1 : Vec Ideal S128x128 .f32) (x2 : Vec Ideal S2000x1 .f32)
    (r : Fin 50000) (p : Fin 2000) (q : Fin 128)
    (h0 : ∀ k : Fin 128, x0 (ix2 p k) = A (ix2 r k))
    (h1 : ∀ k : Fin 128, x1 (ix2 k q) = W (ix2 k q))
    (h2 : x2 (ix2 p (0 : Fin 1)) = D (ix2 r (0 : Fin 1))) :
    k0_pay1 (F := Ideal) x0 x1 x2 (ix2 p q) = linScale A W D (ix2 r q) := by
  rw [payOne_apply, h2]
  show _ = (∑ k : Fin 128, A (ix2 r k) * W (ix2 k q)) * D (ix2 r (0 : Fin 1))
  exact congrArg (· * D (ix2 r (0 : Fin 1))) (Finset.sum_congr rfl fun k _ => by rw [h0 k, h1 k])

variable (V : (c : Dev nD) → (b : Ref sig .tc) → Buf (Elt Ideal) ((c : Thread nD τ).loc b))

/-- What point t writes back is block t of `linScale` of the arrays as the stage finds them. -/
theorem stageOne_block (c : Dev nD) (t : Fin cfg0.N) :
    (dat0 V c).flushed 3 t = ((cfg0.win 3).blk t).view.read (Elt Ideal)
      (linScale (V c main_arg0) (V c main_arg2) (V c main_v12)) := by
  show (cfg0.win 3).cut (grid0.coords t) ((dat0 V c).after 3 t) = _
  rw [after0_3]
  unfold out0_3
  rw [View.canon_unit_zero One.zeroOff]
  simp only [View.ld_unit_zero (S := S2000x128) One.zeroOff, View.ld_unit_zero (S := S128x128) One.zeroOff,
    View.ld_unit_zero (S := S2000x1) One.zeroOff]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
    = linScale (V c main_arg0) (V c main_arg2) (V c main_v12) (((cfg0.win 3).blk t).view.emb (ix2 p q))
  rw [One.outPlace]
  exact pointOne (V c main_arg0) (V c main_arg2) (V c main_v12) (iblk0 V c 0 t) (iblk0 V c 1 t) (iblk0 V c 2 t)
    ⟨2000 * t.val + p.val, One.rowLt t p⟩ p q (fun k => One.featBlock V c t p k) (fun k => One.weightBlock V c t k q)
    (One.scaleBlock V c t p)

/-- After the first stage its output array is `linScale` of the node features, the weights and the
    factors as the stage found them. -/
theorem stageOne (c : Dev nD) :
    (dat0 (F := Ideal) V c).arrAt 3 cfg0.N = linScale (V c main_arg0) (V c main_arg2) (V c main_v12) :=
  (dat0 V c).arrAt_eq_of_cover 3 (linScale (V c main_arg0) (V c main_arg2) (V c main_v12))
    (fun t _ => stageOne_block V c t) One.covered

end Cert.Gcn

end
-- ==== Proof.BlocksTwo.lean ====
/-
  The second stage's windows on its arrays. The grid has 25 points; point t takes rows
  2000·t … 2000·t + 1999 of the aggregated features, of the factors' column and of the output, and
  the whole of each per-channel vector and of the weight matrix. So a row-blocked input's entry is
  the array's entry 2000·t rows further down, an output block's entry lands there, and row r of the
  output belongs to point r / 2000.
-/
import proofs.«136663_j34600256537208_2_alg».proof.Proof.Gen.KernelIdeal.Frame
import Idealize.ShloMosaic.Lib.ValueIdx
import Idealize.ShloMosaic.Lib.Pipeline.Value

noncomputable section

namespace Cert.Gcn.Two

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Zero offsets on both axes of a matrix, and on the one axis of a vector. -/
theorem zeroOff2 : (![0, 0] : Fin 2 → Nat) = fun _ => 0 := funext fun a => by fin_cases a <;> rfl
theorem zeroOff1 : (![0] : Fin 1 → Nat) = fun _ => 0 := funext fun a => by fin_cases a; rfl

/-- The block indices at point t: (t, 0) for the row-blocked windows, zero for the whole ones. -/
theorem blockIdx : ∀ t : Fin cfg1.N,
    win1_0.index t (0 : Fin 2) = t.val ∧ win1_0.index t (1 : Fin 2) = 0
    ∧ win1_1.index t (0 : Fin 1) = 0 ∧ win1_2.index t (0 : Fin 1) = 0 ∧ win1_3.index t (0 : Fin 1) = 0
    ∧ win1_4.index t (0 : Fin 1) = 0 ∧ win1_5.index t (0 : Fin 1) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Row p of point t's block is a row of the array. -/
theorem rowLt (t : Fin cfg1.N) (p : Fin 2000) : 2000 * t.val + p.val < 50000 := by
  have hN : cfg1.N = 25 := N_1
  have ht := t.isLt
  have hp := p.isLt
  omega

/-- The aggregated features' block at point t, entry (p, q): the array's entry (2000·t + p, q). -/
theorem aggBlock (c : Dev nD) (t : Fin cfg1.N) (p : Fin 2000) (q : Fin 128) :
    (iblk1 V c 0 t : S2000x128.Idx → EReal) (ix2 p q)
      = (V c main_v24 : S50000x128.Idx → EReal) (ix2 ⟨2000 * t.val + p.val, rowLt t p⟩ q) := by
  obtain ⟨e0, e1, -⟩ := blockIdx t
  show V c main_v24 (((cfg1.win 0).blk t).view.emb (ix2 p q)) = _
  refine congrArg _ (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 128 + 1 * q.val = q.val; rw [e1]; omega

/-- Each per-channel vector's block at any point is the whole vector. -/
theorem vecBlock1 (c : Dev nD) (t : Fin cfg1.N) (q : Fin 128) :
    (iblk1 V c 1 t : S128.Idx → EReal) (ix1 q) = (V c main_arg3 : S128.Idx → EReal) (ix1 q) := by
  obtain ⟨-, -, e, -⟩ := blockIdx t
  show V c main_arg3 (((cfg1.win 1).blk t).view.emb (ix1 q)) = _
  refine congrArg _ (funext fun a => Fin.ext ?_)
  match a with
  | ⟨0, _⟩ => show win1_1.index t (0 : Fin 1) * 128 + 1 * q.val = q.val; rw [e]; omega
theorem vecBlock2 (c : Dev nD) (t : Fin cfg1.N) (q : Fin 128) :
    (iblk1 V c 2 t : S128.Idx → EReal) (ix1 q) = (V c main_arg4 : S128.Idx → EReal) (ix1 q) := by
  obtain ⟨-, -, -, e, -⟩ := blockIdx t
  show V c main_arg4 (((cfg1.win 2).blk t).view.emb (ix1 q)) = _
  refine congrArg _ (funext fun a => Fin.ext ?_)
  match a with
  | ⟨0, _⟩ => show win1_2.index t (0 : Fin 1) * 128 + 1 * q.val = q.val; rw [e]; omega
theorem vecBlock3 (c : Dev nD) (t : Fin cfg1.N) (q : Fin 128) :
    (iblk1 V c 3 t : S128.Idx → EReal) (ix1 q) = (V c main_arg5 : S128.Idx → EReal) (ix1 q) := by
  obtain ⟨-, -, -, -, e, -⟩ := blockIdx t
  show V c main_arg5 (((cfg1.win 3).blk t).view.emb (ix1 q)) = _
  refine congrArg _ (funext fun a => Fin.ext ?_)
  match a with
  | ⟨0, _⟩ => show win1_3.index t (0 : Fin 1) * 128 + 1 * q.val = q.val; rw [e]; omega
theorem vecBlock4 (c : Dev nD) (t : Fin cfg1.N) (q : Fin 128) :
    (iblk1 V c 4 t : S128.Idx → EReal) (ix1 q) = (V c main_arg6 : S128.Idx → EReal) (ix1 q) := by
  obtain ⟨-, -, -, -, -, e, -⟩ := blockIdx t
  show V c main_arg6 (((cfg1.win 4).blk t).view.emb (ix1 q)) = _
  refine congrArg _ (funext fun a => Fin.ext ?_)
  match a with
  | ⟨0, _⟩ => show win1_4.index t (0 : Fin 1) * 128 + 1 * q.val = q.val; rw [e]; omega
theorem vecBlock5 (c : Dev nD) (t : Fin cfg1.N) (q : Fin 128) :
    (iblk1 V c 5 t : S128.Idx → EReal) (ix1 q) = (V c main_arg7 : S128.Idx → EReal) (ix1 q) := by
  obtain ⟨-, -, -, -, -, -, e, -⟩ := blockIdx t
  show V c main_arg7 (((cfg1.win 5).blk t).view.emb (ix1 q)) = _
  refine congrArg _ (funext fun a => Fin.ext ?_)
  match a with
  | ⟨0, _⟩ => show win1_5.index t (0 : Fin 1) * 128 + 1 * q.val = q.val; rw [e]; omega

/-- The factors' block at point t, row p: the column's entry 2000·t + p. -/
theorem scaleBlock (c : Dev nD) (t : Fin cfg1.N) (p : Fin 2000) :
    (iblk1 V c 6 t : S2000x1.Idx → EReal) (ix2 p (0 : Fin 1))
      = (V c main_v12 : S50000x1.Idx → EReal) (ix2 ⟨2000 * t.val + p.val, rowLt t p⟩ (0 : Fin 1)) := by
  obtain ⟨-, -, -, -, -, -, -, e7, e8, -⟩ := blockIdx t
  show V c main_v12 (((cfg1.win 6).blk t).view.emb (ix2 p (0 : Fin 1))) = _
  refine congrArg _ (funext fun a => Fin.ext ?_)
  match a with
  | ⟨0, _⟩ => show win1_6.index t (0 : Fin 2) * 2000 + 1 * p.val = 2000 * t.val + p.val; rw [e7]; omega
  | ⟨1, _⟩ => show win1_6.index t (1 : Fin 2) * 1 + 1 * 0 = 0; rw [e8]

/-- The weights' block at any point is the whole matrix. -/
theorem weightBlock (c : Dev nD) (t : Fin cfg1.N) (k q : Fin 128) :
    (iblk1 V c 7 t : S128x128.Idx → EReal) (ix2 k q) = (V c main_arg8 : S128x128.Idx → EReal) (ix2 k q) := by
  obtain ⟨-, -, -, -, -, -, -, -, -, e9, e10, -⟩ := blockIdx t
  show V c main_arg8 (((cfg1.win 7).blk t).view.emb (ix2 k q)) = _
  refine congrArg _ (funext fun a => Fin.ext ?_)
  match a with
  | ⟨0, _⟩ => show win1_7.index t (0 : Fin 2) * 128 + 1 * k.val = k.val; rw [e9]; omega
  | ⟨1, _⟩ => show win1_7.index t (1 : Fin 2) * 128 + 1 * q.val = q.val; rw [e10]; omega

/-- Where entry (p, q) of point t's output block lands in the output array. -/
theorem outPlace (t : Fin cfg1.N) (p : Fin 2000) (q : Fin 128) :
    (((cfg1.win 8).blk t).view.emb (ix2 p q) : S50000x128.Idx) = ix2 ⟨2000 * t.val + p.val, rowLt t p⟩ q := by
  obtain ⟨-, -, -, -, -, -, -, -, -, -, -, e11, e12⟩ := blockIdx t
  refine funext fun a => Fin.ext ?_
  match a with
  | ⟨0, _⟩ => show win1_8.index t (0 : Fin 2) * 2000 + 1 * p.val = 2000 * t.val + p.val; rw [e11]; omega
  | ⟨1, _⟩ => show win1_8.index t (1 : Fin 2) * 128 + 1 * q.val = q.val; rw [e12]; omega

/-- An index of the output array is in point t's block iff each coordinate is in the block's range. -/
theorem memBlock (t : Fin cfg1.N) (i : S50000x128.Idx) :
    i ∈ ((cfg1.win 8).blk t).view.set ↔ ∀ a : Fin 2, win1_8.index t a * S2000x128.size a ≤ (i a).val
      ∧ (i a).val < win1_8.index t a * S2000x128.size a + S2000x128.size a := by
  show i ∈ ((View.whole main_v25).slice (win1_8.rect t)).set ↔ _
  rw [View.set_slice_whole, Rect.mem_set_unit]
  exact Iff.rfl

/-- Every entry of the output array is written: row r by point r / 2000. -/
theorem covered (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨-, -, -, -, -, -, -, -, -, -, -, e11, e12⟩ := blockIdx ⟨(i 0).val / 2000, hlt⟩
  have e11' : win1_8.index ⟨(i 0).val / 2000, hlt⟩ (0 : Fin 2) = (i 0).val / 2000 := e11
  refine ⟨⟨(i 0).val / 2000, hlt⟩, flush1_8 _, ?_⟩
  rw [memBlock]
  intro a
  match a with
  | ⟨0, _⟩ =>
    show win1_8.index ⟨(i 0).val / 2000, hlt⟩ (0 : Fin 2) * 2000 ≤ (i 0).val
      ∧ (i 0).val < win1_8.index ⟨(i 0).val / 2000, hlt⟩ (0 : Fin 2) * 2000 + 2000
    rw [e11']; omega
  | ⟨1, _⟩ =>
    show win1_8.index ⟨(i 0).val / 2000, hlt⟩ (1 : Fin 2) * 128 ≤ (i 1).val
      ∧ (i 1).val < win1_8.index ⟨(i 0).val / 2000, hlt⟩ (1 : Fin 2) * 128 + 128
    rw [e12]; omega

end Cert.Gcn.Two

end
-- ==== Proof.PayTwo.lean ====
/-
  The second stage's stored block, read at an entry. The body scales the aggregated row by the
  node's factor, adds the bias, applies the evaluated batch norm (subtract the mean, multiply by
  gain · rsqrt(variance + eps), add the offset) and the relu, multiplies the activations by the
  weights and scales the row again. At the exact instance the changes of format are the identity.
-/
import proofs.«136663_j34600256537208_2_alg».proof.Proof.MatRow

noncomputable section

namespace Cert.Gcn

open Idealize.ShloMosaic Idealize.ShloMosaic.ValueIdx Cert.KernelIdeal Cert.KernelIdeal.Gen

/-- A per-channel vector laid along the rows of a [2000,128] block reads, at (p, k), its entry k. -/
theorem rowSpread_apply {α : Type} (v : S128.Idx → α) (hc : S128.ShapeCasts S1x128) (hb : S1x128.Broadcasts S2000x128)
    (p : Fin 2000) (k : Fin 128) :
    broadcastTo S2000x128 (shapeCast S1x128 v hc) hb (ix2 p k) = v (ix1 k) :=
  (broadcastTo_1b_ab_apply (shapeCast S1x128 v hc) hb p k).trans (shapeCast_a_1a_apply v hc (0 : Fin 1) k)

/-- Entry (p, q) of what the second stage stores from an aggregated row block `v0`, the rows' factors
    `v2`, the bias `v6`, the batch norm's gain `v10`, variance `v11`, mean `v16` and offset `v23`, and the
    weights `v30`: the activations of row p times column q of the weights, times the row's factor. -/
theorem payTwo_apply (v0 : Vec Ideal S2000x128 .f32) (v2 : Vec Ideal S2000x1 .f32)
    (v6 v10 v11 v16 v23 : Vec Ideal S128 .f32) (v30 : Vec Ideal S128x128 .f32) (p : Fin 2000) (q : Fin 128) :
    Gen.k1_pay1 (F := Ideal) v0 v2 v6 v10 v11 v16 v23 v30 (ix2 p q)
      = (∑ k : Fin 128,
          max ((((v0 (ix2 p k) * v2 (ix2 p (0 : Fin 1))) + v6 (ix1 k)) - v16 (ix1 k))
              * (v10 (ix1 k) * Ideal.rsqrt (v11 (ix1 k) + Ideal.ofBits .f32 0x3727C5AC#32)) + v23 (ix1 k))
            (Ideal.ofBits .f32 0x00000000#32)
          * v30 (ix2 k q)) * v2 (ix2 p (0 : Fin 1)) := by
  unfold Gen.k1_pay1
  show FloatOps.matmul dot_S2000x128_S128x128_S2000x128_1_0_0_1_n_n none
        (truncf (F := Ideal) .bf16 _ bitsLt_bf16_f32) (truncf (F := Ideal) .bf16 v30 bitsLt_bf16_f32)
        (constant (F := Ideal) S2000x128 .f32 0x00000000#32) (ix2 p q)
      * broadcastTo S2000x128 (shapeCast S2000x1 v2 shapeCasts_S2000x1_S2000x1) broadcasts_S2000x1_S2000x128 (ix2 p q) = _
  rw [rowTimes_apply, colSpread_apply]
  simp only [shapeCast_self]
  refine congrArg (· * v2 (ix2 p (0 : Fin 1))) (Finset.sum_congr rfl fun k _ => ?_)
  refine congrArg (· * v30 (ix2 k q)) ?_
  simp only [truncf_apply, maximumf_apply, addf_apply, mulf_apply, subf_apply, broadcast_apply, shapeCast_self,
    colSpread_apply, rowSpread_apply]
  rfl

end Cert.Gcn

end
-- ==== Proof.StageTwo.lean ====
/-
  The second stage on the whole array. At a grid point the stored block is: the point's rows of the
  aggregated features, scaled by the rows' factors, plus the bias, through the evaluated batch norm
  and the relu; those activations times the weights; each row scaled by its factor again. The blocks
  of the 25 points tile the output, so after the stage the output array is `hiddenLinScale` of the
  input arrays as the stage found them.
-/
import proofs.«136663_j34600256537208_2_alg».proof.Proof.Spec
import proofs.«136663_j34600256537208_2_alg».proof.Proof.BlocksTwo
import proofs.«136663_j34600256537208_2_alg».proof.Proof.PayTwo

noncomputable section

namespace Cert.Gcn

open Idealize.ShloMosaic Idealize.ShloMosaic.TcCoe Idealize.ShloMosaic.ValueIdx Idealize.SL.Sem
open Idealize.ShloMosaic.Pipeline (Dat)
open Cert.KernelIdeal Cert.KernelIdeal.Gen

/-- One entry of a stored block against one entry of `hiddenLinScale`: when the block's row p is row r
    of the aggregated features and of the factors, and the other blocks are their whole arrays, entry
    (p, q) of the stored block is entry (r, q) of `hiddenLinScale`. The body's loads are, in its order:
    the rows, the factors, the bias, the gain, the variance, the mean, the offset, the weights. -/
theorem pointTwo (R : Arr2 50000 128) (b g be mu var : Arr1 128) (D : Arr2 50000 1) (W : Arr2 128 128)
    (v0 : Vec Ideal S2000x128 .f32) (v2 : Vec Ideal S2000x1 .f32) (v6 v10 v11 v16 v23 : Vec Ideal S128 .f32)
    (v30 : Vec Ideal S128x128 .f32) (r : Fin 50000) (p : Fin 2000) (q : Fin 128)
    (h0 : ∀ k : Fin 128, v0 (ix2 p k) = R (ix2 r k))
    (h2 : v2 (ix2 p (0 : Fin 1)) = D (ix2 r (0 : Fin 1)))
    (h6 : ∀ k : Fin 128, v6 (ix1 k) = b (ix1 k))
    (h10 : ∀ k : Fin 128, v10 (ix1 k) = g (ix1 k))
    (h11 : ∀ k : Fin 128, v11 (ix1 k) = var (ix1 k))
    (h16 : ∀ k : Fin 128, v16 (ix1 k) = mu (ix1 k))
    (h23 : ∀ k : Fin 128, v23 (ix1 k) = be (ix1 k))
    (h30 : ∀ k : Fin 128, v30 (ix2 k q) = W (ix2 k q)) :
    k1_pay1 (F := Ideal) v0 v2 v6 v10 v11 v16 v23 v30 (ix2 p q) = hiddenLinScale R b g be mu var D W (ix2 r q) := by
  rw [payTwo_apply, h2]
  show _ = (∑ k : Fin 128,
      max ((((R (ix2 r k) * D (ix2 r (0 : Fin 1))) + b (ix1 k)) - mu (ix1 k))
          * (g (ix1 k) * Ideal.rsqrt (var (ix1 k) + epsBN)) + be (ix1 k)) zeroF
        * W (ix2 k q)) * D (ix2 r (0 : Fin 1))
  refine congrArg (· * D (ix2 r (0 : Fin 1))) (Finset.sum_congr rfl fun k _ => ?_)
  rw [h0 k, h6 k, h10 k, h11 k, h16 k, h23 k, h30 k]

variable (V : (c : Dev nD) → (b : Ref sig .tc) → Buf (Elt Ideal) ((c : Thread nD τ).loc b))

/-- What point t writes back is block t of `hiddenLinScale` of the arrays as the stage finds them. -/
theorem stageTwo_block (c : Dev nD) (t : Fin cfg1.N) :
    (dat1 V c).flushed 8 t = ((cfg1.win 8).blk t).view.read (Elt Ideal)
      (hiddenLinScale (V c main_v24) (V c main_arg3) (V c main_arg4) (V c main_arg5) (V c main_arg6) (V c main_arg7)
        (V c main_v12) (V c main_arg8)) := by
  show (cfg1.win 8).cut (grid1.coords t) ((dat1 V c).after 8 t) = _
  rw [after1_8]
  unfold out1_8
  rw [View.canon_unit_zero Two.zeroOff2]
  simp only [View.ld_unit_zero (S := S2000x128) Two.zeroOff2, View.ld_unit_zero (S := S128x128) Two.zeroOff2,
    View.ld_unit_zero (S := S2000x1) Two.zeroOff2, View.ld_unit_zero (S := S128) Two.zeroOff1]
  funext j
  obtain ⟨p, q, rfl⟩ : ∃ (p : Fin 2000) (q : Fin 128), j = ix2 p q := ⟨j 0, j 1, eq_ix2 j⟩
  show k1_pay1 (F := Ideal) (iblk1 V c 0 t) (iblk1 V c 6 t) (iblk1 V c 1 t) (iblk1 V c 2 t) (iblk1 V c 5 t)
      (iblk1 V c 4 t) (iblk1 V c 3 t) (iblk1 V c 7 t) (ix2 p q)
    = hiddenLinScale (V c main_v24) (V c main_arg3) (V c main_arg4) (V c main_arg5) (V c main_arg6) (V c main_arg7)
        (V c main_v12) (V c main_arg8) (((cfg1.win 8).blk t).view.emb (ix2 p q))
  rw [Two.outPlace]
  exact pointTwo (V c main_v24) (V c main_arg3) (V c main_arg4) (V c main_arg5) (V c main_arg6) (V c main_arg7)
    (V c main_v12) (V c main_arg8)
    (iblk1 V c 0 t) (iblk1 V c 6 t) (iblk1 V c 1 t) (iblk1 V c 2 t) (iblk1 V c 5 t) (iblk1 V c 4 t) (iblk1 V c 3 t)
    (iblk1 V c 7 t) ⟨2000 * t.val + p.val, Two.rowLt t p⟩ p q
    (fun k => Two.aggBlock V c t p k) (Two.scaleBlock V c t p) (fun k => Two.vecBlock1 V c t k)
    (fun k => Two.vecBlock2 V c t k) (fun k => Two.vecBlock5 V c t k) (fun k => Two.vecBlock4 V c t k)
    (fun k => Two.vecBlock3 V c t k) (fun k => Two.weightBlock V c t k q)

/-- After the second stage its output array is `hiddenLinScale` of the aggregated features, the bias,
    the batch norm's gain, offset, mean and variance, the factors and the weights as the stage found them. -/
theorem stageTwo (c : Dev nD) :
    (dat1 (F := Ideal) V c).arrAt 8 cfg1.N
      = hiddenLinScale (V c main_v24) (V c main_arg3) (V c main_arg4) (V c main_arg5) (V c main_arg6) (V c main_arg7)
          (V c main_v12) (V c main_arg8) :=
  (dat1 V c).arrAt_eq_of_cover 8
    (hiddenLinScale (V c main_v24) (V c main_arg3) (V c main_arg4) (V c main_arg5) (V c main_arg6) (V c main_arg7)
      (V c main_v12) (V c main_arg8))
    (fun t _ => stageTwo_block V c t) Two.covered

end Cert.Gcn

end
-- ==== Proof.StageThreePoint.lean ====
/-
  The third stage's body at one entry of its block. For a block of 2000 node rows `x` with the
  rows' factors `d` and the five per-channel vectors (bias, scale, variance, mean, shift), the body
  forms the layer's activations — the row scaled by its factor plus the bias, through the evaluated
  batch norm, then relu — and multiplies them by each of two [128,128] weight blocks. Entry (p, q) of
  either product is the sum over the 128 channels of the activation at (p, k) times the weight at
  (k, q). The changes of format are the identity at the exact instance and the matrix unit's
  accumulator is the zero word.
-/
import proofs.«136663_j34600256537208_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.Gcn.StageThree

open Idealize.ShloMosaic Idealize.ShloMosaic.ValueIdx Cert.KernelIdeal Cert.KernelIdeal.Gen

/-- One activation from its seven scalars: the aggregated entry `x` times the node's factor `d`,
    plus the bias `b`, minus the mean `mu`, times scale over root of variance plus epsilon, plus
    the shift `be`, then relu. -/
def actAt (x d b g var mu be : EReal) : EReal :=
  max ((((x * d) + b) - mu) * (g * Ideal.rsqrt (var + Ideal.ofBits .f32 0x3727C5AC#32)) + be) (Ideal.ofBits .f32 0x00000000#32)

/-- The dimension numbers of the body's two products: [2000,128] × [128,128], contracting the channels. -/
abbrev dotH := dot_S2000x128_S128x128_S2000x128_1_0_0_1_n_n

/-- The left operand's row is the output's row. -/
theorem lhs_row (i : S2000x128.Idx) (q : dotH.contr.Idx) : (dotH.lhsIdx i q 0).val = (i 0).val := by
  unfold DotDims.lhsIdx
  rw [dif_neg (show ¬(0 : Fin S2000x128.rank) ∈ dotH.lhsBatch by decide), dif_pos (show (0 : Fin S2000x128.rank) ∈ dotH.lhsNonContracting by decide)]
  rfl
/-- The left operand's column is the contraction position. -/
theorem lhs_col (i : S2000x128.Idx) (q : dotH.contr.Idx) : (dotH.lhsIdx i q 1).val = (q ⟨0, by decide⟩).val :=
  dotH.lhsIdx_val_of_single rfl i q
/-- The right operand's row is the contraction position. -/
theorem rhs_row (i : S2000x128.Idx) (q : dotH.contr.Idx) : (dotH.rhsIdx i q 0).val = (q ⟨0, by decide⟩).val :=
  dotH.rhsIdx_val_of_single rfl i q
/-- The right operand's column is the output's column. -/
theorem rhs_col (i : S2000x128.Idx) (q : dotH.contr.Idx) : (dotH.rhsIdx i q 1).val = (i 1).val := by
  unfold DotDims.rhsIdx
  rw [dif_neg (show ¬(1 : Fin S128x128.rank) ∈ dotH.rhsBatch by decide), dif_pos (show (1 : Fin S128x128.rank) ∈ dotH.rhsNonContracting by decide)]
  rfl

/-- A product into the zero accumulator at (p, q): the sum over the channels. -/
theorem matmul_apply (a : FVec Ideal S2000x128 .bf16) (w : FVec Ideal S128x128 .bf16) (p : Fin 2000) (q : Fin 128) :
    matmul dotH none a w (constant (F := Ideal) S2000x128 .f32 0x00000000#32) (ix2 p q)
      = ∑ k : Fin 128, a (ix2 p k) * w (ix2 k q) := by
  refine (Ideal.matmul_constant_zero_apply dotH none a w (ix2 p q)).trans ?_
  rw [← Equiv.sum_comp (contrEquiv1 dotH 128 rfl rfl).symm]
  refine Finset.sum_congr rfl fun k _ => ?_
  have hk := contrEquiv1_symm_val dotH 128 rfl rfl k
  have el : dotH.lhsIdx (ix2 p q) ((contrEquiv1 dotH 128 rfl rfl).symm k) = ix2 p k := funext fun a => Fin.ext (by
    match a with
    | ⟨0, _⟩ => exact lhs_row _ _
    | ⟨1, _⟩ => exact (lhs_col _ _).trans hk)
  have er : dotH.rhsIdx (ix2 p q) ((contrEquiv1 dotH 128 rfl rfl).symm k) = ix2 k q := funext fun a => Fin.ext (by
    match a with
    | ⟨0, _⟩ => exact (rhs_row _ _).trans hk
    | ⟨1, _⟩ => exact rhs_col _ _)
  rw [el, er]

/-- A per-channel vector, cast to one row and broadcast down the rows, reads its channel's entry. -/
theorem row_apply (v : FVec Ideal S128 .f32) (p : Fin 2000) (q : Fin 128) :
    broadcastTo S2000x128 (shapeCast S1x128 v Facts₀.shapeCasts_S128_S1x128) Facts₀.broadcasts_S1x128_S2000x128 (ix2 p q) = v (ix1 q) :=
  (broadcastTo_1b_ab_apply _ _ p q).trans (shapeCast_a_1a_apply v _ 0 q)

/-- The rows' factors, broadcast across the channels, read the row's factor. -/
theorem col_apply (d : FVec Ideal S2000x1 .f32) (p : Fin 2000) (q : Fin 128) :
    broadcastTo S2000x128 d Facts₀.broadcasts_S2000x1_S2000x128 (ix2 p q) = d (ix2 p (0 : Fin 1)) := by
  refine broadcastTo_apply _ _ (ix2 p q) (ix2 p (0 : Fin 1)) fun a => ?_
  match a with
  | ⟨0, _⟩ => rfl
  | ⟨1, _⟩ => rfl

/-- Entry (p, q) of the activations the body forms. -/
theorem act_apply (x : Vec Ideal S2000x128 .f32) (d : Vec Ideal S2000x1 .f32) (b g var mu be : Vec Ideal S128 .f32)
    (p : Fin 2000) (q : Fin 128) :
    k2_pay2 (F := Ideal) x d b g var mu be (ix2 p q)
      = actAt (x (ix2 p q)) (d (ix2 p (0 : Fin 1))) (b (ix1 q)) (g (ix1 q)) (var (ix1 q)) (mu (ix1 q)) (be (ix1 q)) := by
  unfold k2_pay2 actAt
  simp only [truncf_apply, maximumf_apply, addf_apply, mulf_apply, subf_apply, broadcast_apply, row_apply, col_apply, shapeCast_self]
  rfl

/-- Entry (p, q) of the first product the body stores (with the weight block `w`). -/
theorem projU_apply (x : Vec Ideal S2000x128 .f32) (d : Vec Ideal S2000x1 .f32) (b g var mu be : Vec Ideal S128 .f32)
    (w : Vec Ideal S128x128 .f32) (p : Fin 2000) (q : Fin 128) :
    k2_pay4 (F := Ideal) x d b g var mu be w (ix2 p q)
      = ∑ k : Fin 128, actAt (x (ix2 p k)) (d (ix2 p (0 : Fin 1))) (b (ix1 k)) (g (ix1 k)) (var (ix1 k)) (mu (ix1 k)) (be (ix1 k)) * w (ix2 k q) := by
  unfold k2_pay4
  show matmul (F := Ideal) dotH none _ _ _ (ix2 p q) = _
  rw [matmul_apply]
  refine Finset.sum_congr rfl fun k _ => ?_
  rw [act_apply]
  simp only [shapeCast_self]
  rfl

/-- Entry (p, q) of the second product the body stores (with the weight block `w`). -/
theorem projV_apply (x : Vec Ideal S2000x128 .f32) (d : Vec Ideal S2000x1 .f32) (b g var mu be : Vec Ideal S128 .f32)
    (w : Vec Ideal S128x128 .f32) (p : Fin 2000) (q : Fin 128) :
    k2_pay1 (F := Ideal) (k2_pay3 (F := Ideal) x d b g var mu be w) (ix2 p q)
      = ∑ k : Fin 128, actAt (x (ix2 p k)) (d (ix2 p (0 : Fin 1))) (b (ix1 k)) (g (ix1 k)) (var (ix1 k)) (mu (ix1 k)) (be (ix1 k)) * w (ix2 k q) := by
  unfold k2_pay1 k2_pay3
  show matmul (F := Ideal) dotH none _ _ _ (ix2 p q) = _
  rw [matmul_apply]
  refine Finset.sum_congr rfl fun k _ => ?_
  rw [act_apply]
  simp only [shapeCast_self]
  rfl

end Cert.Gcn.StageThree

end
-- ==== Proof.StageThree.lean ====
/-
  The third stage, from blocks to the two arrays. Its grid has 25 points; point t reads rows
  2000·t … 2000·t + 1999 of the [50000,128] aggregated array and of the [50000,1] node factors, the
  five whole per-channel vectors and the two whole [128,128] weight blocks, and writes back rows
  2000·t … 2000·t + 1999 of each of the two [50000,128] results. So what point t writes back into
  either result is block t of ONE function of the arrays it reads — the specification's
  `hiddenProj` with that result's weight block — and the 25 blocks tile each result: row r lies in
  the block of point r / 2000.
-/
import proofs.«136663_j34600256537208_2_alg».proof.Proof.Gen.KernelIdeal.Frame
import proofs.«136663_j34600256537208_2_alg».proof.Proof.Spec
import proofs.«136663_j34600256537208_2_alg».proof.Proof.StageThreePoint
import Idealize.ShloMosaic.Lib.Pipeline.Value

noncomputable section

namespace Cert.Gcn.StageThree

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The index maps of the windows that move with the point: on the row axis the block index
    is the point, on the channel axis zero — the aggregated rows, the node factors, the two results. -/
theorem idx_rows : ∀ t : Fin cfg2.N, win2_0.index t (0 : Fin 2) = t.val ∧ win2_0.index t (1 : Fin 2) = 0
    ∧ win2_6.index t (0 : Fin 2) = t.val ∧ win2_6.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

/-- The index maps of the windows that hold a whole array: every block index is zero. -/
theorem idx_whole : ∀ t : Fin cfg2.N, win2_1.index t (0 : Fin 1) = 0 ∧ win2_2.index t (0 : Fin 1) = 0
    ∧ win2_3.index t (0 : Fin 1) = 0 ∧ win2_4.index t (0 : Fin 1) = 0 ∧ win2_5.index t (0 : Fin 1) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- The aggregated rows' block at point t is rows 2000·t … of the array. -/
theorem rows_apply (c : Dev nD) (t : Fin cfg2.N) (x : S2000x128.Idx) (k : S50000x128.Idx)
    (hk0 : (k 0).val = t.val * 2000 + (x 0).val) (hk1 : (k 1).val = (x 1).val) :
    (iblk2 V c 0 t : Vec Ideal S2000x128 .f32) x = (V c main_v36 : S50000x128.Idx → EReal) k := by
  obtain ⟨e0, e1, -⟩ := idx_rows t
  unfold iblk2
  rw [View.read_apply]
  show V c main_v36 _ = V c main_v36 _
  congr 1
  funext a
  apply Fin.ext
  match a with
  | ⟨0, _⟩ => show win2_0.index t 0 * 2000 + 1 * (x 0).val = (k 0).val; rw [e0, hk0]; omega
  | ⟨1, _⟩ => show win2_0.index t 1 * 128 + 1 * (x 1).val = (k 1).val; rw [e1, hk1]; omega

/-- The node factors' block at point t is rows 2000·t … of the factor column. -/
theorem factors_apply (c : Dev nD) (t : Fin cfg2.N) (x : S2000x1.Idx) (k : S50000x1.Idx)
    (hk0 : (k 0).val = t.val * 2000 + (x 0).val) (hk1 : (k 1).val = (x 1).val) :
    (iblk2 V c 6 t : Vec Ideal S2000x1 .f32) x = (V c main_v12 : S50000x1.Idx → EReal) k := by
  obtain ⟨-, -, e0, e1, -⟩ := idx_rows t
  unfold iblk2
  rw [View.read_apply]
  show V c main_v12 _ = V c main_v12 _
  congr 1
  funext a
  apply Fin.ext
  match a with
  | ⟨0, _⟩ => show win2_6.index t 0 * 2000 + 1 * (x 0).val = (k 0).val; rw [e0, hk0]; omega
  | ⟨1, _⟩ => show win2_6.index t 1 * 1 + 1 * (x 1).val = (k 1).val; rw [e1, hk1]; omega

/-- The bias's block at any point is the whole vector. -/
theorem bias_eq (c : Dev nD) (t : Fin cfg2.N) :
    (iblk2 V c 1 t : Vec Ideal S128 .f32) = (V c main_arg9 : S128.Idx → EReal) := by
  have e0 : win2_1.index t (0 : Fin 1) = 0 := (idx_whole t).1
  funext x
  unfold iblk2
  rw [View.read_apply]
  show V c main_arg9 _ = V c main_arg9 _
  congr 1
  funext a
  apply Fin.ext
  match a with
  | ⟨0, _⟩ => show win2_1.index t 0 * 128 + 1 * (x 0).val = (x 0).val; rw [e0]; omega

/-- The scale's block at any point is the whole vector. -/
theorem scale_eq (c : Dev nD) (t : Fin cfg2.N) :
    (iblk2 V c 2 t : Vec Ideal S128 .f32) = (V c main_arg10 : S128.Idx → EReal) := by
  have e0 : win2_2.index t (0 : Fin 1) = 0 := (idx_whole t).2.1
  funext x
  unfold iblk2
  rw [View.read_apply]
  show V c main_arg10 _ = V c main_arg10 _
  congr 1
  funext a
  apply Fin.ext
  match a with
  | ⟨0, _⟩ => show win2_2.index t 0 * 128 + 1 * (x 0).val = (x 0).val; rw [e0]; omega

/-- The shift's block at any point is the whole vector. -/
theorem shift_eq (c : Dev nD) (t : Fin cfg2.N) :
    (iblk2 V c 3 t : Vec Ideal S128 .f32) = (V c main_arg11 : S128.Idx → EReal) := by
  have e0 : win2_3.index t (0 : Fin 1) = 0 := (idx_whole t).2.2.1
  funext x
  unfold iblk2
  rw [View.read_apply]
  show V c main_arg11 _ = V c main_arg11 _
  congr 1
  funext a
  apply Fin.ext
  match a with
  | ⟨0, _⟩ => show win2_3.index t 0 * 128 + 1 * (x 0).val = (x 0).val; rw [e0]; omega

/-- The mean's block at any point is the whole vector. -/
theorem mean_eq (c : Dev nD) (t : Fin cfg2.N) :
    (iblk2 V c 4 t : Vec Ideal S128 .f32) = (V c main_arg12 : S128.Idx → EReal) := by
  have e0 : win2_4.index t (0 : Fin 1) = 0 := (idx_whole t).2.2.2.1
  funext x
  unfold iblk2
  rw [View.read_apply]
  show V c main_arg12 _ = V c main_arg12 _
  congr 1
  funext a
  apply Fin.ext
  match a with
  | ⟨0, _⟩ => show win2_4.index t 0 * 128 + 1 * (x 0).val = (x 0).val; rw [e0]; omega

/-- The variance's block at any point is the whole vector. -/
theorem variance_eq (c : Dev nD) (t : Fin cfg2.N) :
    (iblk2 V c 5 t : Vec Ideal S128 .f32) = (V c main_arg13 : S128.Idx → EReal) := by
  have e0 : win2_5.index t (0 : Fin 1) = 0 := (idx_whole t).2.2.2.2.1
  funext x
  unfold iblk2
  rw [View.read_apply]
  show V c main_arg13 _ = V c main_arg13 _
  congr 1
  funext a
  apply Fin.ext
  match a with
  | ⟨0, _⟩ => show win2_5.index t 0 * 128 + 1 * (x 0).val = (x 0).val; rw [e0]; omega

/-- The first weight block's window at any point holds the whole block. -/
theorem weightsU_eq (c : Dev nD) (t : Fin cfg2.N) :
    (iblk2 V c 7 t : Vec Ideal S128x128 .f32) = (V c main_v37 : S128x128.Idx → EReal) := by
  have e0 : win2_7.index t (0 : Fin 2) = 0 := (idx_whole t).2.2.2.2.2.1
  have e1 : win2_7.index t (1 : Fin 2) = 0 := (idx_whole t).2.2.2.2.2.2.1
  funext x
  unfold iblk2
  rw [View.read_apply]
  show V c main_v37 _ = V c main_v37 _
  congr 1
  funext a
  apply Fin.ext
  match a with
  | ⟨0, _⟩ => show win2_7.index t 0 * 128 + 1 * (x 0).val = (x 0).val; rw [e0]; omega
  | ⟨1, _⟩ => show win2_7.index t 1 * 128 + 1 * (x 1).val = (x 1).val; rw [e1]; omega

/-- The second weight block's window at any point holds the whole block. -/
theorem weightsV_eq (c : Dev nD) (t : Fin cfg2.N) :
    (iblk2 V c 8 t : Vec Ideal S128x128 .f32) = (V c main_v38 : S128x128.Idx → EReal) := by
  have e0 : win2_8.index t (0 : Fin 2) = 0 := (idx_whole t).2.2.2.2.2.2.2.1
  have e1 : win2_8.index t (1 : Fin 2) = 0 := (idx_whole t).2.2.2.2.2.2.2.2
  funext x
  unfold iblk2
  rw [View.read_apply]
  show V c main_v38 _ = V c main_v38 _
  congr 1
  funext a
  apply Fin.ext
  match a with
  | ⟨0, _⟩ => show win2_8.index t 0 * 128 + 1 * (x 0).val = (x 0).val; rw [e0]; omega
  | ⟨1, _⟩ => show win2_8.index t 1 * 128 + 1 * (x 1).val = (x 1).val; rw [e1]; omega

/-- The sum over the channels of activation times weight, for a block of rows that sits at rows
    2000·n … of the arrays, is `hiddenProj` at the row 2000·n + (the entry's row). -/
theorem sum_eq (x : Vec Ideal S2000x128 .f32) (d : Vec Ideal S2000x1 .f32) (b g var mu be : Arr1 128) (w : Arr2 128 128)
    (raw : Arr2 50000 128) (D : Arr2 50000 1) (n : Nat)
    (hx : ∀ (y : S2000x128.Idx) (k : S50000x128.Idx), (k 0).val = n * 2000 + (y 0).val → (k 1).val = (y 1).val → x y = raw k)
    (hd : ∀ (y : S2000x1.Idx) (k : S50000x1.Idx), (k 0).val = n * 2000 + (y 0).val → (k 1).val = (y 1).val → d y = D k)
    (p : Fin 2000) (q : Fin 128) (i : S50000x128.Idx) (hi0 : (i 0).val = n * 2000 + p.val) (hi1 : (i 1).val = q.val) :
    (∑ k : Fin 128, actAt (x (ix2 p k)) (d (ix2 p (0 : Fin 1))) (b (ix1 k)) (g (ix1 k)) (var (ix1 k)) (mu (ix1 k)) (be (ix1 k)) * w (ix2 k q))
      = hiddenProj raw b g be mu var D w i := by
  unfold hiddenProj proj hidden
  have hq : (i 1) = q := Fin.ext hi1
  rw [hq]
  refine Finset.sum_congr rfl fun k _ => ?_
  rw [hx (ix2 p k) (ix2 (i 0) k) hi0 rfl, hd (ix2 p (0 : Fin 1)) (ix2 (i 0) (0 : Fin 1)) hi0 rfl]
  rfl

/-- One entry of the first stored product. -/
theorem entryU_eq (x : Vec Ideal S2000x128 .f32) (d : Vec Ideal S2000x1 .f32) (b g var mu be : Vec Ideal S128 .f32) (w : Vec Ideal S128x128 .f32)
    (raw : Arr2 50000 128) (D : Arr2 50000 1) (n : Nat)
    (hx : ∀ (y : S2000x128.Idx) (k : S50000x128.Idx), (k 0).val = n * 2000 + (y 0).val → (k 1).val = (y 1).val → x y = raw k)
    (hd : ∀ (y : S2000x1.Idx) (k : S50000x1.Idx), (k 0).val = n * 2000 + (y 0).val → (k 1).val = (y 1).val → d y = D k)
    (j : S2000x128.Idx) (i : S50000x128.Idx) (hi0 : (i 0).val = n * 2000 + (j 0).val) (hi1 : (i 1).val = (j 1).val) :
    k2_pay4 (F := Ideal) x d b g var mu be w j = hiddenProj raw b g be mu var D w i := by
  obtain ⟨p, q, rfl⟩ : ∃ (p : Fin 2000) (q : Fin 128), j = ix2 p q := ⟨j 0, j 1, eq_ix2 j⟩
  rw [projU_apply]
  exact sum_eq x d b g var mu be w raw D n hx hd p q i hi0 hi1

/-- One entry of the second stored product. -/
theorem entryV_eq (x : Vec Ideal S2000x128 .f32) (d : Vec Ideal S2000x1 .f32) (b g var mu be : Vec Ideal S128 .f32) (w : Vec Ideal S128x128 .f32)
    (raw : Arr2 50000 128) (D : Arr2 50000 1) (n : Nat)
    (hx : ∀ (y : S2000x128.Idx) (k : S50000x128.Idx), (k 0).val = n * 2000 + (y 0).val → (k 1).val = (y 1).val → x y = raw k)
    (hd : ∀ (y : S2000x1.Idx) (k : S50000x1.Idx), (k 0).val = n * 2000 + (y 0).val → (k 1).val = (y 1).val → d y = D k)
    (j : S2000x128.Idx) (i : S50000x128.Idx) (hi0 : (i 0).val = n * 2000 + (j 0).val) (hi1 : (i 1).val = (j 1).val) :
    k2_pay1 (F := Ideal) (k2_pay3 (F := Ideal) x d b g var mu be w) j = hiddenProj raw b g be mu var D w i := by
  obtain ⟨p, q, rfl⟩ : ∃ (p : Fin 2000) (q : Fin 128), j = ix2 p q := ⟨j 0, j 1, eq_ix2 j⟩
  rw [projV_apply]
  exact sum_eq x d b g var mu be w raw D n hx hd p q i hi0 hi1

/-- WHAT POINT t WRITES BACK into the first result is block t of `hiddenProj` with the first weight block. -/
theorem flushedU_eq (c : Dev nD) (t : Fin cfg2.N) :
    (dat2 (F := Ideal) V c).flushed 9 t
      = ((cfg2.win 9).blk t).view.read (Elt Ideal) (hiddenProj (V c main_v36) (V c main_arg9) (V c main_arg10) (V c main_arg11)
          (V c main_arg12) (V c main_arg13) (V c main_v12) (V c main_v37)) := by
  show (cfg2.win 9).cut (grid2.coords t) ((dat2 V c).after 9 t) = _
  rw [after2_9]
  unfold out2_9
  rw [View.canon_unit_zero zero2]
  simp only [View.ld_unit_zero (S := S2000x128) zero2, View.ld_unit_zero (S := S2000x1) zero2, View.ld_unit_zero (S := S128) zero1,
    View.ld_unit_zero (S := S128x128) zero2]
  rw [bias_eq, scale_eq, shift_eq, mean_eq, variance_eq, weightsU_eq]
  have e0 : win2_9.index t (0 : Fin 2) = t.val := (idx_rows t).2.2.2.2.1
  have e1 : win2_9.index t (1 : Fin 2) = 0 := (idx_rows t).2.2.2.2.2.1
  funext j
  rw [View.read_apply]
  show k2_pay4 (F := Ideal) (iblk2 V c 0 t) (iblk2 V c 6 t) (V c main_arg9) (V c main_arg10) (V c main_arg13) (V c main_arg12) (V c main_arg11) (V c main_v37) j = hiddenProj _ _ _ _ _ _ _ _ (((cfg2.win 9).blk t).view.emb j)
  refine entryU_eq (iblk2 V c 0 t) (iblk2 V c 6 t) _ _ _ _ _ _ (V c main_v36) (V c main_v12) t.val
    (fun y k h0 h1 => rows_apply V c t y k h0 h1) (fun y k h0 h1 => factors_apply V c t y k h0 h1) j _ ?_ ?_
  · show win2_9.index t 0 * 2000 + 1 * (j 0).val = t.val * 2000 + (j 0).val; rw [e0]; omega
  · show win2_9.index t 1 * 128 + 1 * (j 1).val = (j 1).val; rw [e1]; omega

/-- WHAT POINT t WRITES BACK into the second result is block t of `hiddenProj` with the second weight block. -/
theorem flushedV_eq (c : Dev nD) (t : Fin cfg2.N) :
    (dat2 (F := Ideal) V c).flushed 10 t
      = ((cfg2.win 10).blk t).view.read (Elt Ideal) (hiddenProj (V c main_v36) (V c main_arg9) (V c main_arg10) (V c main_arg11)
          (V c main_arg12) (V c main_arg13) (V c main_v12) (V c main_v38)) := by
  show (cfg2.win 10).cut (grid2.coords t) ((dat2 V c).after 10 t) = _
  rw [after2_10]
  unfold out2_10
  rw [View.canon_unit_zero zero2]
  simp only [View.ld_unit_zero (S := S2000x128) zero2, View.ld_unit_zero (S := S2000x1) zero2, View.ld_unit_zero (S := S128) zero1,
    View.ld_unit_zero (S := S128x128) zero2]
  rw [bias_eq, scale_eq, shift_eq, mean_eq, variance_eq, weightsV_eq]
  have e0 : win2_10.index t (0 : Fin 2) = t.val := (idx_rows t).2.2.2.2.2.2.1
  have e1 : win2_10.index t (1 : Fin 2) = 0 := (idx_rows t).2.2.2.2.2.2.2
  funext j
  rw [View.read_apply]
  show k2_pay1 (F := Ideal) (k2_pay3 (F := Ideal) (iblk2 V c 0 t) (iblk2 V c 6 t) (V c main_arg9) (V c main_arg10) (V c main_arg13) (V c main_arg12) (V c main_arg11) (V c main_v38)) j = hiddenProj _ _ _ _ _ _ _ _ (((cfg2.win 10).blk t).view.emb j)
  refine entryV_eq (iblk2 V c 0 t) (iblk2 V c 6 t) _ _ _ _ _ _ (V c main_v36) (V c main_v12) t.val
    (fun y k h0 h1 => rows_apply V c t y k h0 h1) (fun y k h0 h1 => factors_apply V c t y k h0 h1) j _ ?_ ?_
  · show win2_10.index t 0 * 2000 + 1 * (j 0).val = t.val * 2000 + (j 0).val; rw [e0]; omega
  · show win2_10.index t 1 * 128 + 1 * (j 1).val = (j 1).val; rw [e1]; omega

/-- An index of that result is in point t's block iff each coordinate is in the block's range on its axis. -/
theorem mem_blkU (t : Fin cfg2.N) (i : S50000x128.Idx) :
    i ∈ ((cfg2.win 9).blk t).view.set ↔ ∀ a : Fin 2, win2_9.index t a * S2000x128.size a ≤ (i a).val ∧ (i a).val < win2_9.index t a * S2000x128.size a + S2000x128.size a := by
  show i ∈ ((View.whole main_v39_0).slice (win2_9.rect t)).set ↔ _
  rw [View.set_slice_whole, Rect.mem_set_unit]
  exact Iff.rfl

/-- Every index of that result is in the block of the point its row names. -/
theorem coverU (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  have e0 : win2_9.index t (0 : Fin 2) = t.val := (idx_rows t).2.2.2.2.1
  have e1 : win2_9.index t (1 : Fin 2) = 0 := (idx_rows t).2.2.2.2.2.1
  have ht : t.val = (i 0).val / 2000 := rfl
  refine ⟨t, flush2_9 t, ?_⟩
  rw [mem_blkU]
  intro a
  match a with
  | ⟨0, _⟩ => show win2_9.index t (0 : Fin 2) * 2000 ≤ (i 0).val ∧ (i 0).val < win2_9.index t (0 : Fin 2) * 2000 + 2000; rw [e0, ht]; omega
  | ⟨1, _⟩ => show win2_9.index t (1 : Fin 2) * 128 ≤ (i 1).val ∧ (i 1).val < win2_9.index t (1 : Fin 2) * 128 + 128; rw [e1]; omega

/-- An index of that result is in point t's block iff each coordinate is in the block's range on its axis. -/
theorem mem_blkV (t : Fin cfg2.N) (i : S50000x128.Idx) :
    i ∈ ((cfg2.win 10).blk t).view.set ↔ ∀ a : Fin 2, win2_10.index t a * S2000x128.size a ≤ (i a).val ∧ (i a).val < win2_10.index t a * S2000x128.size a + S2000x128.size a := by
  show i ∈ ((View.whole main_v39_1).slice (win2_10.rect t)).set ↔ _
  rw [View.set_slice_whole, Rect.mem_set_unit]
  exact Iff.rfl

/-- Every index of that result is in the block of the point its row names. -/
theorem coverV (i : S50000x128.Idx) : ∃ t : Fin cfg2.N, (cfg2.win 10).flush t = true ∧ i ∈ ((cfg2.win 10).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  have e0 : win2_10.index t (0 : Fin 2) = t.val := (idx_rows t).2.2.2.2.2.2.1
  have e1 : win2_10.index t (1 : Fin 2) = 0 := (idx_rows t).2.2.2.2.2.2.2
  have ht : t.val = (i 0).val / 2000 := rfl
  refine ⟨t, flush2_10 t, ?_⟩
  rw [mem_blkV]
  intro a
  match a with
  | ⟨0, _⟩ => show win2_10.index t (0 : Fin 2) * 2000 ≤ (i 0).val ∧ (i 0).val < win2_10.index t (0 : Fin 2) * 2000 + 2000; rw [e0, ht]; omega
  | ⟨1, _⟩ => show win2_10.index t (1 : Fin 2) * 128 ≤ (i 1).val ∧ (i 1).val < win2_10.index t (1 : Fin 2) * 128 + 128; rw [e1]; omega

end Cert.Gcn.StageThree

namespace Cert.Gcn

open Idealize.ShloMosaic Idealize.ShloMosaic.TcCoe Idealize.SL.Sem
open Cert.KernelIdeal

/-- After the third region the first result array holds `hiddenProj` with the first weight block. -/
theorem stageThreeU (V : (c : Dev nD) → (b : Ref sig .tc) → Buf (Elt Ideal) ((c : Thread nD τ).loc b)) (c : Dev nD) :
    (Gen.dat2 (F := Ideal) V c).arrAt 9 cfg2.N = Cert.Gcn.hiddenProj (V c main_v36) (V c main_arg9) (V c main_arg10) (V c main_arg11)
      (V c main_arg12) (V c main_arg13) (V c main_v12) (V c main_v37) :=
  (Gen.dat2 (F := Ideal) V c).arrAt_eq_of_cover 9 _ (fun t _ => StageThree.flushedU_eq V c t) StageThree.coverU

/-- After the third region the second result array holds `hiddenProj` with the second weight block. -/
theorem stageThreeV (V : (c : Dev nD) → (b : Ref sig .tc) → Buf (Elt Ideal) ((c : Thread nD τ).loc b)) (c : Dev nD) :
    (Gen.dat2 (F := Ideal) V c).arrAt 10 cfg2.N = Cert.Gcn.hiddenProj (V c main_v36) (V c main_arg9) (V c main_arg10) (V c main_arg11)
      (V c main_arg12) (V c main_arg13) (V c main_v12) (V c main_v38) :=
  (Gen.dat2 (F := Ideal) V c).arrAt_eq_of_cover 10 _ (fun t _ => StageThree.flushedV_eq V c t) StageThree.coverV

end Cert.Gcn

end
-- ==== Proof.StageFourPoint.lean ====
/-
  The fourth stage's body at one entry of its block: for a block of 10000 edge rows `x`, the weight
  column `w` and the one-entry bias `b`, entry (p, q) of what the body stores is the logistic of
  the row's relu against the weight column, summed over the 128 channels, plus the bias. The changes
  of format are the identity at the exact instance, the matrix unit's accumulator is the zero word,
  and the bias reaches every row through a cast to [1,1] and a broadcast.
-/
import proofs.«136663_j34600256537208_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.Gcn.StageFour

open Idealize.ShloMosaic Idealize.ShloMosaic.ValueIdx Cert.KernelIdeal Cert.KernelIdeal.Gen

/-- The dimension numbers of the body's one product: [10000,128] × [128,1], contracting the channels. -/
abbrev dotP := dot_S10000x128_S128x1_S10000x1_1_0_0_1_n_n

/-- The left operand's row is the output's row. -/
theorem lhs_row (i : S10000x1.Idx) (q : dotP.contr.Idx) : (dotP.lhsIdx i q 0).val = (i 0).val := by
  unfold DotDims.lhsIdx
  rw [dif_neg (show ¬(0 : Fin S10000x128.rank) ∈ dotP.lhsBatch by decide), dif_pos (show (0 : Fin S10000x128.rank) ∈ dotP.lhsNonContracting by decide)]
  rfl
/-- The left operand's column is the contraction position. -/
theorem lhs_col (i : S10000x1.Idx) (q : dotP.contr.Idx) : (dotP.lhsIdx i q 1).val = (q ⟨0, by decide⟩).val :=
  dotP.lhsIdx_val_of_single rfl i q
/-- The right operand's row is the contraction position. -/
theorem rhs_row (i : S10000x1.Idx) (q : dotP.contr.Idx) : (dotP.rhsIdx i q 0).val = (q ⟨0, by decide⟩).val :=
  dotP.rhsIdx_val_of_single rfl i q
/-- The right operand's column is the output's column. -/
theorem rhs_col (i : S10000x1.Idx) (q : dotP.contr.Idx) : (dotP.rhsIdx i q 1).val = (i 1).val := by
  unfold DotDims.rhsIdx
  rw [dif_neg (show ¬(1 : Fin S128x1.rank) ∈ dotP.rhsBatch by decide), dif_pos (show (1 : Fin S128x1.rank) ∈ dotP.rhsNonContracting by decide)]
  rfl

/-- The product into the zero accumulator at (p, q): the sum over the channels. -/
theorem matmul_apply (a : FVec Ideal S10000x128 .bf16) (w : FVec Ideal S128x1 .bf16) (p : Fin 10000) (q : Fin 1) :
    matmul dotP none a w (constant (F := Ideal) S10000x1 .f32 0x00000000#32) (ix2 p q)
      = ∑ k : Fin 128, a (ix2 p k) * w (ix2 k q) := by
  refine (Ideal.matmul_constant_zero_apply dotP none a w (ix2 p q)).trans ?_
  rw [← Equiv.sum_comp (contrEquiv1 dotP 128 rfl rfl).symm]
  refine Finset.sum_congr rfl fun k _ => ?_
  have hk := contrEquiv1_symm_val dotP 128 rfl rfl k
  have el : dotP.lhsIdx (ix2 p q) ((contrEquiv1 dotP 128 rfl rfl).symm k) = ix2 p k := funext fun a => Fin.ext (by
    match a with
    | ⟨0, _⟩ => exact lhs_row _ _
    | ⟨1, _⟩ => exact (lhs_col _ _).trans hk)
  have er : dotP.rhsIdx (ix2 p q) ((contrEquiv1 dotP 128 rfl rfl).symm k) = ix2 k q := funext fun a => Fin.ext (by
    match a with
    | ⟨0, _⟩ => exact (rhs_row _ _).trans hk
    | ⟨1, _⟩ => exact rhs_col _ _)
  rw [el, er]

/-- The bias, cast to [1,1] and broadcast down the rows, is its one entry everywhere. -/
theorem bias_apply (b : Vec Ideal S1 .f32) (p : Fin 10000) (q : Fin 1) :
    broadcastTo S10000x1 (shapeCast S1x1 b Facts₀.shapeCasts_S1_S1x1) Facts₀.broadcasts_S1x1_S10000x1 (ix2 p q) = b (ix1 0) := by
  refine (broadcastTo_apply _ _ (ix2 p q) (ix2 (0 : Fin 1) (0 : Fin 1)) (fun a => ?_)).trans ?_
  · match a with
    | ⟨0, _⟩ => rfl
    | ⟨1, _⟩ => rfl
  · refine shapeCast_apply _ _ _ (ix1 0) ?_
    rfl

/-- Entry (p, q) of the body's stored block. -/
theorem pay_apply (x : Vec Ideal S10000x128 .f32) (w : Vec Ideal S128x1 .f32) (b : Vec Ideal S1 .f32) (p : Fin 10000) (q : Fin 1) :
    k3_pay1 (F := Ideal) x w b (ix2 p q)
      = Ideal.logistic ((∑ k : Fin 128, max (x (ix2 p k)) (Ideal.ofBits .f32 0x00000000#32) * w (ix2 k q)) + b (ix1 0)) := by
  unfold k3_pay1
  show Ideal.logistic (matmul (F := Ideal) dotP none _ _ _ (ix2 p q) + broadcastTo S10000x1 _ _ (ix2 p q)) = _
  rw [matmul_apply, bias_apply]
  simp only [shapeCast_self]
  rfl

end Cert.Gcn.StageFour

end
-- ==== Proof.StageFourArray.lean ====
/-
  The fourth stage, from blocks to the array. Its grid has 80 points; point t reads rows
  10000·t … 10000·t + 9999 of the [800000,128] edge array, the whole [128,1] weight column and the
  whole one-entry bias, and writes back rows 10000·t … 10000·t + 9999 of the [800000,1] result. So
  what point t writes back is block t of ONE function of the three arrays, and the 80 blocks tile
  the result: row r lies in the block of point r / 10000.
-/
import proofs.«136663_j34600256537208_2_alg».proof.Proof.Gen.KernelIdeal.Frame
import proofs.«136663_j34600256537208_2_alg».proof.Proof.StageFourPoint
import Idealize.ShloMosaic.Lib.Pipeline.Value

noncomputable section

namespace Cert.Gcn.StageFour

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The result as one function of the edge array `z`, the weight column `w` and the bias `b`: at
    edge e, the logistic of relu(z e)·w + b. -/
def predictFn (z : S800000x128.Idx → EReal) (w : S128x1.Idx → EReal) (b : S1.Idx → EReal) : S800000x1.Idx → EReal :=
  fun i => Ideal.logistic ((∑ k : Fin 128, max (z (ix2 (i 0) k)) (Ideal.ofBits .f32 0x00000000#32) * w (ix2 k (i 1))) + b (ix1 0))

theorem zero2 : (![0, 0] : Fin 2 → Nat) = fun _ => 0 := funext fun a => by fin_cases a <;> rfl
theorem zero1 : (![0] : Fin 1 → Nat) = fun _ => 0 := funext fun a => by fin_cases a; rfl

/-- The windows' index maps over the grid: the edge rows' and the result's block index on the row
    axis is the point, every other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The edge rows' block at point t is rows 10000·t … of the array. -/
theorem edges_apply (c : Dev nD) (t : Fin cfg3.N) (x : S10000x128.Idx) (k : S800000x128.Idx)
    (hk0 : (k 0).val = t.val * 10000 + (x 0).val) (hk1 : (k 1).val = (x 1).val) :
    (iblk3 V c 0 t : Vec Ideal S10000x128 .f32) x = (V c main_v59 : S800000x128.Idx → EReal) k := by
  obtain ⟨e0, e1, -⟩ := idx_facts t
  unfold iblk3
  rw [View.read_apply]
  show V c main_v59 _ = V c main_v59 _
  congr 1
  funext a
  apply Fin.ext
  match a with
  | ⟨0, _⟩ => show win3_0.index t 0 * 10000 + 1 * (x 0).val = (k 0).val; rw [e0, hk0]; omega
  | ⟨1, _⟩ => show win3_0.index t 1 * 128 + 1 * (x 1).val = (k 1).val; rw [e1, hk1]; omega

/-- The weight column's block at any point is the whole column. -/
theorem weights_eq (c : Dev nD) (t : Fin cfg3.N) :
    (iblk3 V c 1 t : Vec Ideal S128x1 .f32) = (V c main_arg16 : S128x1.Idx → EReal) := by
  obtain ⟨-, -, e0, e1, -⟩ := idx_facts t
  funext x
  unfold iblk3
  rw [View.read_apply]
  show V c main_arg16 _ = V c main_arg16 _
  congr 1
  funext a
  apply Fin.ext
  match a with
  | ⟨0, _⟩ => show win3_1.index t 0 * 128 + 1 * (x 0).val = (x 0).val; rw [e0]; omega
  | ⟨1, _⟩ => show win3_1.index t 1 * 1 + 1 * (x 1).val = (x 1).val; rw [e1]; omega

/-- The bias's block at any point is the whole bias. -/
theorem bias_eq (c : Dev nD) (t : Fin cfg3.N) :
    (iblk3 V c 2 t : Vec Ideal S1 .f32) = (V c main_arg17 : S1.Idx → EReal) := by
  obtain ⟨-, -, -, -, e0, -⟩ := idx_facts t
  funext x
  unfold iblk3
  rw [View.read_apply]
  show V c main_arg17 _ = V c main_arg17 _
  congr 1
  funext a
  apply Fin.ext
  match a with
  | ⟨0, _⟩ => show win3_2.index t 0 * 1 + 1 * (x 0).val = (x 0).val; rw [e0]; omega

/-- One entry of the body's stored block, for a block of rows that sits at rows 10000·n … of the
    edge array: the result function at the row 10000·n + (the entry's row). -/
theorem entry_eq (x : Vec Ideal S10000x128 .f32) (w : Vec Ideal S128x1 .f32) (b : Vec Ideal S1 .f32)
    (z : S800000x128.Idx → EReal) (n : Nat)
    (hx : ∀ (y : S10000x128.Idx) (k : S800000x128.Idx), (k 0).val = n * 10000 + (y 0).val → (k 1).val = (y 1).val → x y = z k)
    (j : S10000x1.Idx) (i : S800000x1.Idx) (hi0 : (i 0).val = n * 10000 + (j 0).val) (hi1 : (i 1).val = (j 1).val) :
    k3_pay1 (F := Ideal) x w b j = predictFn z w b i := by
  obtain ⟨p, q, rfl⟩ : ∃ (p : Fin 10000) (q : Fin 1), j = ix2 p q := ⟨j 0, j 1, eq_ix2 j⟩
  rw [pay_apply]
  unfold predictFn
  have hq : (i 1) = q := Fin.ext hi1
  rw [hq]
  refine congrArg (fun s => Ideal.logistic (s + b (ix1 0))) (Finset.sum_congr rfl fun k _ => ?_)
  rw [hx (ix2 p k) (ix2 (i 0) k) hi0 rfl]

/-- WHAT POINT t WRITES BACK is block t of the result function of the three arrays as the region finds them. -/
theorem flushed_eq (c : Dev nD) (t : Fin cfg3.N) :
    (dat3 (F := Ideal) V c).flushed 3 t
      = ((cfg3.win 3).blk t).view.read (Elt Ideal) (predictFn (V c main_v59) (V c main_arg16) (V c main_arg17)) := by
  show (cfg3.win 3).cut (grid3.coords t) ((dat3 V c).after 3 t) = _
  rw [after3_3]
  unfold out3_3
  rw [View.canon_unit_zero zero2]
  simp only [View.ld_unit_zero (S := S10000x128) zero2, View.ld_unit_zero (S := S128x1) zero2, View.ld_unit_zero (S := S1) zero1]
  rw [weights_eq, bias_eq]
  obtain ⟨-, -, -, -, -, e0, e1⟩ := idx_facts t
  funext j
  rw [View.read_apply]
  show k3_pay1 (F := Ideal) (iblk3 V c 0 t) (V c main_arg16) (V c main_arg17) j = predictFn _ _ _ (((cfg3.win 3).blk t).view.emb j)
  refine entry_eq (iblk3 V c 0 t) _ _ (V c main_v59) t.val (fun y k h0 h1 => edges_apply V c t y k h0 h1) j _ ?_ ?_
  · show win3_3.index t 0 * 10000 + 1 * (j 0).val = t.val * 10000 + (j 0).val; rw [e0]; omega
  · show win3_3.index t 1 * 1 + 1 * (j 1).val = (j 1).val; rw [e1]; omega

/-- An index of the result is in point t's block iff each coordinate is in the block's range on its axis. -/
theorem mem_blk (t : Fin cfg3.N) (i : S800000x1.Idx) :
    i ∈ ((cfg3.win 3).blk t).view.set ↔ ∀ a : Fin 2, win3_3.index t a * S10000x1.size a ≤ (i a).val ∧ (i a).val < win3_3.index t a * S10000x1.size a + S10000x1.size a := by
  show i ∈ ((View.whole main_v60).slice (win3_3.rect t)).set ↔ _
  rw [View.set_slice_whole, Rect.mem_set_unit]
  exact Iff.rfl

/-- Every index of the result is in the block of the point its row names. -/
theorem cover (i : S800000x1.Idx) : ∃ t : Fin cfg3.N, (cfg3.win 3).flush t = true ∧ i ∈ ((cfg3.win 3).blk t).view.set := by
  have hi0 : (i 0).val < 800000 := (i 0).isLt
  have hi1 : (i 1).val < 1 := (i 1).isLt
  have hN : cfg3.N = 80 := N_3
  let t : Fin cfg3.N := ⟨(i 0).val / 10000, by rw [hN]; omega⟩
  obtain ⟨-, -, -, -, -, e0, e1⟩ := idx_facts t
  have ht : t.val = (i 0).val / 10000 := rfl
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; rw [e0, ht]; omega
  | ⟨1, _⟩ => show win3_3.index t (1 : Fin 2) * 1 ≤ (i 1).val ∧ (i 1).val < win3_3.index t (1 : Fin 2) * 1 + 1; rw [e1]; omega

/-- THE RESULT ARRAY after the region: the result function of the three arrays as the region finds them. -/
theorem array_eq (c : Dev nD) :
    (dat3 (F := Ideal) V c).arrAt 3 cfg3.N = predictFn (V c main_v59) (V c main_arg16) (V c main_arg17) :=
  (dat3 (F := Ideal) V c).arrAt_eq_of_cover 3 _ (fun t _ => flushed_eq V c t) cover

end Cert.Gcn.StageFour

end
-- ==== Proof.StageFour.lean ====
/-
  The fourth stage's result array after its region, for any contents the region is entered with:
  the specification's `predict` of the edge array, the weight column and the bias as the region
  finds them.
-/
import proofs.«136663_j34600256537208_2_alg».proof.Proof.Spec
import proofs.«136663_j34600256537208_2_alg».proof.Proof.StageFourArray

noncomputable section

namespace Cert.Gcn

open Idealize.ShloMosaic Idealize.ShloMosaic.TcCoe Idealize.ShloMosaic.ValueIdx Idealize.SL.Sem
open Cert.KernelIdeal

/-- The blocks' one function is the specification's, entry by entry. -/
theorem StageFour.predictFn_eq (z : Arr2 800000 128) (w : Arr2 128 1) (b : Arr1 1) :
    StageFour.predictFn z w b = predict z w b := rfl

/-- After the fourth region the result array holds `predict` of the three arrays it reads. -/
theorem stageFour (V : (c : Dev nD) → (b : Ref sig .tc) → Buf (Elt Ideal) ((c : Thread nD τ).loc b)) (c : Dev nD) :
    (Gen.dat3 (F := Ideal) V c).arrAt 3 cfg3.N = Cert.Gcn.predict (V c main_v59) (V c main_arg16) (V c main_arg17) :=
  (StageFour.array_eq V c).trans (StageFour.predictFn_eq _ _ _)

end Cert.Gcn

end
-- ==== Proof.KernelKeep.lean ====
/-
  The contents of the idealized kernel's buffers at the boundaries between its segments, read back.
  No host operation and no region writes an argument array, so at every boundary it holds its launch
  contents; an array the first stretch of host operations computes (the edge endpoints, the message
  index arrays, the node factors) is written once and holds that value at every later boundary.
-/
import proofs.«136663_j34600256537208_2_alg».proof.Proof.Gen.KernelIdeal.Frame
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- A stretch of host operations leaves a buffer none of them writes as it was. -/
macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

theorem W1_main_arg0 : W1 (F := F) m ρ c (Proc.devRef .tc main_arg0) = m ((c : Thread nD τ).loc main_arg0) :=
  ((show W1 m ρ c (Proc.devRef .tc main_arg0) = W0 m ρ c (Proc.devRef .tc main_arg0) by host_keeps hostOps0)).trans rfl

theorem W1_main_arg2 : W1 (F := F) m ρ c (Proc.devRef .tc main_arg2) = m ((c : Thread nD τ).loc main_arg2) :=
  ((show W1 m ρ c (Proc.devRef .tc main_arg2) = W0 m ρ c (Proc.devRef .tc main_arg2) by host_keeps hostOps0)).trans rfl

theorem W3_main_arg3 : W3 (F := F) m ρ c (Proc.devRef .tc main_arg3) = m ((c : Thread nD τ).loc main_arg3) :=
  ((show W3 m ρ c (Proc.devRef .tc main_arg3) = W2 m ρ c (Proc.devRef .tc main_arg3) by host_keeps hostOps1).trans
    ((W2_of_ne m ρ c main_arg3 (by decide)).trans
    ((show W1 m ρ c (Proc.devRef .tc main_arg3) = W0 m ρ c (Proc.devRef .tc main_arg3) by host_keeps hostOps0)))).trans rfl

theorem W3_main_arg4 : W3 (F := F) m ρ c (Proc.devRef .tc main_arg4) = m ((c : Thread nD τ).loc main_arg4) :=
  ((show W3 m ρ c (Proc.devRef .tc main_arg4) = W2 m ρ c (Proc.devRef .tc main_arg4) by host_keeps hostOps1).trans
    ((W2_of_ne m ρ c main_arg4 (by decide)).trans
    ((show W1 m ρ c (Proc.devRef .tc main_arg4) = W0 m ρ c (Proc.devRef .tc main_arg4) by host_keeps hostOps0)))).trans rfl

theorem W3_main_arg5 : W3 (F := F) m ρ c (Proc.devRef .tc main_arg5) = m ((c : Thread nD τ).loc main_arg5) :=
  ((show W3 m ρ c (Proc.devRef .tc main_arg5) = W2 m ρ c (Proc.devRef .tc main_arg5) by host_keeps hostOps1).trans
    ((W2_of_ne m ρ c main_arg5 (by decide)).trans
    ((show W1 m ρ c (Proc.devRef .tc main_arg5) = W0 m ρ c (Proc.devRef .tc main_arg5) by host_keeps hostOps0)))).trans rfl

theorem W3_main_arg6 : W3 (F := F) m ρ c (Proc.devRef .tc main_arg6) = m ((c : Thread nD τ).loc main_arg6) :=
  ((show W3 m ρ c (Proc.devRef .tc main_arg6) = W2 m ρ c (Proc.devRef .tc main_arg6) by host_keeps hostOps1).trans
    ((W2_of_ne m ρ c main_arg6 (by decide)).trans
    ((show W1 m ρ c (Proc.devRef .tc main_arg6) = W0 m ρ c (Proc.devRef .tc main_arg6) by host_keeps hostOps0)))).trans rfl

theorem W3_main_arg7 : W3 (F := F) m ρ c (Proc.devRef .tc main_arg7) = m ((c : Thread nD τ).loc main_arg7) :=
  ((show W3 m ρ c (Proc.devRef .tc main_arg7) = W2 m ρ c (Proc.devRef .tc main_arg7) by host_keeps hostOps1).trans
    ((W2_of_ne m ρ c main_arg7 (by decide)).trans
    ((show W1 m ρ c (Proc.devRef .tc main_arg7) = W0 m ρ c (Proc.devRef .tc main_arg7) by host_keeps hostOps0)))).trans rfl

theorem W3_main_arg8 : W3 (F := F) m ρ c (Proc.devRef .tc main_arg8) = m ((c : Thread nD τ).loc main_arg8) :=
  ((show W3 m ρ c (Proc.devRef .tc main_arg8) = W2 m ρ c (Proc.devRef .tc main_arg8) by host_keeps hostOps1).trans
    ((W2_of_ne m ρ c main_arg8 (by decide)).trans
    ((show W1 m ρ c (Proc.devRef .tc main_arg8) = W0 m ρ c (Proc.devRef .tc main_arg8) by host_keeps hostOps0)))).trans rfl

theorem W5_main_arg9 : W5 (F := F) m ρ c (Proc.devRef .tc main_arg9) = m ((c : Thread nD τ).loc main_arg9) :=
  ((show W5 m ρ c (Proc.devRef .tc main_arg9) = W4 m ρ c (Proc.devRef .tc main_arg9) by host_keeps hostOps2).trans
    ((W4_of_ne m ρ c main_arg9 (by decide)).trans
    ((show W3 m ρ c (Proc.devRef .tc main_arg9) = W2 m ρ c (Proc.devRef .tc main_arg9) by host_keeps hostOps1).trans
    ((W2_of_ne m ρ c main_arg9 (by decide)).trans
    ((show W1 m ρ c (Proc.devRef .tc main_arg9) = W0 m ρ c (Proc.devRef .tc main_arg9) by host_keeps hostOps0)))))).trans rfl

theorem W5_main_arg10 : W5 (F := F) m ρ c (Proc.devRef .tc main_arg10) = m ((c : Thread nD τ).loc main_arg10) :=
  ((show W5 m ρ c (Proc.devRef .tc main_arg10) = W4 m ρ c (Proc.devRef .tc main_arg10) by host_keeps hostOps2).trans
    ((W4_of_ne m ρ c main_arg10 (by decide)).trans
    ((show W3 m ρ c (Proc.devRef .tc main_arg10) = W2 m ρ c (Proc.devRef .tc main_arg10) by host_keeps hostOps1).trans
    ((W2_of_ne m ρ c main_arg10 (by decide)).trans
    ((show W1 m ρ c (Proc.devRef .tc main_arg10) = W0 m ρ c (Proc.devRef .tc main_arg10) by host_keeps hostOps0)))))).trans rfl

theorem W5_main_arg11 : W5 (F := F) m ρ c (Proc.devRef .tc main_arg11) = m ((c : Thread nD τ).loc main_arg11) :=
  ((show W5 m ρ c (Proc.devRef .tc main_arg11) = W4 m ρ c (Proc.devRef .tc main_arg11) by host_keeps hostOps2).trans
    ((W4_of_ne m ρ c main_arg11 (by decide)).trans
    ((show W3 m ρ c (Proc.devRef .tc main_arg11) = W2 m ρ c (Proc.devRef .tc main_arg11) by host_keeps hostOps1).trans
    ((W2_of_ne m ρ c main_arg11 (by decide)).trans
    ((show W1 m ρ c (Proc.devRef .tc main_arg11) = W0 m ρ c (Proc.devRef .tc main_arg11) by host_keeps hostOps0)))))).trans rfl

theorem W5_main_arg12 : W5 (F := F) m ρ c (Proc.devRef .tc main_arg12) = m ((c : Thread nD τ).loc main_arg12) :=
  ((show W5 m ρ c (Proc.devRef .tc main_arg12) = W4 m ρ c (Proc.devRef .tc main_arg12) by host_keeps hostOps2).trans
    ((W4_of_ne m ρ c main_arg12 (by decide)).trans
    ((show W3 m ρ c (Proc.devRef .tc main_arg12) = W2 m ρ c (Proc.devRef .tc main_arg12) by host_keeps hostOps1).trans
    ((W2_of_ne m ρ c main_arg12 (by decide)).trans
    ((show W1 m ρ c (Proc.devRef .tc main_arg12) = W0 m ρ c (Proc.devRef .tc main_arg12) by host_keeps hostOps0)))))).trans rfl

theorem W5_main_arg13 : W5 (F := F) m ρ c (Proc.devRef .tc main_arg13) = m ((c : Thread nD τ).loc main_arg13) :=
  ((show W5 m ρ c (Proc.devRef .tc main_arg13) = W4 m ρ c (Proc.devRef .tc main_arg13) by host_keeps hostOps2).trans
    ((W4_of_ne m ρ c main_arg13 (by decide)).trans
    ((show W3 m ρ c (Proc.devRef .tc main_arg13) = W2 m ρ c (Proc.devRef .tc main_arg13) by host_keeps hostOps1).trans
    ((W2_of_ne m ρ c main_arg13 (by decide)).trans
    ((show W1 m ρ c (Proc.devRef .tc main_arg13) = W0 m ρ c (Proc.devRef .tc main_arg13) by host_keeps hostOps0)))))).trans rfl

theorem W4_main_arg14 : W4 (F := F) m ρ c (Proc.devRef .tc main_arg14) = m ((c : Thread nD τ).loc main_arg14) :=
  ((W4_of_ne m ρ c main_arg14 (by decide)).trans
    ((show W3 m ρ c (Proc.devRef .tc main_arg14) = W2 m ρ c (Proc.devRef .tc main_arg14) by host_keeps hostOps1).trans
    ((W2_of_ne m ρ c main_arg14 (by decide)).trans
    ((show W1 m ρ c (Proc.devRef .tc main_arg14) = W0 m ρ c (Proc.devRef .tc main_arg14) by host_keeps hostOps0))))).trans rfl

theorem W6_main_arg15 : W6 (F := F) m ρ c (Proc.devRef .tc main_arg15) = m ((c : Thread nD τ).loc main_arg15) :=
  ((W6_of_ne m ρ c main_arg15 (by decide)).trans
    ((show W5 m ρ c (Proc.devRef .tc main_arg15) = W4 m ρ c (Proc.devRef .tc main_arg15) by host_keeps hostOps2).trans
    ((W4_of_ne m ρ c main_arg15 (by decide)).trans
    ((show W3 m ρ c (Proc.devRef .tc main_arg15) = W2 m ρ c (Proc.devRef .tc main_arg15) by host_keeps hostOps1).trans
    ((W2_of_ne m ρ c main_arg15 (by decide)).trans
    ((show W1 m ρ c (Proc.devRef .tc main_arg15) = W0 m ρ c (Proc.devRef .tc main_arg15) by host_keeps hostOps0))))))).trans rfl

theorem W7_main_arg16 : W7 (F := F) m ρ c (Proc.devRef .tc main_arg16) = m ((c : Thread nD τ).loc main_arg16) :=
  ((show W7 m ρ c (Proc.devRef .tc main_arg16) = W6 m ρ c (Proc.devRef .tc main_arg16) by host_keeps hostOps3).trans
    ((W6_of_ne m ρ c main_arg16 (by decide)).trans
    ((show W5 m ρ c (Proc.devRef .tc main_arg16) = W4 m ρ c (Proc.devRef .tc main_arg16) by host_keeps hostOps2).trans
    ((W4_of_ne m ρ c main_arg16 (by decide)).trans
    ((show W3 m ρ c (Proc.devRef .tc main_arg16) = W2 m ρ c (Proc.devRef .tc main_arg16) by host_keeps hostOps1).trans
    ((W2_of_ne m ρ c main_arg16 (by decide)).trans
    ((show W1 m ρ c (Proc.devRef .tc main_arg16) = W0 m ρ c (Proc.devRef .tc main_arg16) by host_keeps hostOps0)))))))).trans rfl

theorem W7_main_arg17 : W7 (F := F) m ρ c (Proc.devRef .tc main_arg17) = m ((c : Thread nD τ).loc main_arg17) :=
  ((show W7 m ρ c (Proc.devRef .tc main_arg17) = W6 m ρ c (Proc.devRef .tc main_arg17) by host_keeps hostOps3).trans
    ((W6_of_ne m ρ c main_arg17 (by decide)).trans
    ((show W5 m ρ c (Proc.devRef .tc main_arg17) = W4 m ρ c (Proc.devRef .tc main_arg17) by host_keeps hostOps2).trans
    ((W4_of_ne m ρ c main_arg17 (by decide)).trans
    ((show W3 m ρ c (Proc.devRef .tc main_arg17) = W2 m ρ c (Proc.devRef .tc main_arg17) by host_keeps hostOps1).trans
    ((W2_of_ne m ρ c main_arg17 (by decide)).trans
    ((show W1 m ρ c (Proc.devRef .tc main_arg17) = W0 m ρ c (Proc.devRef .tc main_arg17) by host_keeps hostOps0)))))))).trans rfl

theorem W3_main_v12 : W3 (F := F) m ρ c (Proc.devRef .tc main_v12) = W1 (F := F) m ρ c (Proc.devRef .tc main_v12) :=
  (show W3 m ρ c (Proc.devRef .tc main_v12) = W2 m ρ c (Proc.devRef .tc main_v12) by host_keeps hostOps1).trans
    (((W2_arr m ρ c 2).trans (((dat0 (V1 m ρ) c).arrAt_in 2 rfl _).trans (A_eq0 (V1 m ρ) c 2))))

theorem W5_main_v12 : W5 (F := F) m ρ c (Proc.devRef .tc main_v12) = W1 (F := F) m ρ c (Proc.devRef .tc main_v12) :=
  (show W5 m ρ c (Proc.devRef .tc main_v12) = W4 m ρ c (Proc.devRef .tc main_v12) by host_keeps hostOps2).trans
    (((W4_arr m ρ c 6).trans (((dat1 (V3 m ρ) c).arrAt_in 6 rfl _).trans (A_eq1 (V3 m ρ) c 6))).trans
    ((show W3 m ρ c (Proc.devRef .tc main_v12) = W2 m ρ c (Proc.devRef .tc main_v12) by host_keeps hostOps1).trans
    (((W2_arr m ρ c 2).trans (((dat0 (V1 m ρ) c).arrAt_in 2 rfl _).trans (A_eq0 (V1 m ρ) c 2))))))

theorem W2_main_v5 : W2 (F := F) m ρ c (Proc.devRef .tc main_v5) = W1 (F := F) m ρ c (Proc.devRef .tc main_v5) :=
  (W2_of_ne m ρ c main_v5 (by decide))

theorem W2_main_v6 : W2 (F := F) m ρ c (Proc.devRef .tc main_v6) = W1 (F := F) m ρ c (Proc.devRef .tc main_v6) :=
  (W2_of_ne m ρ c main_v6 (by decide))

theorem W4_main_v5 : W4 (F := F) m ρ c (Proc.devRef .tc main_v5) = W1 (F := F) m ρ c (Proc.devRef .tc main_v5) :=
  (W4_of_ne m ρ c main_v5 (by decide)).trans
    ((show W3 m ρ c (Proc.devRef .tc main_v5) = W2 m ρ c (Proc.devRef .tc main_v5) by host_keeps hostOps1).trans
    ((W2_of_ne m ρ c main_v5 (by decide))))

theorem W4_main_v6 : W4 (F := F) m ρ c (Proc.devRef .tc main_v6) = W1 (F := F) m ρ c (Proc.devRef .tc main_v6) :=
  (W4_of_ne m ρ c main_v6 (by decide)).trans
    ((show W3 m ρ c (Proc.devRef .tc main_v6) = W2 m ρ c (Proc.devRef .tc main_v6) by host_keeps hostOps1).trans
    ((W2_of_ne m ρ c main_v6 (by decide))))

theorem W6_main_v1 : W6 (F := F) m ρ c (Proc.devRef .tc main_v1) = W1 (F := F) m ρ c (Proc.devRef .tc main_v1) :=
  (W6_of_ne m ρ c main_v1 (by decide)).trans
    ((show W5 m ρ c (Proc.devRef .tc main_v1) = W4 m ρ c (Proc.devRef .tc main_v1) by host_keeps hostOps2).trans
    ((W4_of_ne m ρ c main_v1 (by decide)).trans
    ((show W3 m ρ c (Proc.devRef .tc main_v1) = W2 m ρ c (Proc.devRef .tc main_v1) by host_keeps hostOps1).trans
    ((W2_of_ne m ρ c main_v1 (by decide))))))

theorem W6_main_v3 : W6 (F := F) m ρ c (Proc.devRef .tc main_v3) = W1 (F := F) m ρ c (Proc.devRef .tc main_v3) :=
  (W6_of_ne m ρ c main_v3 (by decide)).trans
    ((show W5 m ρ c (Proc.devRef .tc main_v3) = W4 m ρ c (Proc.devRef .tc main_v3) by host_keeps hostOps2).trans
    ((W4_of_ne m ρ c main_v3 (by decide)).trans
    ((show W3 m ρ c (Proc.devRef .tc main_v3) = W2 m ρ c (Proc.devRef .tc main_v3) by host_keeps hostOps1).trans
    ((W2_of_ne m ρ c main_v3 (by decide))))))

end Cert.KernelIdeal.Gen

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.Chain.lean ====
/-
  The kernel's host-side glue between its stages, as functions of whole arrays at the exact instance.

  * `col d`         : a per-node vector as a one-column matrix;
  * `gatherSum`     : one aggregation — gather the message rows `y[s e]`, scatter-add them onto the nodes `d e`;
  * `edgeInput`     : the predictor's hidden pre-activation per edge, `u[src e] + v[dst e] + bias`.
-/
import proofs.«136663_j34600256537208_2_alg».proof.Proof.Spec
import proofs.«136663_j34600256537208_2_alg».proof.Proof.LibScatterGather

noncomputable section

namespace Cert.Gcn

open Idealize.ShloMosaic Idealize.ShloMosaic.ValueIdx Cert.ScatterGather

/-- A per-node vector as a column. -/
def col (d : Arr1 50000) : Arr2 50000 1 := fun i => d (ix1 (i 0))

/-- One aggregation: message `e` carries row `Sg e` (clamped to a node) of `y` and lands on node `Ds e`. -/
def gatherSum {M : Nat}
    (wfG : GatherDims.WF ⟨2, ![50000, 128]⟩ ⟨2, ![M, 1]⟩ ⟨2, ![M, 128]⟩ [1] [0] [] [0] [] 1 ![1, 128])
    (wfS : ScatterDims.WF ⟨2, ![50000, 128]⟩ ⟨2, ![M, 1]⟩ ⟨2, ![M, 128]⟩ [1] [0] [0] 1)
    (Sg Ds : IVec ⟨2, ![M, 1]⟩ 32) (y : Arr2 50000 128) : Arr2 50000 128 :=
  Ideal.hostScatterAdd (rowsScatter 50000 M 128 wfS) (fun _ => 0) Ds (Host.gather (rowsDims 50000 M 128 wfG) y Sg)

/-- The predictor's hidden pre-activation at edge `e`, channel `k`. -/
def edgeInput {E : Nat}
    (wfE : GatherDims.WF ⟨2, ![50000, 128]⟩ ⟨2, ![E, 1]⟩ ⟨2, ![E, 128]⟩ [1] [0] [] [0] [] 1 ![1, 128])
    (srcg dstg : IVec ⟨2, ![E, 1]⟩ 32) (u v : Arr2 50000 128) (b : Arr1 128) : (⟨2, ![E, 128]⟩ : Shape).Idx → EReal :=
  fun j => (Host.gather (rowsDims 50000 E 128 wfE) u srcg j + Host.gather (rowsDims 50000 E 128 wfE) v dstg j) + b (ix1 (j 1))

end Cert.Gcn

end
-- ==== Proof.KernelValue.lean ====
/-
  The idealized kernel's result as one function of its arguments.

  Reading the boundaries' contents back segment by segment: the first stretch of host operations
  computes the message index arrays and the node factors from the edge list; each region leaves in its
  output array the stage's function of its inputs (the five stage equations, taken here as hypotheses);
  between the regions the host gathers the message rows and scatter-adds them onto the nodes; before
  the last region it gathers the two projections at the edge endpoints and adds the bias; after it, it
  drops the unit axis. The index arrays, node factors and constant arrays are the same host operations
  in both programs, so they are named by the reference's stage functions.
-/
import proofs.«136663_j34600256537208_2_alg».proof.Proof.Gen.KernelIdeal.Frame
import proofs.«136663_j34600256537208_2_alg».proof.Proof.Gen.ReferenceIdeal.Read
import proofs.«136663_j34600256537208_2_alg».proof.Proof.KernelKeep
import proofs.«136663_j34600256537208_2_alg».proof.Proof.Spec
import proofs.«136663_j34600256537208_2_alg».proof.Proof.Chain
import Idealize.ShloMosaic.Lib.StableHlo.Run

set_option maxRecDepth 65536

noncomputable section

namespace Cert.KernelIdeal.Gen

open Idealize.ShloMosaic Idealize.ShloMosaic.TcCoe Idealize.ShloMosaic.Tactic Idealize.ShloMosaic.StableHlo
open Idealize.SL.Sem
open Cert.ReferenceIdeal.Read Cert.Gcn

/-- What each region leaves in its output array, for any contents `V` at its entry. -/
structure Stages : Prop where
  one : ∀ (V : (c : Dev nD) → (b : Ref sig .tc) → Buf (Elt Ideal) ((c : Thread nD τ).loc b)) (c : Dev nD),
    (dat0 (F := Ideal) V c).arrAt 3 cfg0.N = linScale (V c main_arg0) (V c main_arg2) (V c main_v12)
  two : ∀ (V : (c : Dev nD) → (b : Ref sig .tc) → Buf (Elt Ideal) ((c : Thread nD τ).loc b)) (c : Dev nD),
    (dat1 (F := Ideal) V c).arrAt 8 cfg1.N = hiddenLinScale (V c main_v24) (V c main_arg3) (V c main_arg4) (V c main_arg5)
      (V c main_arg6) (V c main_arg7) (V c main_v12) (V c main_arg8)
  threeU : ∀ (V : (c : Dev nD) → (b : Ref sig .tc) → Buf (Elt Ideal) ((c : Thread nD τ).loc b)) (c : Dev nD),
    (dat2 (F := Ideal) V c).arrAt 9 cfg2.N = hiddenProj (V c main_v36) (V c main_arg9) (V c main_arg10) (V c main_arg11)
      (V c main_arg12) (V c main_arg13) (V c main_v12) (V c main_v37)
  threeV : ∀ (V : (c : Dev nD) → (b : Ref sig .tc) → Buf (Elt Ideal) ((c : Thread nD τ).loc b)) (c : Dev nD),
    (dat2 (F := Ideal) V c).arrAt 10 cfg2.N = hiddenProj (V c main_v36) (V c main_arg9) (V c main_arg10) (V c main_arg11)
      (V c main_arg12) (V c main_arg13) (V c main_v12) (V c main_v38)
  four : ∀ (V : (c : Dev nD) → (b : Ref sig .tc) → Buf (Elt Ideal) ((c : Thread nD τ).loc b)) (c : Dev nD),
    (dat3 (F := Ideal) V c).arrAt 3 cfg3.N = predict (V c main_v59) (V c main_arg16) (V c main_arg17)

variable (m : (ℓ : Loc nD τ sig) → Buf (Elt Ideal) ℓ) (ρ : Dev nD → PrngReg) (c : Dev nD)

/-! ## What the first stretch of host operations computes -/

/-- The node factors as a column. -/
theorem W1_v12 : W1 (F := Ideal) m ρ c (Proc.devRef .tc main_v12)
    = broadcastInDim S50000x1 ![0] bcast_S50000_S50000x1_0 (val_main_v12 (F := Ideal) (m ((c : Thread nD τ).loc main_arg1))) := by
  show StableHlo.after hostOps0 (W0 m ρ c) (Proc.devRef .tc main_v12) = _
  after_results
  rfl

/-- The messages' source nodes (the edges' sources, then every node once). -/
theorem W1_v5 : W1 (F := Ideal) m ρ c (Proc.devRef .tc main_v5) = val_main_v6 (F := Ideal) (m ((c : Thread nD τ).loc main_arg1)) := by
  show StableHlo.after hostOps0 (W0 m ρ c) (Proc.devRef .tc main_v5) = _
  after_results
  rfl

/-- The messages' destination nodes. -/
theorem W1_v6 : W1 (F := Ideal) m ρ c (Proc.devRef .tc main_v6) = val_main_v7 (F := Ideal) (m ((c : Thread nD τ).loc main_arg1)) := by
  show StableHlo.after hostOps0 (W0 m ρ c) (Proc.devRef .tc main_v6) = _
  after_results
  rfl

/-- The edges' sources. -/
theorem W1_v1 : W1 (F := Ideal) m ρ c (Proc.devRef .tc main_v1) = val_main_v1 (F := Ideal) (m ((c : Thread nD τ).loc main_arg1)) := by
  show StableHlo.after hostOps0 (W0 m ρ c) (Proc.devRef .tc main_v1) = _
  after_results
  rfl

/-- The edges' destinations. -/
theorem W1_v3 : W1 (F := Ideal) m ρ c (Proc.devRef .tc main_v3) = val_main_v3 (F := Ideal) (m ((c : Thread nD τ).loc main_arg1)) := by
  show StableHlo.after hostOps0 (W0 m ρ c) (Proc.devRef .tc main_v3) = _
  after_results
  rfl

/-- The node factors' column, named. -/
abbrev dcol : Arr2 50000 1 := broadcastInDim S50000x1 ![0] bcast_S50000_S50000x1_0 (val_main_v12 (F := Ideal) (m ((c : Thread nD τ).loc main_arg1)))

/-- One aggregation as the host runs it: gather the message rows of `y`, widen, scatter-add onto the nodes. -/
abbrev hostAgg (y : FVec Ideal S50000x128 .bf16) : FVec Ideal S50000x128 .f32 :=
  Host.scatterAdd (F := Ideal) scatter_S50000x128_S850000x1_S850000x128_1_0_0_1 (val_main_v38 (F := Ideal)) (val_main_v39 (F := Ideal) (m ((c : Thread nD τ).loc main_arg1)))
    (extf (F := Ideal) .f32 (Host.gather gather_S50000x128_S850000x1_S850000x128_1_0_n_n_0_1_1128 y (val_main_v18 (F := Ideal) (m ((c : Thread nD τ).loc main_arg1)))) bitsLt_bf16_f32)

/-! ## The first layer -/

theorem W2_v13 (hst : Stages) : W2 (F := Ideal) m ρ c (Proc.devRef .tc main_v13) = linScale (m ((c : Thread nD τ).loc main_arg0)) (m ((c : Thread nD τ).loc main_arg2)) (dcol m c) := by
  have h1 : W2 (F := Ideal) m ρ c (Proc.devRef .tc main_v13) = (dat0 (F := Ideal) (V1 m ρ) c).arrAt 3 cfg0.N := W2_arr m ρ c 3
  rw [h1, hst.one (V1 m ρ) c]
  show linScale (W1 m ρ c (Proc.devRef .tc main_arg0)) (W1 m ρ c (Proc.devRef .tc main_arg2)) (W1 m ρ c (Proc.devRef .tc main_v12)) = _
  rw [W1_main_arg0, W1_main_arg2, W1_v12]

set_option maxHeartbeats 4000000 in
theorem W3_v24 (hst : Stages) : W3 (F := Ideal) m ρ c (Proc.devRef .tc main_v24)
    = hostAgg m c (linScale (m ((c : Thread nD τ).loc main_arg0)) (m ((c : Thread nD τ).loc main_arg2)) (dcol m c)) := by
  show StableHlo.after hostOps1 (W2 m ρ c) (Proc.devRef .tc main_v24) = _
  after_results
  rw [W2_main_v5, W2_main_v6, W1_v5, W1_v6, W2_v13 m ρ c hst]
  rfl

/-! ## The second layer -/

theorem W4_v25 (hst : Stages) : W4 (F := Ideal) m ρ c (Proc.devRef .tc main_v25)
    = hiddenLinScale (hostAgg m c (linScale (m ((c : Thread nD τ).loc main_arg0)) (m ((c : Thread nD τ).loc main_arg2)) (dcol m c))) (m ((c : Thread nD τ).loc main_arg3)) (m ((c : Thread nD τ).loc main_arg4)) (m ((c : Thread nD τ).loc main_arg5)) (m ((c : Thread nD τ).loc main_arg6)) (m ((c : Thread nD τ).loc main_arg7)) (dcol m c) (m ((c : Thread nD τ).loc main_arg8)) := by
  have h1 : W4 (F := Ideal) m ρ c (Proc.devRef .tc main_v25) = (dat1 (F := Ideal) (V3 m ρ) c).arrAt 8 cfg1.N := W4_arr m ρ c 8
  rw [h1, hst.two (V3 m ρ) c]
  show hiddenLinScale (W3 m ρ c (Proc.devRef .tc main_v24)) (W3 m ρ c (Proc.devRef .tc main_arg3)) (W3 m ρ c (Proc.devRef .tc main_arg4))
    (W3 m ρ c (Proc.devRef .tc main_arg5)) (W3 m ρ c (Proc.devRef .tc main_arg6)) (W3 m ρ c (Proc.devRef .tc main_arg7))
    (W3 m ρ c (Proc.devRef .tc main_v12)) (W3 m ρ c (Proc.devRef .tc main_arg8)) = _
  rw [W3_v24 m ρ c hst, W3_main_arg3, W3_main_arg4, W3_main_arg5, W3_main_arg6, W3_main_arg7, W3_main_v12, W1_v12, W3_main_arg8]

set_option maxHeartbeats 4000000 in
theorem W5_v36 (hst : Stages) : W5 (F := Ideal) m ρ c (Proc.devRef .tc main_v36)
    = hostAgg m c (hiddenLinScale (hostAgg m c (linScale (m ((c : Thread nD τ).loc main_arg0)) (m ((c : Thread nD τ).loc main_arg2)) (dcol m c))) (m ((c : Thread nD τ).loc main_arg3)) (m ((c : Thread nD τ).loc main_arg4)) (m ((c : Thread nD τ).loc main_arg5)) (m ((c : Thread nD τ).loc main_arg6)) (m ((c : Thread nD τ).loc main_arg7)) (dcol m c) (m ((c : Thread nD τ).loc main_arg8))) := by
  show StableHlo.after hostOps2 (W4 m ρ c) (Proc.devRef .tc main_v36) = _
  after_results_simp
  rw [W4_main_v5, W4_main_v6, W1_v5, W1_v6, W4_v25 m ρ c hst]
  rfl

/-! ## The third stage: the two projections of the second layer's activations -/

/-- The second aggregation's result, named. -/
abbrev raw2 : FVec Ideal S50000x128 .f32 := hostAgg m c (hiddenLinScale (hostAgg m c (linScale (m ((c : Thread nD τ).loc main_arg0)) (m ((c : Thread nD τ).loc main_arg2)) (dcol m c))) (m ((c : Thread nD τ).loc main_arg3)) (m ((c : Thread nD τ).loc main_arg4)) (m ((c : Thread nD τ).loc main_arg5)) (m ((c : Thread nD τ).loc main_arg6)) (m ((c : Thread nD τ).loc main_arg7)) (dcol m c) (m ((c : Thread nD τ).loc main_arg8)))

/-- The top and bottom blocks of the predictor's first weight matrix, as the host slices them. -/
abbrev topW : FVec Ideal S128x128 .f32 := extractStridedSlice S128x128 ![0, 0] (m ((c : Thread nD τ).loc main_arg14)) slices_S256x128_S128x128_0_0
abbrev bottomW : FVec Ideal S128x128 .f32 := extractStridedSlice S128x128 ![128, 0] (m ((c : Thread nD τ).loc main_arg14)) slices_S256x128_S128x128_128_0

set_option maxHeartbeats 4000000 in
theorem W5_v37 : W5 (F := Ideal) m ρ c (Proc.devRef .tc main_v37) = topW m c := by
  show StableHlo.after hostOps2 (W4 m ρ c) (Proc.devRef .tc main_v37) = _
  after_results_simp
  rw [W4_main_arg14]

set_option maxHeartbeats 4000000 in
theorem W5_v38 : W5 (F := Ideal) m ρ c (Proc.devRef .tc main_v38) = bottomW m c := by
  show StableHlo.after hostOps2 (W4 m ρ c) (Proc.devRef .tc main_v38) = _
  after_results_simp
  rw [W4_main_arg14]

/-- The two projections. -/
abbrev projU : Arr2 50000 128 := hiddenProj (raw2 m c) (m ((c : Thread nD τ).loc main_arg9)) (m ((c : Thread nD τ).loc main_arg10)) (m ((c : Thread nD τ).loc main_arg11)) (m ((c : Thread nD τ).loc main_arg12)) (m ((c : Thread nD τ).loc main_arg13)) (dcol m c) (topW m c)
abbrev projV : Arr2 50000 128 := hiddenProj (raw2 m c) (m ((c : Thread nD τ).loc main_arg9)) (m ((c : Thread nD τ).loc main_arg10)) (m ((c : Thread nD τ).loc main_arg11)) (m ((c : Thread nD τ).loc main_arg12)) (m ((c : Thread nD τ).loc main_arg13)) (dcol m c) (bottomW m c)

theorem W6_u (hst : Stages) : W6 (F := Ideal) m ρ c (Proc.devRef .tc main_v39_0) = projU m c := by
  have h1 : W6 (F := Ideal) m ρ c (Proc.devRef .tc main_v39_0) = (dat2 (F := Ideal) (V5 m ρ) c).arrAt 9 cfg2.N := W6_arr m ρ c 9
  rw [h1, hst.threeU (V5 m ρ) c]
  show hiddenProj (W5 m ρ c (Proc.devRef .tc main_v36)) (W5 m ρ c (Proc.devRef .tc main_arg9)) (W5 m ρ c (Proc.devRef .tc main_arg10))
    (W5 m ρ c (Proc.devRef .tc main_arg11)) (W5 m ρ c (Proc.devRef .tc main_arg12)) (W5 m ρ c (Proc.devRef .tc main_arg13))
    (W5 m ρ c (Proc.devRef .tc main_v12)) (W5 m ρ c (Proc.devRef .tc main_v37)) = _
  rw [W5_v36 m ρ c hst, W5_main_arg9, W5_main_arg10, W5_main_arg11, W5_main_arg12, W5_main_arg13, W5_main_v12, W1_v12, W5_v37]

theorem W6_v (hst : Stages) : W6 (F := Ideal) m ρ c (Proc.devRef .tc main_v39_1) = projV m c := by
  have h1 : W6 (F := Ideal) m ρ c (Proc.devRef .tc main_v39_1) = (dat2 (F := Ideal) (V5 m ρ) c).arrAt 10 cfg2.N := W6_arr m ρ c 10
  rw [h1, hst.threeV (V5 m ρ) c]
  show hiddenProj (W5 m ρ c (Proc.devRef .tc main_v36)) (W5 m ρ c (Proc.devRef .tc main_arg9)) (W5 m ρ c (Proc.devRef .tc main_arg10))
    (W5 m ρ c (Proc.devRef .tc main_arg11)) (W5 m ρ c (Proc.devRef .tc main_arg12)) (W5 m ρ c (Proc.devRef .tc main_arg13))
    (W5 m ρ c (Proc.devRef .tc main_v12)) (W5 m ρ c (Proc.devRef .tc main_v38)) = _
  rw [W5_v36 m ρ c hst, W5_main_arg9, W5_main_arg10, W5_main_arg11, W5_main_arg12, W5_main_arg13, W5_main_v12, W1_v12, W5_v38]

/-! ## The predictor -/

/-- The predictor's hidden pre-activation as the host computes it: the two projections gathered at the
    edges' endpoints, widened and added, plus the bias row. -/
abbrev edgeIn : FVec Ideal S800000x128 .f32 :=
  addf (addf (extf (F := Ideal) .f32 (Host.gather gather_S50000x128_S800000x1_S800000x128_1_0_n_n_0_1_1128 (projU m c) (val_main_v117 (F := Ideal) (m ((c : Thread nD τ).loc main_arg1)))) bitsLt_bf16_f32)
      (extf (F := Ideal) .f32 (Host.gather gather_S50000x128_S800000x1_S800000x128_1_0_n_n_0_1_1128 (projV m c) (val_main_v124 (F := Ideal) (m ((c : Thread nD τ).loc main_arg1)))) bitsLt_bf16_f32))
    (val_main_v129 (F := Ideal) (m ((c : Thread nD τ).loc main_arg15)))

set_option maxHeartbeats 8000000 in
theorem W7_v59 (hst : Stages) : W7 (F := Ideal) m ρ c (Proc.devRef .tc main_v59) = edgeIn m c := by
  show StableHlo.after hostOps3 (W6 m ρ c) (Proc.devRef .tc main_v59) = _
  after_results_simp
  rw [W6_main_v1, W6_main_v3, W1_v1, W1_v3, W6_main_arg15, W6_u m ρ c hst, W6_v m ρ c hst]
  rfl

theorem W8_v60 (hst : Stages) : W8 (F := Ideal) m ρ c (Proc.devRef .tc main_v60)
    = predict (edgeIn m c) (m ((c : Thread nD τ).loc main_arg16)) (m ((c : Thread nD τ).loc main_arg17)) := by
  have h1 : W8 (F := Ideal) m ρ c (Proc.devRef .tc main_v60) = (dat3 (F := Ideal) (V7 m ρ) c).arrAt 3 cfg3.N := W8_arr m ρ c 3
  rw [h1, hst.four (V7 m ρ) c]
  show predict (W7 m ρ c (Proc.devRef .tc main_v59)) (W7 m ρ c (Proc.devRef .tc main_arg16)) (W7 m ρ c (Proc.devRef .tc main_arg17)) = _
  rw [W7_v59 m ρ c hst, W7_main_arg16, W7_main_arg17]

/-- THE KERNEL'S RESULT: the last stage's scores with the unit axis dropped. -/
theorem W9_v61 (hst : Stages) : W9 (F := Ideal) m ρ c (Proc.devRef .tc main_v61)
    = shapeCast _ (predict (edgeIn m c) (m ((c : Thread nD τ).loc main_arg16)) (m ((c : Thread nD τ).loc main_arg17))) shapeCasts_S800000x1_S800000 := by
  show StableHlo.after hostOps4 (W8 m ρ c) (Proc.devRef .tc main_v61) = _
  after_results
  rw [W8_v60 m ρ c hst]
  rfl

end Cert.KernelIdeal.Gen

end
-- ==== Proof.Aggregate.lean ====
/-
  One graph-convolution aggregation, two ways.

  Messages are indexed by e (the edges, then one self loop per node). Message e reads row s(e) of the
  projected features y and lands on node d(e). The textbook form weights message e by
  dinv(s e) · dinv(d e) and sums per node; the other form sums the source-weighted rows y(s e) · dinv(s e)
  per node and multiplies the node's sum by dinv(node) afterwards. A message lands on node n only if
  d(e) = n, so the second weight is the node's own, and a non-negative finite factor comes out of a sum
  of extended reals: the two forms agree at every node and channel.
-/
import proofs.«136663_j34600256537208_2_alg».proof.Proof.Spec
import proofs.«136663_j34600256537208_2_alg».proof.Proof.LibScatterGather

noncomputable section

namespace Cert.Gcn

open Idealize.ShloMosaic Idealize.ShloMosaic.ValueIdx Cert.ScatterGather

/-- The node row an index array names for message `e`: its entry read signed and clamped to a node. -/
abbrev rowOf {M : Nat} (I : IVec ⟨2, ![M, 1]⟩ 32) (e : Fin M) : Fin 50000 := clampRow 50000 (by decide) I e

section Aggregate
variable {M : Nat}
variable (wfS : ScatterDims.WF ⟨2, ![50000, 128]⟩ ⟨2, ![M, 1]⟩ ⟨2, ![M, 128]⟩ [1] [0] [0] 1)
variable (S' D' D : IVec ⟨2, ![M, 1]⟩ 32) (dinv : Arr1 50000)

/-- The two forms of the aggregation agree. `D` is the raw destination array the scatter reads, `D'` the
    one the gather reads (negative entries wrapped): they agree wherever `D` is not negative. The
    factor of a node some message lands on is a non-negative real. -/
theorem aggregate_scaled
    (hD : ∀ e : Fin M, 0 ≤ (D (ix2 e (0 : Fin 1))).toInt → D' (ix2 e (0 : Fin 1)) = D (ix2 e (0 : Fin 1)))
    (hd : ∀ (e : Fin M) (n : Fin 50000), (D (ix2 e (0 : Fin 1))).toInt = (n.val : Int) →
      0 ≤ dinv (ix1 n) ∧ dinv (ix1 n) ≠ ⊤)
    (y : Arr2 50000 128) (i : (⟨2, ![50000, 128]⟩ : Shape).Idx) :
    Ideal.hostScatterAdd (rowsScatter 50000 M 128 wfS) (fun _ => 0) D
        (fun j => (dinv (ix1 (rowOf S' (j 0))) * dinv (ix1 (rowOf D' (j 0)))) * y (ix2 (rowOf S' (j 0)) (j 1))) i
      = Ideal.hostScatterAdd (rowsScatter 50000 M 128 wfS) (fun _ => 0) D
        (fun j => y (ix2 (rowOf S' (j 0)) (j 1)) * dinv (ix1 (rowOf S' (j 0)))) i * dinv (ix1 (i 0)) := by
  refine hostScatterAdd_zero_mul (rowsScatter 50000 M 128 wfS) D _ _ (fun i => dinv (ix1 (i 0))) ?_ ?_ i
  · intro j i' hj
    exact hd (j 0) (i' 0) ((rowsScatter_resultIdx?_eq_some_iff wfS j D i').mp hj).1
  · intro j i' hj
    have hl := ((rowsScatter_resultIdx?_eq_some_iff wfS j D i').mp hj).1
    have hlt : (i' 0).val < 50000 := (i' 0).isLt
    have hrow : rowOf D' (j 0) = i' 0 := by
      have h0 : 0 ≤ (D (ix2 (j 0) (0 : Fin 1))).toInt := by rw [hl]; omega
      refine Fin.ext ?_
      show min (D' (ix2 (j 0) (0 : Fin 1))).toInt.toNat (50000 - 1) = (i' 0).val
      rw [hD (j 0) h0, hl]
      omega
    show _ = _ * dinv (ix1 (i' 0))
    rw [hrow, mul_comm (dinv _ * dinv _), mul_assoc]

end Aggregate

/-! ## A node's factor from its degree -/

/-- The binary32 word of 1.0 is the real 1. -/
theorem ofBits_one_f32 : Ideal.ofBits .f32 0x3F800000#32 = 1 := by
  simp [Ideal.ofBits, Ideal.ieee, -EReal.coe_mul]; norm_num

/-- A node's factor is the inverse square root of its degree, the number of messages that land on it
    (a scatter of ones into zeros). If some message lands on node `n` its degree is a positive count, so
    its factor is a non-negative real. -/
theorem degree_factor {M : Nat} (wfF : ScatterDims.WF ⟨1, ![50000]⟩ ⟨2, ![M, 1]⟩ ⟨1, ![M]⟩ [] [0] [0] 1)
    (D : IVec ⟨2, ![M, 1]⟩ 32) (e : Fin M) (n : Fin 50000) (h : (D (ix2 e (0 : Fin 1))).toInt = (n.val : Int)) :
    0 ≤ Ideal.rsqrt (Ideal.hostScatterAdd (flatScatter 50000 M wfF) (fun _ => Ideal.ofBits .f32 0x00000000#32) D
          (fun _ => Ideal.ofBits .f32 0x3F800000#32) (ix1 n)) ∧
    Ideal.rsqrt (Ideal.hostScatterAdd (flatScatter 50000 M wfF) (fun _ => Ideal.ofBits .f32 0x00000000#32) D
          (fun _ => Ideal.ofBits .f32 0x3F800000#32) (ix1 n)) ≠ ⊤ := by
  unfold Ideal.hostScatterAdd
  simp only [Ideal.ofBits_zero_f32, ofBits_one_f32]
  refine rsqrt_count _ ⟨ix1 e, Finset.mem_filter.mpr ⟨Finset.mem_univ _, ?_⟩⟩
  exact (flatScatter_resultIdx?_eq_some_iff wfF (ix1 e) D (ix1 n)).mpr h

end Cert.Gcn

end
-- ==== Proof.RefAggregate.lean ====
/-
  The reference's aggregations, read through the two-forms lemma.

  The reference weights message e by dinv(s e) · dinv(d e), multiplies the gathered row of the projected
  features, and scatter-adds onto the nodes. By `aggregate_scaled` that is the scatter-add of the
  source-weighted rows — the rows of `linScale` — times the node's own factor.
-/
import proofs.«136663_j34600256537208_2_alg».proof.Proof.Gen.ReferenceIdeal.Read
import proofs.«136663_j34600256537208_2_alg».proof.Proof.Spec
import proofs.«136663_j34600256537208_2_alg».proof.Proof.LibScatterGather
import proofs.«136663_j34600256537208_2_alg».proof.Proof.Aggregate
import proofs.«136663_j34600256537208_2_alg».proof.Proof.Chain

set_option maxRecDepth 16384

noncomputable section

namespace Cert.ReferenceIdeal.RefValue

open Idealize.ShloMosaic Idealize.ShloMosaic.ValueIdx Cert.ReferenceIdeal Cert.ReferenceIdeal.Gen Cert.ReferenceIdeal.Read
open Cert.Gcn Cert.ScatterGather

/-! ## The program's dimension records are the row and vector forms -/

abbrev wfG : GatherDims.WF ⟨2, ![50000, 128]⟩ ⟨2, ![850000, 1]⟩ ⟨2, ![850000, 128]⟩ [1] [0] [] [0] [] 1 ![1, 128] :=
  Facts₀.gather_S50000x128_S850000x1_S850000x128_1_0_n_n_0_1_1128_wf
abbrev wfGf : GatherDims.WF ⟨1, ![50000]⟩ ⟨2, ![850000, 1]⟩ ⟨1, ![850000]⟩ [] [0] [] [0] [] 1 ![1] :=
  Facts₀.gather_S50000_S850000x1_S850000_n_0_n_n_0_1_1_wf
abbrev wfS : ScatterDims.WF ⟨2, ![50000, 128]⟩ ⟨2, ![850000, 1]⟩ ⟨2, ![850000, 128]⟩ [1] [0] [0] 1 :=
  Facts₀.scatter_S50000x128_S850000x1_S850000x128_1_0_0_1_wf
abbrev wfSf : ScatterDims.WF ⟨1, ![50000]⟩ ⟨2, ![850000, 1]⟩ ⟨1, ![850000]⟩ [] [0] [0] 1 :=
  Facts₀.scatter_S50000_S850000x1_S850000_n_0_0_1_wf

theorem gatherRows_eq : gather_S50000x128_S850000x1_S850000x128_1_0_n_n_0_1_1128 = rowsDims 50000 850000 128 wfG := rfl
theorem gatherFlat_eq : gather_S50000_S850000x1_S850000_n_0_n_n_0_1_1 = flatDims 50000 850000 wfGf := rfl
theorem scatterRows_eq : scatter_S50000x128_S850000x1_S850000x128_1_0_0_1 = rowsScatter 50000 850000 128 wfS := rfl
theorem scatterFlat_eq : scatter_S50000_S850000x1_S850000_n_0_0_1 = flatScatter 50000 850000 wfSf := rfl

/-! ## The index arrays and the node factors -/

/-- A wrapped index that is not negative is itself. -/
theorem wrap_of_nonneg (x : BitVec 32) (h : 0 ≤ x.toInt) :
    Scalar.select (IntOp.cmpi .slt x 0#32) (IntOp.addi x 50000#32) x = x := by
  have hc : IntOp.cmpi .slt x 0#32 = 0#1 := by
    show BitVec.ofBool (x.slt 0#32) = 0#1
    have : x.slt 0#32 = false := by
      rw [BitVec.slt]; simp only [BitVec.toInt_zero, decide_eq_false_iff_not, not_lt]; exact h
    rw [this]; rfl
  rw [hc]; exact select_zero _ _

/-- The gather's destination index agrees with the scatter's wherever the scatter's is not negative. -/
theorem dst_gather_eq_scatter (x1 : IVec S2x800000 32) (e : Fin 850000)
    (h : 0 ≤ (val_main_v39 (F := Ideal) x1 (ix2 e (0 : Fin 1))).toInt) :
    val_main_v25 (F := Ideal) x1 (ix2 e (0 : Fin 1)) = val_main_v39 (F := Ideal) x1 (ix2 e (0 : Fin 1)) := by
  have e25 : idx_main_v25 (ix2 e (0 : Fin 1)) = ix1 e := by funext a; match a with | ⟨0, _⟩ => rfl
  have e39 : idx_main_v39 (ix2 e (0 : Fin 1)) = ix1 e := by funext a; match a with | ⟨0, _⟩ => rfl
  rw [val_main_v39_apply, e39] at h
  rw [val_main_v25_apply, val_main_v39_apply, e25, e39, val_main_v24_apply, val_main_v21_apply, val_main_v23_apply]
  exact wrap_of_nonneg _ h

/-- The host's accumulating scatter is the exact sum, over any shapes. -/
theorem host_scatterAdd_eq' {s si su : Shape} (d : ScatterDims s si su) {w : Nat} (x : s.Idx → EReal) (idx : IVec si w)
    (u : su.Idx → EReal) : Host.scatterAdd (F := Ideal) (φ := .f32) d x idx u = Ideal.hostScatterAdd d x idx u := rfl

/-- The two scatters read the same destination array. -/
theorem v39_eq_v10 (x1 : IVec S2x800000 32) : val_main_v39 (F := Ideal) x1 = val_main_v10 (F := Ideal) x1 := rfl

/-- A node's factor: the inverse square root of the count of messages landing on it. -/
theorem dinv_apply (x1 : IVec S2x800000 32) (n : Fin 50000) :
    val_main_v12 (F := Ideal) x1 (ix1 n) = Ideal.rsqrt (Ideal.hostScatterAdd (flatScatter 50000 850000 wfSf)
      (fun _ => Ideal.ofBits .f32 0x00000000#32) (val_main_v10 (F := Ideal) x1) (fun _ => Ideal.ofBits .f32 0x3F800000#32) (ix1 n)) := by
  have h9 : val_main_v9 (F := Ideal) = fun _ => Ideal.ofBits .f32 0x00000000#32 := by
    funext k; rw [val_main_v9_apply]; rfl
  have h8 : val_main_v8 (F := Ideal) = fun _ => Ideal.ofBits .f32 0x3F800000#32 := by
    funext k; rw [val_main_v8_apply]; rfl
  rw [val_main_v12_apply]
  unfold val_main_v11
  rw [h9, h8, scatterFlat_eq, Ideal.hostUnary_rsqrt_def, host_scatterAdd_eq']

/-- The node factor is a non-negative real wherever some message lands. -/
theorem dinv_ok (x1 : IVec S2x800000 32) (e : Fin 850000) (n : Fin 50000)
    (h : (val_main_v39 (F := Ideal) x1 (ix2 e (0 : Fin 1))).toInt = (n.val : Int)) :
    0 ≤ val_main_v12 (F := Ideal) x1 (ix1 n) ∧ val_main_v12 (F := Ideal) x1 (ix1 n) ≠ ⊤ := by
  rw [v39_eq_v10] at h
  rw [dinv_apply]
  exact degree_factor wfSf (val_main_v10 (F := Ideal) x1) e n h

/-! ## The first aggregation -/

/-- The reference's projected features at `(r, c)`. -/
theorem proj1_apply (x0 : Arr2 50000 128) (x2 : Arr2 128 128) (r : Fin 50000) (c : Fin 128) :
    val_main_v4 (F := Ideal) x0 x2 (ix2 r c) = ∑ k : Fin 128, x0 (ix2 r k) * x2 (ix2 k c) := by
  rw [val_main_v4_apply]
  refine Finset.sum_congr rfl fun k _ => ?_
  have el : lidx_main_v4 (ix2 r c) k = ix2 r k := by funext a; match a with | ⟨0, _⟩ => rfl | ⟨1, _⟩ => rfl
  have er : ridx_main_v4 (ix2 r c) k = ix2 k c := by funext a; match a with | ⟨0, _⟩ => rfl | ⟨1, _⟩ => rfl
  rw [el, er]

/-- The reference's weighted message at `(e, c)`. -/
theorem message1_apply (x0 : Arr2 50000 128) (x1 : IVec S2x800000 32) (x2 : Arr2 128 128) (e : Fin 850000) (c : Fin 128) :
    val_main_v37 (F := Ideal) x0 x1 x2 (ix2 e c)
      = (val_main_v12 (F := Ideal) x1 (ix1 (rowOf (val_main_v18 (F := Ideal) x1) e))
          * val_main_v12 (F := Ideal) x1 (ix1 (rowOf (val_main_v25 (F := Ideal) x1) e)))
        * val_main_v4 (F := Ideal) x0 x2 (ix2 (rowOf (val_main_v18 (F := Ideal) x1) e) c) := by
  have e36 : idx_main_v28 (idx_main_v36 (ix2 e c)) = ix1 e := by funext a; match a with | ⟨0, _⟩ => rfl
  rw [val_main_v37_apply, val_main_v36_apply, val_main_v28_apply, e36, val_main_v27_apply]
  have g19 : val_main_v19 (F := Ideal) x1 (ix1 e)
      = val_main_v12 (F := Ideal) x1 (ix1 (rowOf (val_main_v18 (F := Ideal) x1) e)) := by
    unfold val_main_v19; rw [gatherFlat_eq]; exact gather_flat_apply (by decide) wfGf _ _ _
  have g26 : val_main_v26 (F := Ideal) x1 (ix1 e)
      = val_main_v12 (F := Ideal) x1 (ix1 (rowOf (val_main_v25 (F := Ideal) x1) e)) := by
    unfold val_main_v26; rw [gatherFlat_eq]; exact gather_flat_apply (by decide) wfGf _ _ _
  have g35 : val_main_v35 (F := Ideal) x0 x1 x2 (ix2 e c)
      = val_main_v4 (F := Ideal) x0 x2 (ix2 (rowOf (val_main_v18 (F := Ideal) x1) e) c) := by
    unfold val_main_v35; rw [gatherRows_eq]; exact gather_rows_apply (by decide) wfG _ _ _
  rw [g19, g26, g35]
  rfl

/-- The source-weighted message the other form gathers, at `(e, c)`. -/
theorem scaledRow1_apply (x0 : Arr2 50000 128) (x1 : IVec S2x800000 32) (x2 : Arr2 128 128) (e : Fin 850000) (c : Fin 128) :
    Host.gather (rowsDims 50000 850000 128 wfG) (linScale x0 x2 (col (val_main_v12 (F := Ideal) x1))) (val_main_v18 (F := Ideal) x1) (ix2 e c)
      = val_main_v4 (F := Ideal) x0 x2 (ix2 (rowOf (val_main_v18 (F := Ideal) x1) e) c)
          * val_main_v12 (F := Ideal) x1 (ix1 (rowOf (val_main_v18 (F := Ideal) x1) e)) := by
  rw [gather_rows_apply (by decide) wfG, proj1_apply]
  rfl

/-- THE FIRST AGGREGATION: the reference's is the source-weighted one times the node's factor. -/
theorem aggregate1 (x0 : Arr2 50000 128) (x1 : IVec S2x800000 32) (x2 : Arr2 128 128) (i : (⟨2, ![50000, 128]⟩ : Shape).Idx) :
    val_main_v40 (F := Ideal) x0 x1 x2 i
      = gatherSum wfG wfS (val_main_v18 (F := Ideal) x1) (val_main_v39 (F := Ideal) x1)
          (linScale x0 x2 (col (val_main_v12 (F := Ideal) x1))) i * val_main_v12 (F := Ideal) x1 (ix1 (i 0)) := by
  have hz : val_main_v38 (F := Ideal) = fun _ => (0 : EReal) := by
    funext k; rw [val_main_v38_apply]; exact Ideal.ofBits_zero_f32
  have hupd : val_main_v37 (F := Ideal) x0 x1 x2 = fun j =>
      (val_main_v12 (F := Ideal) x1 (ix1 (rowOf (val_main_v18 (F := Ideal) x1) (j 0)))
          * val_main_v12 (F := Ideal) x1 (ix1 (rowOf (val_main_v25 (F := Ideal) x1) (j 0))))
        * val_main_v4 (F := Ideal) x0 x2 (ix2 (rowOf (val_main_v18 (F := Ideal) x1) (j 0)) (j 1)) := by
    funext j
    obtain ⟨e, c, rfl⟩ : ∃ (e : Fin 850000) (c : Fin 128), j = ix2 e c := ⟨j 0, j 1, eq_ix2 j⟩
    exact message1_apply x0 x1 x2 e c
  have hk : Host.gather (rowsDims 50000 850000 128 wfG) (linScale x0 x2 (col (val_main_v12 (F := Ideal) x1))) (val_main_v18 (F := Ideal) x1)
      = fun j => val_main_v4 (F := Ideal) x0 x2 (ix2 (rowOf (val_main_v18 (F := Ideal) x1) (j 0)) (j 1))
          * val_main_v12 (F := Ideal) x1 (ix1 (rowOf (val_main_v18 (F := Ideal) x1) (j 0))) := by
    funext j
    obtain ⟨e, c, rfl⟩ : ∃ (e : Fin 850000) (c : Fin 128), j = ix2 e c := ⟨j 0, j 1, eq_ix2 j⟩
    exact scaledRow1_apply x0 x1 x2 e c
  unfold val_main_v40 gatherSum
  rw [host_scatterAdd_eq', hz, hupd, hk, scatterRows_eq]
  exact aggregate_scaled wfS (val_main_v18 (F := Ideal) x1) (val_main_v25 (F := Ideal) x1) (val_main_v39 (F := Ideal) x1)
    (val_main_v12 (F := Ideal) x1) (fun e h => dst_gather_eq_scatter x1 e h) (fun e n h => dinv_ok x1 e n h)
    (val_main_v4 (F := Ideal) x0 x2) i

end Cert.ReferenceIdeal.RefValue

end
-- ==== Proof.BridgeGlue.lean ====
/-
  The kernel's host glue in the neutral forms the reference side is read in.

  * the node factors' column is `col` of the factor vector;
  * the host's aggregation (a row scatter-add of widened gathered rows into zeros) is `gatherSum`;
  * the two slices of the predictor's first weight matrix are its top and bottom blocks;
  * the predictor's hidden pre-activation is `edgeInput`.
  A widening of format is the identity at the exact instance, and the constant zero array is the zero function.
-/
import proofs.«136663_j34600256537208_2_alg».proof.Proof.KernelValue
import proofs.«136663_j34600256537208_2_alg».proof.Proof.RefAggregate
import proofs.«136663_j34600256537208_2_alg».proof.Proof.LibScatterGather
import proofs.«136663_j34600256537208_2_alg».proof.Proof.Chain

set_option maxRecDepth 65536

noncomputable section

namespace Cert.KernelIdeal.Gen

open Idealize.ShloMosaic Idealize.ShloMosaic.TcCoe Idealize.ShloMosaic.ValueIdx
open Idealize.SL.Sem
open Cert.ReferenceIdeal.Read Cert.Gcn Cert.ScatterGather
open Cert.ReferenceIdeal.RefValue (wfG wfS)

/-- A widening of format is the identity on arrays of extended reals. -/
theorem extf_id {s : Shape} (x : s.Idx → EReal) (h : FTy.bf16.bits < FTy.f32.bits) :
    (extf (F := Ideal) (φ := .bf16) .f32 x h : s.Idx → EReal) = x := rfl

/-- The host's accumulating scatter is the exact sum, over any shapes. -/
theorem host_scatterAdd_eq {s si su : Shape} (d : ScatterDims s si su) {w : Nat} (x : s.Idx → EReal) (idx : IVec si w)
    (u : su.Idx → EReal) : Host.scatterAdd (F := Ideal) (φ := .f32) d x idx u = Ideal.hostScatterAdd d x idx u := rfl

theorem gatherRowsK_eq : Cert.KernelIdeal.gather_S50000x128_S850000x1_S850000x128_1_0_n_n_0_1_1128 = rowsDims 50000 850000 128 wfG := rfl
theorem scatterRowsK_eq : Cert.KernelIdeal.scatter_S50000x128_S850000x1_S850000x128_1_0_0_1 = rowsScatter 50000 850000 128 wfS := rfl

variable (m : (ℓ : Loc nD τ sig) → Buf (Elt Ideal) ℓ) (c : Dev nD)

/-- The factor column. -/
theorem dcol_eq : dcol m c = col (val_main_v12 (F := Ideal) (m ((c : Thread nD τ).loc main_arg1))) := by
  funext i
  exact broadcastInDim_apply _ bcast_S50000_S50000x1_0 _ i (ix1 (i 0)) (fun a => match a with
    | ⟨0, _⟩ => by show (i 0).val = if (50000 : Nat) = 1 then 0 else (i 0).val; rw [if_neg (by decide)])

/-- The zero array the scatters accumulate into. -/
theorem zeros_eq : val_main_v38 (F := Ideal) = fun _ => (0 : EReal) := by
  funext k; rw [val_main_v38_apply]; exact Ideal.ofBits_zero_f32

/-- The host's aggregation is `gatherSum`. -/
theorem hostAgg_eq (y : Arr2 50000 128) :
    hostAgg m c y = gatherSum wfG wfS (val_main_v18 (F := Ideal) (m ((c : Thread nD τ).loc main_arg1))) (val_main_v39 (F := Ideal) (m ((c : Thread nD τ).loc main_arg1))) y := by
  unfold hostAgg gatherSum
  rw [host_scatterAdd_eq, extf_id, gatherRowsK_eq, scatterRowsK_eq, zeros_eq]

end Cert.KernelIdeal.Gen

end
-- ==== Proof.RefHidden.lean ====
/-
  The reference's two activations, read at an index.

  After an aggregation `a` the reference adds the bias, applies the evaluated batch norm
  `(· - mu) · (g · rsqrt (var + eps)) + be` channel by channel, and a relu. Both layers have this form;
  `bnRelu a b g be mu var` names it, and the kernel's `hidden raw d …` is `bnRelu` of `raw i · d i`.
-/
import proofs.«136663_j34600256537208_2_alg».proof.Proof.Gen.ReferenceIdeal.Read
import proofs.«136663_j34600256537208_2_alg».proof.Proof.Spec

set_option maxRecDepth 16384

noncomputable section

namespace Cert.Gcn

open Idealize.ShloMosaic Idealize.ShloMosaic.ValueIdx

/-- Bias, evaluated batch norm and relu of an aggregated array, at `(i, j)`. -/
def bnRelu (a : Arr2 50000 128) (b g be mu var : Arr1 128) : Arr2 50000 128 :=
  fun i => max (((a i + b (ix1 (i 1))) - mu (ix1 (i 1)))
      * (g (ix1 (i 1)) * Ideal.rsqrt (var (ix1 (i 1)) + epsBN)) + be (ix1 (i 1))) zeroF

theorem hidden_eq_bnRelu (raw : Arr2 50000 128) (d : Arr2 50000 1) (b g be mu var : Arr1 128) :
    hidden raw d b g be mu var = bnRelu (fun i => raw i * d (ix2 (i 0) 0)) b g be mu var := rfl

end Cert.Gcn

namespace Cert.ReferenceIdeal.RefValue

open Idealize.ShloMosaic Idealize.ShloMosaic.ValueIdx Cert.ReferenceIdeal Cert.ReferenceIdeal.Read Cert.Gcn

/-- The first layer's activations are `bnRelu` of its aggregation. -/
theorem hidden1_eq (x0 : Arr2 50000 128) (x1 : IVec S2x800000 32) (x2 : Arr2 128 128) (x3 x4 x5 x6 x7 : Arr1 128) :
    val_main_v57 (F := Ideal) x0 x1 x2 x3 x4 x5 x6 x7 = bnRelu (val_main_v40 (F := Ideal) x0 x1 x2) x3 x4 x5 x6 x7 := by
  funext i
  have e1 : idx_main_v41 (idx_main_v42 i) = ix1 (i 1) := by funext a; match a with | ⟨0, _⟩ => rfl
  have e2 : idx_main_v44 (idx_main_v45 i) = ix1 (i 1) := by funext a; match a with | ⟨0, _⟩ => rfl
  have e3 : idx_main_v51 (idx_main_v52 i) = ix1 (i 1) := by funext a; match a with | ⟨0, _⟩ => rfl
  have e4 : idx_main_v54 (idx_main_v55 i) = ix1 (i 1) := by funext a; match a with | ⟨0, _⟩ => rfl
  rw [val_main_v57_apply, val_main_v56_apply, val_main_v53_apply, val_main_v46_apply, val_main_v43_apply,
    val_main_v42_apply, val_main_v41_apply, val_main_v45_apply, val_main_v44_apply, val_main_v52_apply,
    val_main_v51_apply, val_main_v50_apply, val_main_v49_apply, val_main_v48_apply, val_main_v55_apply,
    val_main_v54_apply, e1, e2, e3, e4]
  rfl

/-- The second layer's activations are `bnRelu` of its aggregation. -/
theorem hidden2_eq (x0 : Arr2 50000 128) (x1 : IVec S2x800000 32) (x2 : Arr2 128 128) (x3 x4 x5 x6 x7 : Arr1 128)
    (x8 : Arr2 128 128) (x9 x10 x11 x12 x13 : Arr1 128) :
    val_main_v111 (F := Ideal) x0 x1 x2 x3 x4 x5 x6 x7 x8 x9 x10 x11 x12 x13
      = bnRelu (val_main_v94 (F := Ideal) x0 x1 x2 x3 x4 x5 x6 x7 x8) x9 x10 x11 x12 x13 := by
  funext i
  have e1 : idx_main_v95 (idx_main_v96 i) = ix1 (i 1) := by funext a; match a with | ⟨0, _⟩ => rfl
  have e2 : idx_main_v98 (idx_main_v99 i) = ix1 (i 1) := by funext a; match a with | ⟨0, _⟩ => rfl
  have e3 : idx_main_v105 (idx_main_v106 i) = ix1 (i 1) := by funext a; match a with | ⟨0, _⟩ => rfl
  have e4 : idx_main_v108 (idx_main_v109 i) = ix1 (i 1) := by funext a; match a with | ⟨0, _⟩ => rfl
  rw [val_main_v111_apply, val_main_v110_apply, val_main_v107_apply, val_main_v100_apply, val_main_v97_apply,
    val_main_v96_apply, val_main_v95_apply, val_main_v99_apply, val_main_v98_apply, val_main_v106_apply,
    val_main_v105_apply, val_main_v104_apply, val_main_v103_apply, val_main_v102_apply, val_main_v109_apply,
    val_main_v108_apply, e1, e2, e3, e4]
  rfl

end Cert.ReferenceIdeal.RefValue

end
-- ==== Proof.RefAggregateTwo.lean ====
/-
  The reference's second aggregation, read through the two-forms lemma.

  The second layer builds its index arrays and node factors again from the same edge list, by the
  same operations: they are the first layer's. Its projected features are the first layer's
  activations times the second weight matrix. It weights message e by dinv(s e) · dinv(d e),
  multiplies the gathered row of the projected features, and scatter-adds onto the nodes; by
  `aggregate_scaled` that is the scatter-add of the gathered rows of `linScale` — each row of the
  projected features already scaled by its own node's factor — times the receiving node's factor.
  The step from the weighted form to the scaled one is stated once for ANY projected features.
-/
import proofs.«136663_j34600256537208_2_alg».proof.Proof.RefAggregate

set_option maxRecDepth 16384

noncomputable section

namespace Cert.ReferenceIdeal.RefValue

open Idealize.ShloMosaic Idealize.ShloMosaic.ValueIdx Cert.ReferenceIdeal Cert.ReferenceIdeal.Gen Cert.ReferenceIdeal.Read
open Cert.Gcn Cert.ScatterGather

/-! ## The second layer's index arrays and node factors are the first layer's

The second layer builds its message sources, its two destination arrays and the node factors again,
by the same operations on the same edge list, under new names. -/

/-- The sources the factor gather reads. -/
theorem src2_eq (x1 : IVec S2x800000 32) : val_main_v72 (F := Ideal) x1 = val_main_v18 (F := Ideal) x1 := rfl
/-- The destinations the factor gather reads. -/
theorem dst2_eq (x1 : IVec S2x800000 32) : val_main_v79 (F := Ideal) x1 = val_main_v25 (F := Ideal) x1 := rfl
/-- The sources the row gather reads. -/
theorem rows2_eq (x1 : IVec S2x800000 32) : val_main_v88 (F := Ideal) x1 = val_main_v18 (F := Ideal) x1 := rfl
/-- The destinations the scatter reads. -/
theorem land2_eq (x1 : IVec S2x800000 32) : val_main_v93 (F := Ideal) x1 = val_main_v39 (F := Ideal) x1 := rfl
/-- The node factors. -/
theorem dinv2_eq (x1 : IVec S2x800000 32) : val_main_v66 (F := Ideal) x1 = val_main_v12 (F := Ideal) x1 := rfl

/-! ## One aggregation, for any projected features -/

/-- For any projected features `y`, and `z` their rows each scaled by its node's factor: the
    scatter-add of the messages weighted by both ends' factors is the scatter-add of the gathered
    rows of `z`, times the receiving node's factor. -/
theorem aggregate_any (x1 : IVec S2x800000 32) (y z : Arr2 50000 128)
    (hz : ∀ (r : Fin 50000) (c : Fin 128), z (ix2 r c) = y (ix2 r c) * val_main_v12 (F := Ideal) x1 (ix1 r))
    (i : (⟨2, ![50000, 128]⟩ : Shape).Idx) :
    Ideal.hostScatterAdd (rowsScatter 50000 850000 128 wfS) (fun _ => (0 : EReal)) (val_main_v39 (F := Ideal) x1)
        (fun j => (val_main_v12 (F := Ideal) x1 (ix1 (rowOf (val_main_v18 (F := Ideal) x1) (j 0)))
            * val_main_v12 (F := Ideal) x1 (ix1 (rowOf (val_main_v25 (F := Ideal) x1) (j 0))))
          * y (ix2 (rowOf (val_main_v18 (F := Ideal) x1) (j 0)) (j 1))) i
      = gatherSum wfG wfS (val_main_v18 (F := Ideal) x1) (val_main_v39 (F := Ideal) x1) z i
          * val_main_v12 (F := Ideal) x1 (ix1 (i 0)) := by
  have hk : Host.gather (rowsDims 50000 850000 128 wfG) z (val_main_v18 (F := Ideal) x1)
      = fun j => y (ix2 (rowOf (val_main_v18 (F := Ideal) x1) (j 0)) (j 1))
          * val_main_v12 (F := Ideal) x1 (ix1 (rowOf (val_main_v18 (F := Ideal) x1) (j 0))) := by
    funext j
    exact (gather_rows_apply (by decide) wfG z (val_main_v18 (F := Ideal) x1) j).trans (hz _ _)
  unfold gatherSum
  rw [hk]
  exact aggregate_scaled wfS (val_main_v18 (F := Ideal) x1) (val_main_v25 (F := Ideal) x1) (val_main_v39 (F := Ideal) x1)
    (val_main_v12 (F := Ideal) x1) (fun e h => dst_gather_eq_scatter x1 e h) (fun e n h => dinv_ok x1 e n h) y i

/-! ## The second aggregation -/

/-- The second layer's weighted message at `(e, c)`, in the first layer's names. -/
theorem message2_apply (x0 : Arr2 50000 128) (x1 : IVec S2x800000 32) (x2 : Arr2 128 128) (x3 x4 x5 x6 x7 : Arr1 128)
    (x8 : Arr2 128 128) (e : Fin 850000) (c : Fin 128) :
    val_main_v91 (F := Ideal) x0 x1 x2 x3 x4 x5 x6 x7 x8 (ix2 e c)
      = (val_main_v12 (F := Ideal) x1 (ix1 (rowOf (val_main_v18 (F := Ideal) x1) e))
          * val_main_v12 (F := Ideal) x1 (ix1 (rowOf (val_main_v25 (F := Ideal) x1) e)))
        * val_main_v58 (F := Ideal) x0 x1 x2 x3 x4 x5 x6 x7 x8 (ix2 (rowOf (val_main_v18 (F := Ideal) x1) e) c) := by
  have e90 : idx_main_v82 (idx_main_v90 (ix2 e c)) = ix1 e := by funext a; match a with | ⟨0, _⟩ => rfl
  rw [val_main_v91_apply, val_main_v90_apply, val_main_v82_apply, e90, val_main_v81_apply]
  have g73 : val_main_v73 (F := Ideal) x1 (ix1 e)
      = val_main_v12 (F := Ideal) x1 (ix1 (rowOf (val_main_v18 (F := Ideal) x1) e)) := by
    unfold val_main_v73; rw [gatherFlat_eq, dinv2_eq, src2_eq]; exact gather_flat_apply (by decide) wfGf _ _ _
  have g80 : val_main_v80 (F := Ideal) x1 (ix1 e)
      = val_main_v12 (F := Ideal) x1 (ix1 (rowOf (val_main_v25 (F := Ideal) x1) e)) := by
    unfold val_main_v80; rw [gatherFlat_eq, dinv2_eq, dst2_eq]; exact gather_flat_apply (by decide) wfGf _ _ _
  have g89 : val_main_v89 (F := Ideal) x0 x1 x2 x3 x4 x5 x6 x7 x8 (ix2 e c)
      = val_main_v58 (F := Ideal) x0 x1 x2 x3 x4 x5 x6 x7 x8 (ix2 (rowOf (val_main_v18 (F := Ideal) x1) e) c) := by
    unfold val_main_v89; rw [gatherRows_eq, rows2_eq]; exact gather_rows_apply (by decide) wfG _ _ _
  rw [g73, g80, g89]
  rfl

/-- The second layer's projected features, each row scaled by its node's factor, are the rows of `linScale`. -/
theorem linScale2_apply (x0 : Arr2 50000 128) (x1 : IVec S2x800000 32) (x2 : Arr2 128 128) (x3 x4 x5 x6 x7 : Arr1 128)
    (x8 : Arr2 128 128) (r : Fin 50000) (c : Fin 128) :
    linScale (val_main_v57 (F := Ideal) x0 x1 x2 x3 x4 x5 x6 x7) x8 (col (val_main_v12 (F := Ideal) x1)) (ix2 r c)
      = val_main_v58 (F := Ideal) x0 x1 x2 x3 x4 x5 x6 x7 x8 (ix2 r c) * val_main_v12 (F := Ideal) x1 (ix1 r) := by
  have el : ∀ k : Fin 128, lidx_main_v58 (ix2 r c) k = ix2 r k := fun k => by
    funext a; match a with | ⟨0, _⟩ => rfl | ⟨1, _⟩ => rfl
  have er : ∀ k : Fin 128, ridx_main_v58 (ix2 r c) k = ix2 k c := fun k => by
    funext a; match a with | ⟨0, _⟩ => rfl | ⟨1, _⟩ => rfl
  rw [val_main_v58_apply]
  simp only [el, er]
  rfl

/-- THE SECOND AGGREGATION: the reference's is the source-weighted one times the node's factor. -/
theorem aggregate2 (x0 : Arr2 50000 128) (x1 : IVec S2x800000 32) (x2 : Arr2 128 128) (x3 x4 x5 x6 x7 : Arr1 128)
    (x8 : Arr2 128 128) (i : (⟨2, ![50000, 128]⟩ : Shape).Idx) :
    val_main_v94 (F := Ideal) x0 x1 x2 x3 x4 x5 x6 x7 x8 i
      = gatherSum wfG wfS (val_main_v18 (F := Ideal) x1) (val_main_v39 (F := Ideal) x1)
          (linScale (val_main_v57 (F := Ideal) x0 x1 x2 x3 x4 x5 x6 x7) x8 (col (val_main_v12 (F := Ideal) x1))) i
        * val_main_v12 (F := Ideal) x1 (ix1 (i 0)) := by
  have hzero : val_main_v92 (F := Ideal) = fun _ => (0 : EReal) := by
    funext k; rw [val_main_v92_apply]; exact Ideal.ofBits_zero_f32
  have hupd : val_main_v91 (F := Ideal) x0 x1 x2 x3 x4 x5 x6 x7 x8 = fun j =>
      (val_main_v12 (F := Ideal) x1 (ix1 (rowOf (val_main_v18 (F := Ideal) x1) (j 0)))
          * val_main_v12 (F := Ideal) x1 (ix1 (rowOf (val_main_v25 (F := Ideal) x1) (j 0))))
        * val_main_v58 (F := Ideal) x0 x1 x2 x3 x4 x5 x6 x7 x8 (ix2 (rowOf (val_main_v18 (F := Ideal) x1) (j 0)) (j 1)) := by
    funext j
    obtain ⟨e, c, rfl⟩ : ∃ (e : Fin 850000) (c : Fin 128), j = ix2 e c := ⟨j 0, j 1, eq_ix2 j⟩
    exact message2_apply x0 x1 x2 x3 x4 x5 x6 x7 x8 e c
  unfold val_main_v94
  rw [host_scatterAdd_eq', hzero, hupd, land2_eq, scatterRows_eq]
  exact aggregate_any x1 (val_main_v58 (F := Ideal) x0 x1 x2 x3 x4 x5 x6 x7 x8) _
    (fun r c => linScale2_apply x0 x1 x2 x3 x4 x5 x6 x7 x8 r c) i

end Cert.ReferenceIdeal.RefValue

end
-- ==== Proof.EdgeSplit.lean ====
/-
  The edge predictor's first linear layer, split by halves.

  The textbook form concatenates the two endpoint rows of an edge into one row of 256 channels and
  multiplies by a 256 × 128 weight matrix. A sum over 256 channels is the sum over the first 128 plus the
  sum over the last 128, and each half of the concatenated row is one endpoint's row: so the product is
  the first endpoint's row times the top weight block plus the second endpoint's row times the bottom one.
  No finiteness is needed: only associativity and commutativity of addition on the extended reals.
-/
import proofs.«136663_j34600256537208_2_alg».proof.Proof.Spec
import Idealize.ShloMosaic.Lib.Pipeline.Value

noncomputable section

namespace Cert.Gcn

open Idealize.ShloMosaic Idealize.ShloMosaic.ValueIdx

/-- Entry `(e, q)` of two `[800000, 128]` arrays joined along the channel axis. -/
theorem concat_channels_left (a b : Arr2 800000 128)
    (hcat : Shape.Concatenates [(⟨2, ![800000, 128]⟩ : Shape), ⟨2, ![800000, 128]⟩] ⟨2, ![800000, 256]⟩ 1)
    (e : Fin 800000) (k : Fin 128) :
    concatenate (⟨2, ![800000, 256]⟩ : Shape) 1 [⟨⟨2, ![800000, 128]⟩, a⟩, ⟨⟨2, ![800000, 128]⟩, b⟩] hcat
      (ix2 e (Fin.castAdd 128 k)) = a (ix2 e k) := by
  refine concatenate_pair_apply_left (t := ⟨2, ![800000, 256]⟩) (1 : Fin 2) a b hcat _ rfl (ix2 e k) ?_
  intro d
  match d with
  | ⟨0, _⟩ => rfl
  | ⟨1, _⟩ => rfl

theorem concat_channels_right (a b : Arr2 800000 128)
    (hcat : Shape.Concatenates [(⟨2, ![800000, 128]⟩ : Shape), ⟨2, ![800000, 128]⟩] ⟨2, ![800000, 256]⟩ 1)
    (e : Fin 800000) (k : Fin 128) :
    concatenate (⟨2, ![800000, 256]⟩ : Shape) 1 [⟨⟨2, ![800000, 128]⟩, a⟩, ⟨⟨2, ![800000, 128]⟩, b⟩] hcat
      (ix2 e (Fin.natAdd 128 k)) = b (ix2 e k) := by
  refine concatenate_pair_apply_right (t := ⟨2, ![800000, 256]⟩) (1 : Fin 2) a b hcat _ rfl rfl (ix2 e k) ?_ ?_
  · intro d hd
    match d with
    | ⟨0, _⟩ => rfl
    | ⟨1, _⟩ => exact absurd rfl hd
  · show k.val + 128 = 128 + k.val
    omega

/-- The product with the stacked weights is the sum of the two halves' products. -/
theorem concat_dot_split (a b : Arr2 800000 128) (W : Arr2 256 128)
    (hcat : Shape.Concatenates [(⟨2, ![800000, 128]⟩ : Shape), ⟨2, ![800000, 128]⟩] ⟨2, ![800000, 256]⟩ 1)
    (e : Fin 800000) (l : Fin 128) :
    ∑ q : Fin (128 + 128),
        concatenate (⟨2, ![800000, 256]⟩ : Shape) 1 [⟨⟨2, ![800000, 128]⟩, a⟩, ⟨⟨2, ![800000, 128]⟩, b⟩] hcat (ix2 e q)
          * W (ix2 q l)
      = (∑ k : Fin 128, a (ix2 e k) * W (ix2 (Fin.castAdd 128 k) l))
        + ∑ k : Fin 128, b (ix2 e k) * W (ix2 (Fin.natAdd 128 k) l) := by
  rw [Fin.sum_univ_add]
  refine congrArg₂ (· + ·) (Finset.sum_congr rfl fun k _ => ?_) (Finset.sum_congr rfl fun k _ => ?_)
  · rw [concat_channels_left]
  · rw [concat_channels_right]

end Cert.Gcn

end
-- ==== Proof.RefEdgeInput.lean ====
/-
  The reference's edge predictor, first layer, read at an index.

  For edge e the reference gathers the two endpoint rows of the second layer's activations, joins
  them into one row of 256 channels, multiplies by the 256 × 128 weights and adds the bias. A sum
  over 256 channels is the sum over the first 128 plus the sum over the last 128, and each half of
  the joined row is one endpoint's row; so channel k of the result is the source row times the top
  128 × 128 block of the weights, plus the destination row times the bottom block, plus the bias:
  the rows (source e) and (destination e) of the activations projected through the two blocks.
-/
import proofs.«136663_j34600256537208_2_alg».proof.Proof.Gen.ReferenceIdeal.Read
import proofs.«136663_j34600256537208_2_alg».proof.Proof.Spec
import proofs.«136663_j34600256537208_2_alg».proof.Proof.LibScatterGather
import proofs.«136663_j34600256537208_2_alg».proof.Proof.Chain
import proofs.«136663_j34600256537208_2_alg».proof.Proof.EdgeSplit

set_option maxRecDepth 16384

noncomputable section

namespace Cert.ReferenceIdeal.RefValue

open Idealize.ShloMosaic Idealize.ShloMosaic.ValueIdx Cert.ReferenceIdeal Cert.ReferenceIdeal.Gen Cert.ReferenceIdeal.Read
open Cert.Gcn Cert.ScatterGather

/-- The top 128 rows of the stacked weights: what multiplies the source endpoint's row. -/
def topBlock (w : Arr2 256 128) : Arr2 128 128 := fun i => w (ix2 (Fin.castAdd 128 (i 0)) (i 1))
/-- The bottom 128 rows of the stacked weights: what multiplies the destination endpoint's row. -/
def bottomBlock (w : Arr2 256 128) : Arr2 128 128 := fun i => w (ix2 (Fin.natAdd 128 (i 0)) (i 1))

abbrev wfE : GatherDims.WF ⟨2, ![50000, 128]⟩ ⟨2, ![800000, 1]⟩ ⟨2, ![800000, 128]⟩ [1] [0] [] [0] [] 1 ![1, 128] :=
  Facts₀.gather_S50000x128_S800000x1_S800000x128_1_0_n_n_0_1_1128_wf

/-- The program's edge gather is the gather of whole rows. -/
theorem gatherEdge_eq : gather_S50000x128_S800000x1_S800000x128_1_0_n_n_0_1_1128 = rowsDims 50000 800000 128 wfE := rfl

/-- The node an index array names for edge `e`: its entry read signed and clamped to a node. -/
abbrev nodeOf (I : IVec ⟨2, ![800000, 1]⟩ 32) (e : Fin 800000) : Fin 50000 := clampRow 50000 (by decide) I e

/-- The gathered source rows at `(e, k)`: the activations' row (source e). -/
theorem srcRows_apply (x0 : Arr2 50000 128) (x1 : IVec S2x800000 32) (x2 : Arr2 128 128) (x3 x4 x5 x6 x7 : Arr1 128)
    (x8 : Arr2 128 128) (x9 x10 x11 x12 x13 : Arr1 128) (e : Fin 800000) (k : Fin 128) :
    val_main_v118 (F := Ideal) x0 x1 x2 x3 x4 x5 x6 x7 x8 x9 x10 x11 x12 x13 (ix2 e k)
      = val_main_v111 (F := Ideal) x0 x1 x2 x3 x4 x5 x6 x7 x8 x9 x10 x11 x12 x13 (ix2 (nodeOf (val_main_v117 (F := Ideal) x1) e) k) := by
  unfold val_main_v118
  rw [gatherEdge_eq]
  exact gather_rows_apply (by decide) wfE _ _ _

/-- The gathered destination rows at `(e, k)`: the activations' row (destination e). -/
theorem dstRows_apply (x0 : Arr2 50000 128) (x1 : IVec S2x800000 32) (x2 : Arr2 128 128) (x3 x4 x5 x6 x7 : Arr1 128)
    (x8 : Arr2 128 128) (x9 x10 x11 x12 x13 : Arr1 128) (e : Fin 800000) (k : Fin 128) :
    val_main_v125 (F := Ideal) x0 x1 x2 x3 x4 x5 x6 x7 x8 x9 x10 x11 x12 x13 (ix2 e k)
      = val_main_v111 (F := Ideal) x0 x1 x2 x3 x4 x5 x6 x7 x8 x9 x10 x11 x12 x13 (ix2 (nodeOf (val_main_v124 (F := Ideal) x1) e) k) := by
  unfold val_main_v125
  rw [gatherEdge_eq]
  exact gather_rows_apply (by decide) wfE _ _ _

/-- The joined rows times the stacked weights at `(e, k)`: the source row through the top block plus
    the destination row through the bottom block. -/
theorem pairDot_apply (x0 : Arr2 50000 128) (x1 : IVec S2x800000 32) (x2 : Arr2 128 128) (x3 x4 x5 x6 x7 : Arr1 128)
    (x8 : Arr2 128 128) (x9 x10 x11 x12 x13 : Arr1 128) (x14 : Arr2 256 128) (e : Fin 800000) (k : Fin 128) :
    val_main_v127 (F := Ideal) x0 x1 x2 x3 x4 x5 x6 x7 x8 x9 x10 x11 x12 x13 x14 (ix2 e k)
      = (∑ c : Fin 128, val_main_v111 (F := Ideal) x0 x1 x2 x3 x4 x5 x6 x7 x8 x9 x10 x11 x12 x13 (ix2 (nodeOf (val_main_v117 (F := Ideal) x1) e) c)
            * x14 (ix2 (Fin.castAdd 128 c) k))
        + ∑ c : Fin 128, val_main_v111 (F := Ideal) x0 x1 x2 x3 x4 x5 x6 x7 x8 x9 x10 x11 x12 x13 (ix2 (nodeOf (val_main_v124 (F := Ideal) x1) e) c)
            * x14 (ix2 (Fin.natAdd 128 c) k) := by
  rw [val_main_v127_apply]
  have el : ∀ q : Fin 256, lidx_main_v127 (ix2 e k) q = ix2 e q := fun q => by
    funext a; match a with | ⟨0, _⟩ => rfl | ⟨1, _⟩ => rfl
  have er : ∀ q : Fin 256, ridx_main_v127 (ix2 e k) q = ix2 q k := fun q => by
    funext a; match a with | ⟨0, _⟩ => rfl | ⟨1, _⟩ => rfl
  simp only [el, er]
  unfold val_main_v126
  refine (concat_dot_split (val_main_v118 (F := Ideal) x0 x1 x2 x3 x4 x5 x6 x7 x8 x9 x10 x11 x12 x13) (val_main_v125 (F := Ideal) x0 x1 x2 x3 x4 x5 x6 x7 x8 x9 x10 x11 x12 x13) x14
    concatenates_S800000x128_S800000x128_S800000x256_d1 e k).trans ?_
  simp only [srcRows_apply, dstRows_apply]

/-- THE FIRST LAYER OF THE EDGE PREDICTOR at `(e, k)`: the two endpoint rows of the activations, each
    projected through its block of the weights, added, plus the bias. -/
theorem edgeInput_apply (x0 : Arr2 50000 128) (x1 : IVec S2x800000 32) (x2 : Arr2 128 128) (x3 x4 x5 x6 x7 : Arr1 128)
    (x8 : Arr2 128 128) (x9 x10 x11 x12 x13 : Arr1 128) (x14 : Arr2 256 128) (x15 : Arr1 128) (e : Fin 800000) (k : Fin 128) :
    val_main_v130 (F := Ideal) x0 x1 x2 x3 x4 x5 x6 x7 x8 x9 x10 x11 x12 x13 x14 x15 (ix2 e k)
      = edgeInput wfE (val_main_v117 (F := Ideal) x1) (val_main_v124 (F := Ideal) x1)
          (proj (val_main_v111 (F := Ideal) x0 x1 x2 x3 x4 x5 x6 x7 x8 x9 x10 x11 x12 x13) (topBlock x14))
          (proj (val_main_v111 (F := Ideal) x0 x1 x2 x3 x4 x5 x6 x7 x8 x9 x10 x11 x12 x13) (bottomBlock x14)) x15 (ix2 e k) := by
  have e1 : idx_main_v128 (idx_main_v129 (ix2 e k)) = ix1 k := by funext a; match a with | ⟨0, _⟩ => rfl
  rw [val_main_v130_apply, pairDot_apply, val_main_v129_apply, val_main_v128_apply, e1]
  unfold edgeInput
  rw [gather_rows_apply (by decide) wfE, gather_rows_apply (by decide) wfE]
  rfl

/-- The same, as one array. -/
theorem edgeInput_eq (x0 : Arr2 50000 128) (x1 : IVec S2x800000 32) (x2 : Arr2 128 128) (x3 x4 x5 x6 x7 : Arr1 128)
    (x8 : Arr2 128 128) (x9 x10 x11 x12 x13 : Arr1 128) (x14 : Arr2 256 128) (x15 : Arr1 128) :
    val_main_v130 (F := Ideal) x0 x1 x2 x3 x4 x5 x6 x7 x8 x9 x10 x11 x12 x13 x14 x15
      = edgeInput wfE (val_main_v117 (F := Ideal) x1) (val_main_v124 (F := Ideal) x1)
          (proj (val_main_v111 (F := Ideal) x0 x1 x2 x3 x4 x5 x6 x7 x8 x9 x10 x11 x12 x13) (topBlock x14))
          (proj (val_main_v111 (F := Ideal) x0 x1 x2 x3 x4 x5 x6 x7 x8 x9 x10 x11 x12 x13) (bottomBlock x14)) x15 := by
  funext j
  obtain ⟨e, k, rfl⟩ : ∃ (e : Fin 800000) (k : Fin 128), j = ix2 e k := ⟨j 0, j 1, eq_ix2 j⟩
  exact edgeInput_apply x0 x1 x2 x3 x4 x5 x6 x7 x8 x9 x10 x11 x12 x13 x14 x15 e k

end Cert.ReferenceIdeal.RefValue

end
-- ==== Proof.RefEdgeScore.lean ====
/-
  The reference's edge predictor, second layer, read at an index.

  From the first layer's output z the reference takes the relu, the product with the 128 × 1
  weights, adds the bias, and applies 1 / (1 + exp (-·)), which is the logistic. So the score of edge
  e is `predict z w b` at e.
-/
import proofs.«136663_j34600256537208_2_alg».proof.Proof.Gen.ReferenceIdeal.Read
import proofs.«136663_j34600256537208_2_alg».proof.Proof.Spec
import proofs.«136663_j34600256537208_2_alg».proof.Proof.Aggregate

set_option maxRecDepth 16384

noncomputable section

namespace Cert.ReferenceIdeal.RefValue

open Idealize.ShloMosaic Idealize.ShloMosaic.ValueIdx Cert.ReferenceIdeal Cert.ReferenceIdeal.Gen Cert.ReferenceIdeal.Read
open Cert.Gcn

/-- One over one plus the exponential of the negation, as the reference spells it with the binary32 word
    of 1.0, is the logistic. -/
theorem logistic_spelt (S : EReal) :
    FloatOps.hostDivf (F := Ideal) (φ := .f32) (FloatOps.ofBits .f32 0x3F800000#32)
        (FloatOps.addf (FloatOps.ofBits .f32 0x3F800000#32) (FloatOps.hostUnary .exp (FloatOps.hostNegf S)))
      = Ideal.logistic S := by
  show Ideal.div (Ideal.ofBits .f32 0x3F800000#32) (Ideal.ofBits .f32 0x3F800000#32 + Ideal.exp (-S)) = _
  rw [ofBits_one_f32]
  rfl

/-- `predict` at edge `e`. -/
theorem predict_apply (z : Arr2 800000 128) (w : Arr2 128 1) (b : Arr1 1) (e : Fin 800000) (u : Fin 1) :
    predict z w b (ix2 e u)
      = Ideal.logistic ((∑ k : Fin 128, max (z (ix2 e k)) zeroF * w (ix2 k u)) + b (ix1 (0 : Fin 1))) := rfl

/-- The score of edge `e`: the logistic of relu(z e) · w + b, z the first layer's output. -/
theorem score_apply (x0 : Arr2 50000 128) (x1 : IVec S2x800000 32) (x2 : Arr2 128 128) (x3 x4 x5 x6 x7 : Arr1 128)
    (x8 : Arr2 128 128) (x9 x10 x11 x12 x13 : Arr1 128) (x14 : Arr2 256 128) (x15 : Arr1 128) (x16 : Arr2 128 1) (x17 : Arr1 1)
    (e : Fin 800000) (u : Fin 1) :
    val_main_v141 (F := Ideal) x0 x1 x2 x3 x4 x5 x6 x7 x8 x9 x10 x11 x12 x13 x14 x15 x16 x17 (ix2 e u)
      = predict (val_main_v130 (F := Ideal) x0 x1 x2 x3 x4 x5 x6 x7 x8 x9 x10 x11 x12 x13 x14 x15) x16 x17 (ix2 e u) := by
  have e17 : idx_main_v133 (idx_main_v134 (ix2 e u)) = ix1 (0 : Fin 1) := by funext a; match a with | ⟨0, _⟩ => rfl
  have el : ∀ k : Fin 128, lidx_main_v132 (ix2 e u) k = ix2 e k := fun k => by
    funext a; match a with | ⟨0, _⟩ => rfl | ⟨1, _⟩ => rfl
  have er : ∀ k : Fin 128, ridx_main_v132 (ix2 e u) k = ix2 k u := fun k => by
    funext a; match a with | ⟨0, _⟩ => rfl | ⟨1, _⟩ => rfl
  rw [val_main_v141_apply, val_main_v140_apply, val_main_cst_23_apply, val_main_v139_apply, val_main_v138_apply,
    val_main_cst_22_apply, val_main_v137_apply, val_main_v136_apply, val_main_v135_apply, val_main_v132_apply,
    val_main_v134_apply, val_main_v133_apply, e17]
  refine (logistic_spelt _).trans ?_
  rw [predict_apply]
  refine congrArg Ideal.logistic (congrArg (· + x17 (ix1 (0 : Fin 1))) (Finset.sum_congr rfl fun k _ => ?_))
  rw [el k, er k, val_main_v131_apply, val_main_call2_v0_apply, val_main_call2_cst_apply]
  rfl

/-- The same, as one array. -/
theorem score_eq (x0 : Arr2 50000 128) (x1 : IVec S2x800000 32) (x2 : Arr2 128 128) (x3 x4 x5 x6 x7 : Arr1 128)
    (x8 : Arr2 128 128) (x9 x10 x11 x12 x13 : Arr1 128) (x14 : Arr2 256 128) (x15 : Arr1 128) (x16 : Arr2 128 1) (x17 : Arr1 1) :
    val_main_v141 (F := Ideal) x0 x1 x2 x3 x4 x5 x6 x7 x8 x9 x10 x11 x12 x13 x14 x15 x16 x17
      = predict (val_main_v130 (F := Ideal) x0 x1 x2 x3 x4 x5 x6 x7 x8 x9 x10 x11 x12 x13 x14 x15) x16 x17 := by
  funext j
  obtain ⟨e, u, rfl⟩ : ∃ (e : Fin 800000) (u : Fin 1), j = ix2 e u := ⟨j 0, j 1, eq_ix2 j⟩
  exact score_apply x0 x1 x2 x3 x4 x5 x6 x7 x8 x9 x10 x11 x12 x13 x14 x15 x16 x17 e u

end Cert.ReferenceIdeal.RefValue

end
-- ==== Proof.RefEdge.lean ====
/-
  The reference's edge predictor as one function of its arguments: the score array is `predict` of
  the first layer's output, and that output is the two endpoint rows of the second layer's
  activations projected through the top and bottom blocks of the weights, plus the bias.
-/
import proofs.«136663_j34600256537208_2_alg».proof.Proof.RefEdgeInput
import proofs.«136663_j34600256537208_2_alg».proof.Proof.RefEdgeScore

set_option maxRecDepth 16384

noncomputable section

namespace Cert.ReferenceIdeal.RefValue

open Idealize.ShloMosaic Idealize.ShloMosaic.ValueIdx Cert.ReferenceIdeal Cert.ReferenceIdeal.Gen Cert.ReferenceIdeal.Read
open Cert.Gcn Cert.ScatterGather

/-- THE EDGE SCORES: `predict` of the per-edge sums of the projected endpoint rows. -/
theorem edge_score (x0 : Arr2 50000 128) (x1 : IVec S2x800000 32) (x2 : Arr2 128 128) (x3 x4 x5 x6 x7 : Arr1 128)
    (x8 : Arr2 128 128) (x9 x10 x11 x12 x13 : Arr1 128) (x14 : Arr2 256 128) (x15 : Arr1 128) (x16 : Arr2 128 1) (x17 : Arr1 1) :
    val_main_v141 (F := Ideal) x0 x1 x2 x3 x4 x5 x6 x7 x8 x9 x10 x11 x12 x13 x14 x15 x16 x17
      = predict (edgeInput wfE (val_main_v117 (F := Ideal) x1) (val_main_v124 (F := Ideal) x1)
          (proj (val_main_v111 (F := Ideal) x0 x1 x2 x3 x4 x5 x6 x7 x8 x9 x10 x11 x12 x13) (topBlock x14))
          (proj (val_main_v111 (F := Ideal) x0 x1 x2 x3 x4 x5 x6 x7 x8 x9 x10 x11 x12 x13) (bottomBlock x14)) x15) x16 x17 := by
  rw [score_eq, edgeInput_eq]

end Cert.ReferenceIdeal.RefValue

end
-- ==== Proof.Bridge.lean ====
/-
  The idealized kernel and the idealized reference compute the same scores.

  Layer by layer: with the node factors as a column, the host's aggregation of the source-scaled
  projection times the node's own factor is the reference's aggregation (the two-forms lemma), so the
  activations the kernel's second and third stages form inside their bodies are the reference's; the
  two projections of the last activations against the top and bottom weight blocks, gathered at the
  edges' endpoints and added, are the reference's product of the concatenated endpoint rows with the
  whole weight matrix (a sum over 256 channels split in two); the last stage and the reference end with
  the same relu, product, bias and logistic.
-/
import proofs.«136663_j34600256537208_2_alg».proof.Proof.BridgeGlue
import proofs.«136663_j34600256537208_2_alg».proof.Proof.RefHidden
import proofs.«136663_j34600256537208_2_alg».proof.Proof.RefAggregate
import proofs.«136663_j34600256537208_2_alg».proof.Proof.RefAggregateTwo
import proofs.«136663_j34600256537208_2_alg».proof.Proof.RefEdge

set_option maxRecDepth 65536

noncomputable section

namespace Cert.KernelIdeal.Gen

open Idealize.ShloMosaic Idealize.ShloMosaic.TcCoe Idealize.ShloMosaic.ValueIdx
open Idealize.SL.Sem
open Cert.ReferenceIdeal.Read Cert.Gcn Cert.ScatterGather
open Cert.ReferenceIdeal.RefValue

variable (m : (ℓ : Loc nD τ sig) → Buf (Elt Ideal) ℓ) (ρ : Dev nD → PrngReg) (c : Dev nD)

/-- The first layer's activations, as the kernel's second stage forms them, are the reference's. -/
theorem hidden1_bridge :
    hidden (hostAgg m c (linScale (m ((c : Thread nD τ).loc main_arg0)) (m ((c : Thread nD τ).loc main_arg2)) (dcol m c))) (dcol m c) (m ((c : Thread nD τ).loc main_arg3)) (m ((c : Thread nD τ).loc main_arg4)) (m ((c : Thread nD τ).loc main_arg5)) (m ((c : Thread nD τ).loc main_arg6)) (m ((c : Thread nD τ).loc main_arg7))
      = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [hidden_eq_bnRelu, hidden1_eq]
  refine congrArg (fun a => bnRelu a (m ((c : Thread nD τ).loc main_arg3)) (m ((c : Thread nD τ).loc main_arg4)) (m ((c : Thread nD τ).loc main_arg5)) (m ((c : Thread nD τ).loc main_arg6)) (m ((c : Thread nD τ).loc main_arg7))) ?_
  funext i
  rw [hostAgg_eq, dcol_eq, aggregate1]
  rfl

/-- The second layer's activations, as the kernel's third stage forms them, are the reference's. -/
theorem hidden2_bridge :
    hidden (raw2 m c) (dcol m c) (m ((c : Thread nD τ).loc main_arg9)) (m ((c : Thread nD τ).loc main_arg10)) (m ((c : Thread nD τ).loc main_arg11)) (m ((c : Thread nD τ).loc main_arg12)) (m ((c : Thread nD τ).loc main_arg13)) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have hx : (hiddenLinScale (hostAgg m c (linScale (m ((c : Thread nD τ).loc main_arg0)) (m ((c : Thread nD τ).loc main_arg2)) (dcol m c))) (m ((c : Thread nD τ).loc main_arg3)) (m ((c : Thread nD τ).loc main_arg4)) (m ((c : Thread nD τ).loc main_arg5)) (m ((c : Thread nD τ).loc main_arg6)) (m ((c : Thread nD τ).loc main_arg7)) (dcol m c) (m ((c : Thread nD τ).loc main_arg8)))
      = linScale (val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (dcol m c) := by
    unfold hiddenLinScale
    rw [hidden1_bridge]
  rw [hidden_eq_bnRelu, hidden2_eq]
  refine congrArg (fun a => bnRelu a (m ((c : Thread nD τ).loc main_arg9)) (m ((c : Thread nD τ).loc main_arg10)) (m ((c : Thread nD τ).loc main_arg11)) (m ((c : Thread nD τ).loc main_arg12)) (m ((c : Thread nD τ).loc main_arg13))) ?_
  funext i
  unfold raw2
  rw [hx, hostAgg_eq, dcol_eq, aggregate2]
  rfl

/-- The host's two slices of the predictor's first weight matrix are its top and bottom blocks. -/
theorem topW_eq : topW m c = topBlock (m ((c : Thread nD τ).loc main_arg14)) := by
  funext i
  exact extractStridedSlice_apply ![0, 0] _ slices_S256x128_S128x128_0_0 i (ix2 (Fin.castAdd 128 (i 0)) (i 1)) (fun a => match a with
    | ⟨0, _⟩ => by show (i 0).val = 0 + (i 0).val; omega
    | ⟨1, _⟩ => by show (i 1).val = 0 + (i 1).val; omega)

theorem bottomW_eq : bottomW m c = bottomBlock (m ((c : Thread nD τ).loc main_arg14)) := by
  funext i
  exact extractStridedSlice_apply ![128, 0] _ slices_S256x128_S128x128_128_0 i (ix2 (Fin.natAdd 128 (i 0)) (i 1)) (fun a => match a with
    | ⟨0, _⟩ => by show 128 + (i 0).val = 128 + (i 0).val; rfl
    | ⟨1, _⟩ => by show (i 1).val = 0 + (i 1).val; omega)

theorem projU_eq : projU m c = proj (val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (topBlock (m ((c : Thread nD τ).loc main_arg14))) := by
  unfold projU hiddenProj
  rw [hidden2_bridge, topW_eq]

theorem projV_eq : projV m c = proj (val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (bottomBlock (m ((c : Thread nD τ).loc main_arg14))) := by
  unfold projV hiddenProj
  rw [hidden2_bridge, bottomW_eq]

theorem gatherEdgeK_eq : Cert.KernelIdeal.gather_S50000x128_S800000x1_S800000x128_1_0_n_n_0_1_1128 = rowsDims 50000 800000 128 wfE := rfl

/-- The bias row, broadcast over the edges, at `(e, k)`. -/
theorem biasRow_apply (b : Arr1 128) (j : (⟨2, ![800000, 128]⟩ : Shape).Idx) : val_main_v129 (F := Ideal) b j = b (ix1 (j 1)) := by
  have e1 : idx_main_v128 (idx_main_v129 j) = ix1 (j 1) := by funext a; match a with | ⟨0, _⟩ => rfl
  rw [val_main_v129_apply, val_main_v128_apply, e1]
  rfl

/-- The predictor's hidden pre-activation, as the host computes it, is `edgeInput`. -/
theorem edgeIn_eq : edgeIn m c = edgeInput wfE (val_main_v117 (F := Ideal) (m ((c : Thread nD τ).loc main_arg1))) (val_main_v124 (F := Ideal) (m ((c : Thread nD τ).loc main_arg1)))
    (proj (val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (topBlock (m ((c : Thread nD τ).loc main_arg14))))
    (proj (val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (bottomBlock (m ((c : Thread nD τ).loc main_arg14)))) (m ((c : Thread nD τ).loc main_arg15)) := by
  unfold edgeIn edgeInput
  rw [extf_id, extf_id, gatherEdgeK_eq, projU_eq, projV_eq]
  funext j
  rw [addf_apply, addf_apply, biasRow_apply]

/-- THE TWO PROGRAMS' RESULTS AGREE, given what each region leaves in its output array. -/
theorem kernel_eq_reference (hst : Stages) :
    W9 (F := Ideal) m ρ c (Proc.devRef .tc main_v61) = val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  rw [W9_v61 m ρ c hst, edgeIn_eq]
  unfold val_main_v142
  rw [edge_score]

end Cert.KernelIdeal.Gen

end
-- ==== Proof.lean ====
/-
  The certificate of the graph-network edge scorer: two graph-convolution layers (symmetric
  normalisation with self loops, evaluated batch norm, relu) and an edge predictor (a two-layer perceptron
  on the concatenated endpoint activations, then a logistic), as four kernel stages with host gathers and
  scatter-adds between them, against the plain array program.

  The frames are the generated ones; the kernel's idealization rewrote nothing, so `preserves` is trivial.
  At the exact instance the two programs agree because
  * the kernel splits the edge weight dinv(src) · dinv(dst): it scales a node's projected features by the
    node's own factor before the aggregation and the aggregated sum by the node's own factor after it; a
    message lands on node n only if its destination is n, and a non-negative finite factor comes out of a
    sum of extended reals (a node some message lands on has a positive count as its degree);
  * the product of the concatenated endpoint rows with the 256-row weight matrix is the sum of the two
    endpoints' products with its top and bottom blocks;
  * every other operation is the same on both sides, a change of float format being the identity.
-/
import proofs.«136663_j34600256537208_2_alg».proof.Defs
import proofs.«136663_j34600256537208_2_alg».proof.Proof.Gen.Kernel
import proofs.«136663_j34600256537208_2_alg».proof.Proof.Gen.Kernel.Skeleton
import proofs.«136663_j34600256537208_2_alg».proof.Proof.Gen.Kernel.Launch
import proofs.«136663_j34600256537208_2_alg».proof.Proof.Gen.Kernel.Points
import proofs.«136663_j34600256537208_2_alg».proof.Proof.Gen.Kernel.Frame
import proofs.«136663_j34600256537208_2_alg».proof.Proof.Gen.KernelIdeal
import proofs.«136663_j34600256537208_2_alg».proof.Proof.Gen.KernelIdeal.Skeleton
import proofs.«136663_j34600256537208_2_alg».proof.Proof.Gen.KernelIdeal.Launch
import proofs.«136663_j34600256537208_2_alg».proof.Proof.Gen.KernelIdeal.Points
import proofs.«136663_j34600256537208_2_alg».proof.Proof.Gen.KernelIdeal.Frame
import proofs.«136663_j34600256537208_2_alg».proof.Proof.Gen.ReferenceIdeal
import proofs.«136663_j34600256537208_2_alg».proof.Proof.Gen.Pre_finite_inputs
import proofs.«136663_j34600256537208_2_alg».proof.Proof.Gen.ReferenceIdeal.Run
import proofs.«136663_j34600256537208_2_alg».proof.Proof.Gen.ReferenceIdeal.Read
import proofs.«136663_j34600256537208_2_alg».proof.Proof.KernelRun
import proofs.«136663_j34600256537208_2_alg».proof.Proof.StageOne
import proofs.«136663_j34600256537208_2_alg».proof.Proof.StageTwo
import proofs.«136663_j34600256537208_2_alg».proof.Proof.StageThree
import proofs.«136663_j34600256537208_2_alg».proof.Proof.StageFour
import proofs.«136663_j34600256537208_2_alg».proof.Proof.Bridge
import Idealize.ShloMosaic.Adequacy
import Idealize.ShloMosaic.Init

noncomputable section

namespace Cert.Proof

open Idealize.ShloMosaic Idealize.ShloMosaic.TcCoe Idealize.SL.Sem

/-- What each of the kernel's four regions leaves in its output array. -/
theorem stages : Cert.KernelIdeal.Gen.Stages :=
  ⟨Cert.Gcn.stageOne, Cert.Gcn.stageTwo, Cert.Gcn.stageThreeU, Cert.Gcn.stageThreeV, Cert.Gcn.stageFour⟩

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end, the kernel's result array at the last boundary's contents and the reference's at its
    composed term; on arguments that agree these are one array. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v61),
    Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  rw [Cert.ReferenceIdeal.Read.val_main_v142_eq, h0, h1, h2, h3, h4, h5, h6, h7, h8, h9, h10, h11, h12, h13, h14, h15, h16, h17]
  exact (Cert.KernelIdeal.Gen.kernel_eq_reference m ρ c stages).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
